-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024x3 : Shape := ⟨3, ![1, 1024, 3]⟩
abbrev S1x64x1024 : Shape := ⟨3, ![1, 64, 1024]⟩
abbrev S64x128 : Shape := ⟨2, ![64, 128]⟩
abbrev S64 : Shape := ⟨1, ![64]⟩
abbrev S64x64 : Shape := ⟨2, ![64, 64]⟩
abbrev S3x64 : Shape := ⟨2, ![3, 64]⟩
abbrev S3 : Shape := ⟨1, ![3]⟩
abbrev S64x3 : Shape := ⟨2, ![64, 3]⟩
abbrev S128x64 : Shape := ⟨2, ![128, 64]⟩
abbrev S128 : Shape := ⟨1, ![128]⟩
abbrev S1024x128 : Shape := ⟨2, ![1024, 128]⟩
abbrev S1024 : Shape := ⟨1, ![1024]⟩
abbrev S_ : Shape := ⟨0, ![]⟩

class Facts : Prop where
  bcast_S_S1x1024x3 : S_.BroadcastsInDim S1x1024x3 (![] : Fin 0 → Fin S1x1024x3.rank)
  reducesTo_S1x1024x3_S_d0_1_2 : S1x1024x3.ReducesTo [0, 1, 2] S_
  h_S_ : 0 < S_.numel
  bcast_S_S1x64x1024 : S_.BroadcastsInDim S1x64x1024 (![] : Fin 0 → Fin S1x64x1024.rank)
  reducesTo_S1x64x1024_S_d0_1_2 : S1x64x1024.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_
  bcast_S_S64x3 : S_.BroadcastsInDim S64x3 (![] : Fin 0 → Fin S64x3.rank)
  reducesTo_S64x3_S_d0_1 : S64x3.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S1024x128 : S_.BroadcastsInDim S1024x128 (![] : Fin 0 → Fin S1024x128.rank)
  reducesTo_S1024x128_S_d0_1 : S1024x128.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  main_v88

def fn_part4 {F : FTy → Type} [FloatOps F] (main_arg14 : FVec F S128x64 .f32) (main_arg15 : FVec F S128 .f32) (main_arg16 : FVec F S1024x128 .f32) (main_arg17 : FVec F S1024 .f32) (main_v63 : IVec S_ 1) (main_v67 : IVec S_ 1) : IVec S_ 1 :=
  let main_v68 : IVec S_ 1 := andi main_v63 main_v67
  let main_v69 : FVec F S128x64 .f32 := Host.absf main_arg14
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S1024x128 .f32 := Host.absf main_arg16
  let main_cst_30 : FVec F S_ .f32 := constant S_ .f32 0x7F800000#32
  let main_v80 : FVec F S1024x128 .f32 := broadcastInDim S1024x128 ![] bcast_S_S1024x128 main_cst_30
  let main_v81 : IVec S1024x128 1 := cmpf .olt main_v79 main_v80
  let main_c_31 : IVec S_ 1 := constantI S_ 1 1#1
  let main_v82 : IVec S_ 1 := (fun x v => Host.reduce IntOp.andi x v reducesTo_S1024x128_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_v83 main_v84 main_cst_32

def fn_part3 {F : FTy → Type} [FloatOps F] (main_arg11 : FVec F S3 .f32) (main_arg12 : FVec F S64x3 .f32) (main_arg13 : FVec F S64 .f32) (main_arg14 : FVec F S128x64 .f32) (main_arg15 : FVec F S128 .f32) (main_arg16 : FVec F S1024x128 .f32) (main_arg17 : FVec F S1024 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3 .f32 := Host.absf main_arg11
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  let main_v59 : FVec F S64x3 .f32 := Host.absf main_arg12
  let main_cst_22 : FVec F S_ .f32 := constant S_ .f32 0x7F800000#32
  let main_v60 : FVec F S64x3 .f32 := broadcastInDim S64x3 ![] bcast_S_S64x3 main_cst_22
  let main_v61 : IVec S64x3 1 := cmpf .olt main_v59 main_v60
  let main_c_23 : IVec S_ 1 := constantI S_ 1 1#1
  let main_v62 : IVec S_ 1 := (fun x v => Host.reduce IntOp.andi x v reducesTo_S64x3_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_v63 main_v67

def fn_part2 {F : FTy → Type} [FloatOps F] (main_arg7 : FVec F S64 .f32) (main_arg8 : FVec F S64x64 .f32) (main_arg9 : FVec F S64 .f32) (main_arg10 : FVec F S3x64 .f32) (main_arg11 : FVec F S3 .f32) (main_arg12 : FVec F S64x3 .f32) (main_arg13 : FVec F S64 .f32) (main_arg14 : FVec F S128x64 .f32) (main_arg15 : FVec F S128 .f32) (main_arg16 : FVec F S1024x128 .f32) (main_arg17 : FVec F S1024 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S3x64 .f32 := Host.absf main_arg10
  let main_cst_18 : FVec F S_ .f32 := constant S_ .f32 0x7F800000#32
  let main_v50 : FVec F S3x64 .f32 := broadcastInDim S3x64 ![] bcast_S_S3x64 main_cst_18
  fn_part3 (F := F) main_arg11 main_arg12 main_arg13 main_arg14 main_arg15 main_arg16 main_arg17 main_v48 main_v49 main_v50

def fn_part1 {F : FTy → Type} [FloatOps F] (main_arg4 : FVec F S64x128 .f32) (main_arg5 : FVec F S64 .f32) (main_arg6 : FVec F S64x64 .f32) (main_arg7 : FVec F S64 .f32) (main_arg8 : FVec F S64x64 .f32) (main_arg9 : FVec F S64 .f32) (main_arg10 : FVec F S3x64 .f32) (main_arg11 : FVec F S3 .f32) (main_arg12 : FVec F S64x3 .f32) (main_arg13 : FVec F S64 .f32) (main_arg14 : FVec F S128x64 .f32) (main_arg15 : FVec F S128 .f32) (main_arg16 : FVec F S1024x128 .f32) (main_arg17 : FVec F S1024 .f32) (main_v13 : IVec S_ 1) (main_v16 : IVec S1x64x1024 1) : IVec S_ 1 :=
  let main_c_5 : IVec S_ 1 := constantI S_ 1 1#1
  let main_v17 : IVec S_ 1 := (fun x v => Host.reduce IntOp.andi x v reducesTo_S1x64x1024_S_d0_1_2 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S1x1024x3 .f32) (main_arg1 : FVec F S1x1024x3 .f32) (main_arg2 : FVec F S1x64x1024 .f32) (main_arg3 : FVec F S1x64x1024 .f32) (main_arg4 : FVec F S64x128 .f32) (main_arg5 : FVec F S64 .f32) (main_arg6 : FVec F S64x64 .f32) (main_arg7 : FVec F S64 .f32) (main_arg8 : FVec F S64x64 .f32) (main_arg9 : FVec F S64 .f32) (main_arg10 : FVec F S3x64 .f32) (main_arg11 : FVec F S3 .f32) (main_arg12 : FVec F S64x3 .f32) (main_arg13 : FVec F S64 .f32) (main_arg14 : FVec F S128x64 .f32) (main_arg15 : FVec F S128 .f32) (main_arg16 : FVec F S1024x128 .f32) (main_arg17 : FVec F S1024 .f32) : IVec S_ 1 :=
  let main_v0 : FVec F S1x1024x3 .f32 := Host.absf main_arg0
  let main_cst : FVec F S_ .f32 := constant S_ .f32 0x7F800000#32
  let main_v1 : FVec F S1x1024x3 .f32 := broadcastInDim S1x1024x3 ![] bcast_S_S1x1024x3 main_cst
  let main_v2 : IVec S1x1024x3 1 := cmpf .olt main_v0 main_v1
  let main_c : IVec S_ 1 := constantI S_ 1 1#1
  let main_v3 : IVec S_ 1 := (fun x v => Host.reduce IntOp.andi x v reducesTo_S1x1024x3_S_d0_1_2 h_S_) main_v2 main_c
  let main_v4 : FVec F S1x1024x3 .f32 := Host.absf main_arg1
  let main_cst_0 : FVec F S_ .f32 := constant S_ .f32 0x7F800000#32
  let main_v5 : FVec F S1x1024x3 .f32 := broadcastInDim S1x1024x3 ![] bcast_S_S1x1024x3 main_cst_0
  let main_v6 : IVec S1x1024x3 1 := cmpf .olt main_v4 main_v5
  let main_c_1 : IVec S_ 1 := constantI S_ 1 1#1
  let main_v7 : IVec S_ 1 := (fun x v => Host.reduce IntOp.andi x v reducesTo_S1x1024x3_S_d0_1_2 h_S_) main_v6 main_c_1
  let main_v8 : IVec S_ 1 := andi main_v3 main_v7
  let main_v9 : FVec F S1x64x1024 .f32 := Host.absf main_arg2
  let main_cst_2 : FVec F S_ .f32 := constant S_ .f32 0x7F800000#32
  let main_v10 : FVec F S1x64x1024 .f32 := broadcastInDim S1x64x1024 ![] bcast_S_S1x64x1024 main_cst_2
  let main_v11 : IVec S1x64x1024 1 := cmpf .olt main_v9 main_v10
  let main_c_3 : IVec S_ 1 := constantI S_ 1 1#1
  let main_v12 : IVec S_ 1 := (fun x v => Host.reduce IntOp.andi x v reducesTo_S1x64x1024_S_d0_1_2 h_S_) main_v11 main_c_3
  let main_v13 : IVec S_ 1 := andi main_v8 main_v12
  let main_v14 : FVec F S1x64x1024 .f32 := Host.absf main_arg3
  let main_cst_4 : FVec F S_ .f32 := constant S_ .f32 0x7F800000#32
  let main_v15 : FVec F S1x64x1024 .f32 := broadcastInDim S1x64x1024 ![] bcast_S_S1x64x1024 main_cst_4
  let main_v16 : IVec S1x64x1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S1x1024x3 : Shape := ⟨3, ![1, 1024, 3]⟩
abbrev S1x64x1024 : Shape := ⟨3, ![1, 64, 1024]⟩
abbrev S64x128 : Shape := ⟨2, ![64, 128]⟩
abbrev S64 : Shape := ⟨1, ![64]⟩
abbrev S64x64 : Shape := ⟨2, ![64, 64]⟩
abbrev S3x64 : Shape := ⟨2, ![3, 64]⟩
abbrev S3 : Shape := ⟨1, ![3]⟩
abbrev S64x3 : Shape := ⟨2, ![64, 3]⟩
abbrev S128x64 : Shape := ⟨2, ![128, 64]⟩
abbrev S128 : Shape := ⟨1, ![128]⟩
abbrev S1024x128 : Shape := ⟨2, ![1024, 128]⟩
abbrev S1024 : Shape := ⟨1, ![1024]⟩
abbrev S64x1024 : Shape := ⟨2, ![64, 1024]⟩
abbrev S1024x64 : Shape := ⟨2, ![1024, 64]⟩
abbrev S1x64 : Shape := ⟨2, ![1, 64]⟩
abbrev S128x1x64 : Shape := ⟨3, ![128, 1, 64]⟩
abbrev S1x128x64 : Shape := ⟨3, ![1, 128, 64]⟩
abbrev S128x128x64 : Shape := ⟨3, ![128, 128, 64]⟩
abbrev S1x1x64 : Shape := ⟨3, ![1, 1, 64]⟩
abbrev S16384x64 : Shape := ⟨2, ![16384, 64]⟩
abbrev S1024x3 : Shape := ⟨2, ![1024, 3]⟩
abbrev S1x3 : Shape := ⟨2, ![1, 3]⟩
abbrev S1x128 : Shape := ⟨2, ![1, 128]⟩
abbrev S1x1024 : Shape := ⟨2, ![1, 1024]⟩
abbrev S1024x1088 : Shape := ⟨2, ![1024, 1088]⟩
abbrev S128x1024 : Shape := ⟨2, ![128, 1024]⟩
abbrev S1024x1024 : Shape := ⟨2, ![1024, 1024]⟩
abbrev S1x3x1024 : Shape := ⟨3, ![1, 3, 1024]⟩
abbrev S1x1024x1088 : Shape := ⟨3, ![1, 1024, 1088]⟩

abbrev nBuf : Space → Nat
  | .hbm => 38
  | .vmem => 26
  | .smem => 0
  | _ => 0

abbrev bufTy : (tb : Table) → Fin (tcTables nBuf tb) → BufTy
  | .hbm, ⟨0, _⟩ => ⟨S1x1024x3, .f32⟩
  | .hbm, ⟨1, _⟩ => ⟨S1x1024x3, .f32⟩
  | .hbm, ⟨2, _⟩ => ⟨S1x64x1024, .f32⟩
  | .hbm, ⟨3, _⟩ => ⟨S1x64x1024, .f32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S3x64, .f32⟩
  | .hbm, ⟨11, _⟩ => ⟨S3, .f32⟩
  | .hbm, ⟨12, _⟩ => ⟨S64x3, .f32⟩
  | .hbm, ⟨13, _⟩ => ⟨S64, .f32⟩
  | .hbm, ⟨14, _⟩ => ⟨S128x64, .f32⟩
  | .hbm, ⟨15, _⟩ => ⟨S128, .f32⟩
  | .hbm, ⟨16, _⟩ => ⟨S1024x128, .f32⟩
  | .hbm, ⟨17, _⟩ => ⟨S1024, .f32⟩
  | .hbm, ⟨18, _⟩ => ⟨S64x1024, .f32⟩
  | .hbm, ⟨19, _⟩ => ⟨S1024x64, .f32⟩
  | .hbm, ⟨20, _⟩ => ⟨S64x1024, .f32⟩
  | .hbm, ⟨21, _⟩ => ⟨S1024x64, .f32⟩
  | .hbm, ⟨22, _⟩ => ⟨S64x64, .f32⟩
  | .hbm, ⟨23, _⟩ => ⟨S64x64, .f32⟩
  | .hbm, ⟨24, _⟩ => ⟨S1x64, .f32⟩
  | .hbm, ⟨25, _⟩ => ⟨S1x64, .f32⟩
  | .hbm, ⟨26, _⟩ => ⟨S1024x64, .f32⟩
  | .hbm, ⟨27, _⟩ => ⟨S1024x3, .f32⟩
  | .hbm, ⟨28, _⟩ => ⟨S1x64, .f32⟩
  | .hbm, ⟨29, _⟩ => ⟨S1x3, .f32⟩
  | .hbm, ⟨30, _⟩ => ⟨S1x64, .f32⟩
  | .hbm, ⟨31, _⟩ => ⟨S1x128, .f32⟩
  | .hbm, ⟨32, _⟩ => ⟨S1x1024, .f32⟩
  | .hbm, ⟨33, _⟩ => ⟨S1024x3, .f32⟩
  | .hbm, ⟨34, _⟩ => ⟨S1024x1088, .f32⟩
  | .hbm, ⟨35, _⟩ => ⟨S1x1024x3, .f32⟩
  | .hbm, ⟨36, _⟩ => ⟨S1x3x1024, .f32⟩
  | .hbm, ⟨37, _⟩ => ⟨S1x1024x1088, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S128x64, .f32⟩
  | .local _ .vmem, ⟨10, _⟩ => ⟨S128x64, .f32⟩
  | .local _ .vmem, ⟨11, _⟩ => ⟨S128x64, .f32⟩
  | .local _ .vmem, ⟨12, _⟩ => ⟨S1024x64, .f32⟩
  | .local _ .vmem, ⟨13, _⟩ => ⟨S1024x3, .f32⟩
  | .local _ .vmem, ⟨14, _⟩ => ⟨S64x64, .f32⟩
  | .local _ .vmem, ⟨15, _⟩ => ⟨S1x64, .f32⟩
  | .local _ .vmem, ⟨16, _⟩ => ⟨S3x64, .f32⟩
  | .local _ .vmem, ⟨17, _⟩ => ⟨S1x3, .f32⟩
  | .local _ .vmem, ⟨18, _⟩ => ⟨S64x3, .f32⟩
  | .local _ .vmem, ⟨19, _⟩ => ⟨S1x64, .f32⟩
  | .local _ .vmem, ⟨20, _⟩ => ⟨S128x64, .f32⟩
  | .local _ .vmem, ⟨21, _⟩ => ⟨S1x128, .f32⟩
  | .local _ .vmem, ⟨22, _⟩ => ⟨S1024x128, .f32⟩
  | .local _ .vmem, ⟨23, _⟩ => ⟨S1x1024, .f32⟩
  | .local _ .vmem, ⟨24, _⟩ => ⟨S1024x3, .f32⟩
  | .local _ .vmem, ⟨25, _⟩ => ⟨S1024x1088, .f32⟩
  | _, _ => ⟨S1x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem13_0 : DmaSem sig := 24

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_23 : BitVec 32 := 0#32
  let v53 : BitVec 1 := Scalar.cmpi .ne v52 c0_i32_23
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1024x3 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1024x1088 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

class Facts₀ : Prop where
  shapeCasts_S1x64x1024_S64x1024 : S1x64x1024.ShapeCasts S64x1024
  transposes_S64x1024_S1024x64_1_0 : S64x1024.Transposes [1, 0] S1024x64
  slices_S64x128_S64x64_0_0 : S64x128.Slices ![0, 0] S64x64
  slices_S64x128_S64x64_0_64 : S64x128.Slices ![0, 64] S64x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S64 : S1x64.ShapeCasts S64
  transposes_S64x64_p1_0_S64x64 : S64x64.Transposes [1, 0] S64x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  shapeCasts_S64_S1x1x64 : S64.ShapeCasts S1x1x64
  broadcasts_S1x1x64_S128x128x64 : S1x1x64.Broadcasts S128x128x64
  shapeCasts_S128x128x64_S16384x64 : S128x128x64.ShapeCasts S16384x64
  shapeCasts_S16384x64_S128x128x64 : S16384x64.ShapeCasts S128x128x64
  reduces_S128x128x64_S128x64 : S128x128x64.Reduces [0] S128x64
  shapeCasts_S1x1024x3_S1024x3 : S1x1024x3.ShapeCasts S1024x3
  shapeCasts_S3_S1x3 : S3.ShapeCasts S1x3
  shapeCasts_S128_S1x128 : S128.ShapeCasts S1x128
  shapeCasts_S1024_S1x1024 : S1024.ShapeCasts S1x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S1x64_S1024x64 : S1x64.Broadcasts S1024x64
  inb_S3x64_S3x64_0_0 : ∀ a, (![0, 0] : Fin 2 → Nat) a + S3x64.size a ≤ S3x64.size a
  h_S3x64 : 0 < S3x64.numel
  inb_S1x3_S1x3_0_0 : ∀ a, (![0, 0] : Fin 2 → Nat) a + S1x3.size a ≤ S1x3.size a
  h_S1x3 : 0 < S1x3.numel
  shapeCasts_S1x3_S3 : S1x3.ShapeCasts S3
  transposes_S3x64_p1_0_S64x3 : S3x64.Transposes [1, 0] S64x3
  broadcasts_S1x3_S1024x3 : S1x3.Broadcasts S1024x3
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S64x3_S64x3_0_0 : ∀ a, (![0, 0] : Fin 2 → Nat) a + S64x3.size a ≤ S64x3.size a
  h_S64x3 : 0 < S64x3.numel
  transposes_S64x3_p1_0_S3x64 : S64x3.Transposes [1, 0] S3x64
  inb_S1x128_S1x128_0_0 : ∀ a, (![0, 0] : Fin 2 → Nat) a + S1x128.size a ≤ S1x128.size a
  h_S1x128 : 0 < S1x128.numel
  shapeCasts_S1x128_S128 : S1x128.ShapeCasts S128
  transposes_S128x64_p1_0_S64x128 : S128x64.Transposes [1, 0] S64x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  transposes_S1024x128_p1_0_S128x1024 : S1024x128.Transposes [1, 0] S128x1024
  broadcasts_S1x1024_S1024x1024 : S1x1024.Broadcasts S1024x1024
  reduces_S1024x1024_S1024 : S1024x1024.Reduces [0] S1024
  shapeCasts_S1x1024_S1x1024 : S1x1024.ShapeCasts S1x1024
  inb_S1024x1088_S1024x1024_0_0 : ∀ a, (![0, 0] : Fin 2 → Nat) a + S1024x1024.size a ≤ S1024x1088.size a
  h_S1024x1024 : 0 < S1024x1024.numel
  inb_S1024x1088_S1024x64_0_1024 : ∀ a, (![0, 1024] : Fin 2 → Nat) a + S1024x64.size a ≤ S1024x1088.size a
  bcast_S1024x3_S1x1024x3_1_2 : S1024x3.BroadcastsInDim S1x1024x3 (![1, 2] : Fin 2 → Fin S1x1024x3.rank)
  transposes_S1x1024x3_S1x3x1024_0_2_1 : S1x1024x3.Transposes [0, 2, 1] S1x3x1024
  bcast_S1024x1088_S1x1024x1088_1_2 : S1024x1088.BroadcastsInDim S1x1024x1088 (![1, 2] : Fin 2 → Fin S1x1024x1088.rank)
  dot_S128x64_S64x64_S128x64_1_0_0_1_n_n_wf : DotDims.WF S128x64 S64x64 S128x64 [1] [0] [0] [1] [] []
  dot_S16384x64_S64x64_S16384x64_1_0_0_1_n_n_wf : DotDims.WF S16384x64 S64x64 S16384x64 [1] [0] [0] [1] [] []
  dot_S1024x64_S64x64_S1024x64_1_0_0_1_n_n_wf : DotDims.WF S1024x64 S64x64 S1024x64 [1] [0] [0] [1] [] []
  dot_S1024x64_S64x3_S1024x3_1_0_0_1_n_n_wf : DotDims.WF S1024x64 S64x3 S1024x3 [1] [0] [0] [1] [] []
  dot_S1024x3_S3x64_S1024x64_1_0_0_1_n_n_wf : DotDims.WF S1024x3 S3x64 S1024x64 [1] [0] [0] [1] [] []
  dot_S1024x64_S64x128_S1024x128_1_0_0_1_n_n_wf : DotDims.WF S1024x64 S64x128 S1024x128 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S1024x64.size a
  hwx0_0 : ∀ i : grid0.Coords, EltTy.bits .f32 = 32 ∨ (Rect.block (s := S1024x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S1024x64.size a
  hwx0_1 : ∀ i : grid0.Coords, EltTy.bits .f32 = 32 ∨ (Rect.block (s := S1024x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S1024x64.size a
  hwx0_7 : ∀ i : grid0.Coords, EltTy.bits .f32 = 32 ∨ (Rect.block (s := S1024x64) S128x64.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S1024x64.size a
  hwx1_0 : ∀ i : grid1.Coords, EltTy.bits .f32 = 32 ∨ (Rect.block (s := S1024x64) S1024x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x3.size a ≤ S1024x3.size a
  hwx1_1 : ∀ i : grid1.Coords, EltTy.bits .f32 = 32 ∨ (Rect.block (s := S1024x3) S1024x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x64.size a ≤ S3x64.size a
  hwx1_4 : ∀ i : grid1.Coords, EltTy.bits .f32 = 32 ∨ (Rect.block (s := S3x64) S3x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x3.size a ≤ S1x3.size a
  hwx1_5 : ∀ i : grid1.Coords, EltTy.bits .f32 = 32 ∨ (Rect.block (s := S1x3) S1x3.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x3.size a ≤ S64x3.size a
  hwx1_6 : ∀ i : grid1.Coords, EltTy.bits .f32 = 32 ∨ (Rect.block (s := S64x3) S64x3.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .f32 = 32 ∨ (Rect.block (s := S128x64) S128x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1024x128.size a ≤ S1024x128.size a
  hwx1_10 : ∀ i : grid1.Coords, EltTy.bits .f32 = 32 ∨ (Rect.block (s := S1024x128) S1024x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1024.size a ≤ S1x1024.size a
  hwx1_11 : ∀ i : grid1.Coords, EltTy.bits .f32 = 32 ∨ (Rect.block (s := S1x1024) S1x1024.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1024x3.size a ≤ S1024x3.size a
  hwx1_12 : ∀ i : grid1.Coords, EltTy.bits .f32 = 32 ∨ (Rect.block (s := S1024x3) S1024x3.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1024x1088.size a ≤ S1024x1088.size a
  hwx1_13 : ∀ i : grid1.Coords, EltTy.bits .f32 = 32 ∨ (Rect.block (s := S1024x1088) S1024x1088.size (cc1_transform_13 i) (hinb1_13 i)).WholeWords (EltTy.packing .f32)

variable [Facts₀]

def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x3_S1024x3_1_0_0_1_n_n : DotDims S1024x64 S64x3 S1024x3 where
  lhsContracting := [1]
  rhsContracting := [0]
  lhsNonContracting := [0]
  rhsNonContracting := [1]
  lhsBatch := []
  rhsBatch := []
  wf := dot_S1024x64_S64x3_S1024x3_1_0_0_1_n_n_wf
def dot_S1024x3_S3x64_S1024x64_1_0_0_1_n_n : DotDims S1024x3 S3x64 S1024x64 where
  lhsContracting := [1]
  rhsContracting := [0]
  lhsNonContracting := [0]
  rhsNonContracting := [1]
  lhsBatch := []
  rhsBatch := []
  wf := dot_S1024x3_S3x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v1) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S128x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v8) S1024x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1024x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S3x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x3.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S64x3.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v13) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg16) S1024x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v14) S1x1024.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v15_0) S1024x3.size cc1_transform_12 reads1_12 true true 1 stage1_12 sem1_12
    hrank1 hreads1_12 hinb1_12 nbuf1_12 (Memref.isWhole_whole _) hwx1_12 hstage1_12

abbrev win1_13 : Pipeline.Window sig grid1 :=
  Pipeline.Window.ofSpec (Memref.whole main_v15_1) S1024x1088.size cc1_transform_13 reads1_13 true true 1 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S1x1024x3 : Shape := ⟨3, ![1, 1024, 3]⟩
abbrev S1x64x1024 : Shape := ⟨3, ![1, 64, 1024]⟩
abbrev S64x128 : Shape := ⟨2, ![64, 128]⟩
abbrev S64 : Shape := ⟨1, ![64]⟩
abbrev S64x64 : Shape := ⟨2, ![64, 64]⟩
abbrev S3x64 : Shape := ⟨2, ![3, 64]⟩
abbrev S3 : Shape := ⟨1, ![3]⟩
abbrev S64x3 : Shape := ⟨2, ![64, 3]⟩
abbrev S128x64 : Shape := ⟨2, ![128, 64]⟩
abbrev S128 : Shape := ⟨1, ![128]⟩
abbrev S1024x128 : Shape := ⟨2, ![1024, 128]⟩
abbrev S1024 : Shape := ⟨1, ![1024]⟩
abbrev S1x1024x64 : Shape := ⟨3, ![1, 1024, 64]⟩
abbrev S1x1024x1x64 : Shape := ⟨4, ![1, 1024, 1, 64]⟩
abbrev S1x1024x1024x64 : Shape := ⟨4, ![1, 1024, 1024, 64]⟩
abbrev S1x1x1024x64 : Shape := ⟨4, ![1, 1, 1024, 64]⟩
abbrev S1x1024x1024x128 : Shape := ⟨4, ![1, 1024, 1024, 128]⟩
abbrev S1x1x1x64 : Shape := ⟨4, ![1, 1, 1, 64]⟩
abbrev S_ : Shape := ⟨0, ![]⟩
abbrev S1x1x64 : Shape := ⟨3, ![1, 1, 64]⟩
abbrev S1x1x3 : Shape := ⟨3, ![1, 1, 3]⟩
abbrev S1x1024x128 : Shape := ⟨3, ![1, 1024, 128]⟩
abbrev S1x1x128 : Shape := ⟨3, ![1, 1, 128]⟩
abbrev S1x1024x1024 : Shape := ⟨3, ![1, 1024, 1024]⟩
abbrev S1x1x1024 : Shape := ⟨3, ![1, 1, 1024]⟩
abbrev S1x1024 : Shape := ⟨2, ![1, 1024]⟩
abbrev S1x1024x1088 : Shape := ⟨3, ![1, 1024, 1088]⟩
abbrev S1x3x1024 : Shape := ⟨3, ![1, 3, 1024]⟩

abbrev nBuf : Space → Nat
  | .hbm => 77
  | .vmem => 0
  | .smem => 0
  | _ => 0

abbrev bufTy : (tb : Table) → Fin (tcTables nBuf tb) → BufTy
  | .hbm, ⟨0, _⟩ => ⟨S1x1024x3, .f32⟩
  | .hbm, ⟨1, _⟩ => ⟨S1x1024x3, .f32⟩
  | .hbm, ⟨2, _⟩ => ⟨S1x64x1024, .f32⟩
  | .hbm, ⟨3, _⟩ => ⟨S1x64x1024, .f32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S3x64, .f32⟩
  | .hbm, ⟨11, _⟩ => ⟨S3, .f32⟩
  | .hbm, ⟨12, _⟩ => ⟨S64x3, .f32⟩
  | .hbm, ⟨13, _⟩ => ⟨S64, .f32⟩
  | .hbm, ⟨14, _⟩ => ⟨S128x64, .f32⟩
  | .hbm, ⟨15, _⟩ => ⟨S128, .f32⟩
  | .hbm, ⟨16, _⟩ => ⟨S1024x128, .f32⟩
  | .hbm, ⟨17, _⟩ => ⟨S1024, .f32⟩
  | .hbm, ⟨18, _⟩ => ⟨S1x1024x64, .f32⟩
  | .hbm, ⟨19, _⟩ => ⟨S1x1024x64, .f32⟩
  | .hbm, ⟨20, _⟩ => ⟨S1x1024x1x64, .f32⟩
  | .hbm, ⟨21, _⟩ => ⟨S1x1024x1024x64, .f32⟩
  | .hbm, ⟨22, _⟩ => ⟨S1x1x1024x64, .f32⟩
  | .hbm, ⟨23, _⟩ => ⟨S1x1024x1024x64, .f32⟩
  | .hbm, ⟨24, _⟩ => ⟨S1x1024x1024x128, .f32⟩
  | .hbm, ⟨25, _⟩ => ⟨S1x1024x1024x64, .f32⟩
  | .hbm, ⟨26, _⟩ => ⟨S1x1x1x64, .f32⟩
  | .hbm, ⟨27, _⟩ => ⟨S1x1024x1024x64, .f32⟩
  | .hbm, ⟨28, _⟩ => ⟨S1x1024x1024x64, .f32⟩
  | .hbm, ⟨29, _⟩ => ⟨S_, .f32⟩
  | .hbm, ⟨30, _⟩ => ⟨S1x1024x1024x64, .f32⟩
  | .hbm, ⟨31, _⟩ => ⟨S1x1024x1024x64, .f32⟩
  | .hbm, ⟨32, _⟩ => ⟨S1x1024x1024x64, .f32⟩
  | .hbm, ⟨33, _⟩ => ⟨S1x1x1x64, .f32⟩
  | .hbm, ⟨34, _⟩ => ⟨S1x1024x1024x64, .f32⟩
  | .hbm, ⟨35, _⟩ => ⟨S1x1024x1024x64, .f32⟩
  | .hbm, ⟨36, _⟩ => ⟨S_, .f32⟩
  | .hbm, ⟨37, _⟩ => ⟨S1x1024x1024x64, .f32⟩
  | .hbm, ⟨38, _⟩ => ⟨S1x1024x1024x64, .f32⟩
  | .hbm, ⟨39, _⟩ => ⟨S_, .f32⟩
  | .hbm, ⟨40, _⟩ => ⟨S1x1024x64, .f32⟩
  | .hbm, ⟨41, _⟩ => ⟨S1x1024x64, .f32⟩
  | .hbm, ⟨42, _⟩ => ⟨S1x1x64, .f32⟩
  | .hbm, ⟨43, _⟩ => ⟨S1x1024x64, .f32⟩
  | .hbm, ⟨44, _⟩ => ⟨S1x1024x64, .f32⟩
  | .hbm, ⟨45, _⟩ => ⟨S_, .f32⟩
  | .hbm, ⟨46, _⟩ => ⟨S1x1024x64, .f32⟩
  | .hbm, ⟨47, _⟩ => ⟨S1x1024x64, .f32⟩
  | .hbm, ⟨48, _⟩ => ⟨S1x1024x3, .f32⟩
  | .hbm, ⟨49, _⟩ => ⟨S1x1x3, .f32⟩
  | .hbm, ⟨50, _⟩ => ⟨S1x1024x3, .f32⟩
  | .hbm, ⟨51, _⟩ => ⟨S1x1024x3, .f32⟩
  | .hbm, ⟨52, _⟩ => ⟨S1x1024x3, .f32⟩
  | .hbm, ⟨53, _⟩ => ⟨S1x1024x64, .f32⟩
  | .hbm, ⟨54, _⟩ => ⟨S1x1x64, .f32⟩
  | .hbm, ⟨55, _⟩ => ⟨S1x1024x64, .f32⟩
  | .hbm, ⟨56, _⟩ => ⟨S1x1024x64, .f32⟩
  | .hbm, ⟨57, _⟩ => ⟨S_, .f32⟩
  | .hbm, ⟨58, _⟩ => ⟨S1x1024x64, .f32⟩
  | .hbm, ⟨59, _⟩ => ⟨S1x1024x64, .f32⟩
  | .hbm, ⟨60, _⟩ => ⟨S1x1024x128, .f32⟩
  | .hbm, ⟨61, _⟩ => ⟨S1x1x128, .f32⟩
  | .hbm, ⟨62, _⟩ => ⟨S1x1024x128, .f32⟩
  | .hbm, ⟨63, _⟩ => ⟨S1x1024x128, .f32⟩
  | .hbm, ⟨64, _⟩ => ⟨S_, .f32⟩
  | .hbm, ⟨65, _⟩ => ⟨S1x1024x128, .f32⟩
  | .hbm, ⟨66, _⟩ => ⟨S1x1024x128, .f32⟩
  | .hbm, ⟨67, _⟩ => ⟨S1x1024x1024, .f32⟩
  | .hbm, ⟨68, _⟩ => ⟨S1x1x1024, .f32⟩
  | .hbm, ⟨69, _⟩ => ⟨S1x1024x1024, .f32⟩
  | .hbm, ⟨70, _⟩ => ⟨S1x1024x1024, .f32⟩
  | .hbm, ⟨71, _⟩ => ⟨S_, .f32⟩
  | .hbm, ⟨72, _⟩ => ⟨S1x1024, .f32⟩
  | .hbm, ⟨73, _⟩ => ⟨S1x1x1024, .f32⟩
  | .hbm, ⟨74, _⟩ => ⟨S1x1024x1024, .f32⟩
  | .hbm, ⟨75, _⟩ => ⟨S1x1024x1088, .f32⟩
  | .hbm, ⟨76, _⟩ => ⟨S1x3x1024, .f32⟩
  | _, _ => ⟨S1x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call0_cst : Ref sig .tc := ⟨.hbm, 29, rfl⟩
abbrev main_call0_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call1_cst : Ref sig .tc := ⟨.hbm, 36, rfl⟩
abbrev main_call1_v0 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_call2_cst : Ref sig .tc := ⟨.hbm, 45, rfl⟩
abbrev main_call2_v0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call3_cst : Ref sig .tc := ⟨.hbm, 57, rfl⟩
abbrev main_call3_v0 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call4_cst : Ref sig .tc := ⟨.hbm, 64, rfl⟩
abbrev main_call4_v0 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_0 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩

abbrev nD : Nat := 1
abbrev τ : Topo := Topo.v7x

variable {F : FTy → Type} [FloatOps F]

class Facts₀ : Prop where
  transposes_S1x64x1024_S1x1024x64_0_2_1 : S1x64x1024.Transposes [0, 2, 1] S1x1024x64
  bcast_S1x1024x64_S1x1024x1x64_0_1_3 : S1x1024x64.BroadcastsInDim S1x1024x1x64 (![0, 1, 3] : Fin 3 → Fin S1x1024x1x64.rank)
  bcast_S1x1024x1x64_S1x1024x1024x64_0_1_2_3 : S1x1024x1x64.BroadcastsInDim S1x1024x1024x64 (![0, 1, 2, 3] : Fin 4 → Fin S1x1024x1024x64.rank)
  bcast_S1x1024x64_S1x1x1024x64_0_2_3 : S1x1024x64.BroadcastsInDim S1x1x1024x64 (![0, 2, 3] : Fin 3 → Fin S1x1x1024x64.rank)
  bcast_S1x1x1024x64_S1x1024x1024x64_0_1_2_3 : S1x1x1024x64.BroadcastsInDim S1x1024x1024x64 (![0, 1, 2, 3] : Fin 4 → Fin S1x1024x1024x64.rank)
  concatenates_S1x1024x1024x64_S1x1024x1024x64_S1x1024x1024x128_d3 : Shape.Concatenates [S1x1024x1024x64, S1x1024x1024x64] S1x1024x1024x128 3
  bcast_S64_S1x1x1x64_3 : S64.BroadcastsInDim S1x1x1x64 (![3] : Fin 1 → Fin S1x1x1x64.rank)
  bcast_S1x1x1x64_S1x1024x1024x64_0_1_2_3 : S1x1x1x64.BroadcastsInDim S1x1024x1024x64 (![0, 1, 2, 3] : Fin 4 → Fin S1x1024x1024x64.rank)
  bcast_S_S1x1024x1024x64 : S_.BroadcastsInDim S1x1024x1024x64 (![] : Fin 0 → Fin S1x1024x1024x64.rank)
  reducesTo_S1x1024x1024x64_S1x1024x64_d1 : S1x1024x1024x64.ReducesTo [1] S1x1024x64
  h_S_ : 0 < S_.numel
  bcast_S64_S1x1x64_2 : S64.BroadcastsInDim S1x1x64 (![2] : Fin 1 → Fin S1x1x64.rank)
  bcast_S1x1x64_S1x1024x64_0_1_2 : S1x1x64.BroadcastsInDim S1x1024x64 (![0, 1, 2] : Fin 3 → Fin S1x1024x64.rank)
  bcast_S_S1x1024x64 : S_.BroadcastsInDim S1x1024x64 (![] : Fin 0 → Fin S1x1024x64.rank)
  bcast_S3_S1x1x3_2 : S3.BroadcastsInDim S1x1x3 (![2] : Fin 1 → Fin S1x1x3.rank)
  bcast_S1x1x3_S1x1024x3_0_1_2 : S1x1x3.BroadcastsInDim S1x1024x3 (![0, 1, 2] : Fin 3 → Fin S1x1024x3.rank)
  bcast_S128_S1x1x128_2 : S128.BroadcastsInDim S1x1x128 (![2] : Fin 1 → Fin S1x1x128.rank)
  bcast_S1x1x128_S1x1024x128_0_1_2 : S1x1x128.BroadcastsInDim S1x1024x128 (![0, 1, 2] : Fin 3 → Fin S1x1024x128.rank)
  bcast_S_S1x1024x128 : S_.BroadcastsInDim S1x1024x128 (![] : Fin 0 → Fin S1x1024x128.rank)
  bcast_S1024_S1x1x1024_2 : S1024.BroadcastsInDim S1x1x1024 (![2] : Fin 1 → Fin S1x1x1024.rank)
  bcast_S1x1x1024_S1x1024x1024_0_1_2 : S1x1x1024.BroadcastsInDim S1x1024x1024 (![0, 1, 2] : Fin 3 → Fin S1x1024x1024.rank)
  reducesTo_S1x1024x1024_S1x1024_d1 : S1x1024x1024.ReducesTo [1] S1x1024
  bcast_S1x1024_S1x1x1024_0_2 : S1x1024.BroadcastsInDim S1x1x1024 (![0, 2] : Fin 2 → Fin S1x1x1024.rank)
  concatenates_S1x1024x1024_S1x1024x64_S1x1024x1088_d2 : Shape.Concatenates [S1x1024x1024, S1x1024x64] S1x1024x1088 2
  transposes_S1x1024x3_S1x3x1024_0_2_1 : S1x1024x3.Transposes [0, 2, 1] S1x3x1024
  dot_S1x1024x1024x128_S64x128_S1x1024x1024x64_3_1_012_0_n_n_wf : DotDims.WF S1x1024x1024x128 S64x128 S1x1024x1024x64 [3] [1] [0, 1, 2] [0] [] []
  dot_S1x1024x1024x64_S64x64_S1x1024x1024x64_3_1_012_0_n_n_wf : DotDims.WF S1x1024x1024x64 S64x64 S1x1024x1024x64 [3] [1] [0, 1, 2] [0] [] []
  dot_S1x1024x64_S64x64_S1x1024x64_2_1_01_0_n_n_wf : DotDims.WF S1x1024x64 S64x64 S1x1024x64 [2] [1] [0, 1] [0] [] []
  dot_S1x1024x64_S3x64_S1x1024x3_2_1_01_0_n_n_wf : DotDims.WF S1x1024x64 S3x64 S1x1024x3 [2] [1] [0, 1] [0] [] []
  dot_S1x1024x3_S64x3_S1x1024x64_2_1_01_0_n_n_wf : DotDims.WF S1x1024x3 S64x3 S1x1024x64 [2] [1] [0, 1] [0] [] []
  dot_S1x1024x64_S128x64_S1x1024x128_2_1_01_0_n_n_wf : DotDims.WF S1x1024x64 S128x64 S1x1024x128 [2] [1] [0, 1] [0] [] []
  dot_S1x1024x128_S1024x128_S1x1024x1024_2_1_01_0_n_n_wf : DotDims.WF S1x1024x128 S1024x128 S1x1024x1024 [2] [1] [0, 1] [0] [] []

variable [Facts₀]

def dot_S1x1024x1024x128_S64x128_S1x1024x1024x64_3_1_012_0_n_n : DotDims S1x1024x1024x128 S64x128 S1x1024x1024x64 where
  lhsContracting := [3]
  rhsContracting := [1]
  lhsNonContracting := [0, 1, 2]
  rhsNonContracting := [0]
  lhsBatch := []
  rhsBatch := []
  wf := dot_S1x1024x1024x128_S64x128_S1x1024x1024x64_3_1_012_0_n_n_wf
def dot_S1x1024x1024x64_S64x64_S1x1024x1024x64_3_1_012_0_n_n : DotDims S1x1024x1024x64 S64x64 S1x1024x1024x64 where
  lhsContracting := [3]
  rhsContracting := [1]
  lhsNonContracting := [0, 1, 2]
  rhsNonContracting := [0]
  lhsBatch := []
  rhsBatch := []
  wf := dot_S1x1024x1024x64_S64x64_S1x1024x1024x64_3_1_012_0_n_n_wf
def dot_S1x1024x64_S64x64_S1x1024x64_2_1_01_0_n_n : DotDims S1x1024x64 S64x64 S1x1024x64 where
  lhsContracting := [2]
  rhsContracting := [1]
  lhsNonContracting := [0, 1]
  rhsNonContracting := [0]
  lhsBatch := []
  rhsBatch := []
  wf := dot_S1x1024x64_S64x64_S1x1024x64_2_1_01_0_n_n_wf
def dot_S1x1024x64_S3x64_S1x1024x3_2_1_01_0_n_n : DotDims S1x1024x64 S3x64 S1x1024x3 where
  lhsContracting := [2]
  rhsContracting := [1]
  lhsNonContracting := [0, 1]
  rhsNonContracting := [0]
  lhsBatch := []
  rhsBatch := []
  wf := dot_S1x1024x64_S3x64_S1x1024x3_2_1_01_0_n_n_wf
def dot_S1x1024x3_S64x3_S1x1024x64_2_1_01_0_n_n : DotDims S1x1024x3 S64x3 S1x1024x64 where
  lhsContracting := [2]
  rhsContracting := [1]
  lhsNonContracting := [0, 1]
  rhsNonContracting := [0]
  lhsBatch := []
  rhsBatch := []
  wf := dot_S1x1024x3_S64x3_S1x1024x64_2_1_01_0_n_n_wf
def dot_S1x1024x64_S128x64_S1x1024x128_2_1_01_0_n_n : DotDims S1x1024x64 S128x64 S1x1024x128 where
  lhsContracting := [2]
  rhsContracting := [1]
  lhsNonContracting := [0, 1]
  rhsNonContracting := [0]
  lhsBatch := []
  rhsBatch := []
  wf := dot_S1x1024x64_S128x64_S1x1024x128_2_1_01_0_n_n_wf
def dot_S1x1024x128_S1024x128_S1x1024x1024_2_1_01_0_n_n : DotDims S1x1024x128 S1024x128 S1x1024x1024 where
  lhsContracting := [2]
  rhsContracting := [1]
  lhsNonContracting := [0, 1]
  rhsNonContracting := [0]
  lhsBatch := []
  rhsBatch := []
  wf := dot_S1x1024x128_S1024x128_S1x1024x1024_2_1_01_0_n_n_wf

class Facts : Prop extends Facts₀ where

variable [Facts]
-- ==== Proof.K_R0Runs.lean ====
/- Region 0 (the pairwise kernel on its 8×8 grid): what the three whole-body runs share, stated at the contents `V`
   the region is entered with — the windows' blocks, the inputs' staging contents, the body's two branch conditions in
   closed form over the grid, where the output window is idle, the staging and scratch memrefs, and the region
   invariant with the scratch accumulator as an owned memref. -/
import proofs.«141513_j49228915147505_1_alg».proof.Proof.Gen.Kernel.Launch
import proofs.«141513_j49228915147505_1_alg».proof.Proof.Gen.Kernel.Skeleton
import proofs.«141513_j49228915147505_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved), for any proof data whose array is `V`'s and whose body leaves the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved), for any proof data whose array is `V`'s and whose body leaves the block in place. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the
    block index has not moved), for any proof data whose array is `V`'s and whose body leaves the block in place. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (unfetched, the
    block index has not moved), for any proof data whose array is `V`'s and whose body leaves the block in place. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (unfetched, the
    block index has not moved), for any proof data whose array is `V`'s and whose body leaves the block in place. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (unfetched, the
    block index has not moved), for any proof data whose array is `V`'s and whose body leaves the block in place. -/
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (the accumulator is reset), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8): the inner coordinate is 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional (the accumulator is copied to the output block). -/
abbrev cond0_1 (i : grid0.Coords) : Prop := k0_cond2 i = 1#1
/-- It holds at the points ≡ 7 (mod 8): the inner coordinate is 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- Window 6 is never idle (an input). -/
theorem liveAt0_6 : ∀ t : Fin cfg0.N, cfg0.idle 6 (grid0.coords t) = false := by decide +kernel
/-- At the points of case A (inner coordinate 0) output 7 is idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B (inner coordinate 1..6) output 7 is idle. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C (inner coordinate 7) output 7 is live: the case stores into it. -/
theorem liveAt0_7_C : ∀ t : Fin cfg0.N, ¬cond0_0 (grid0.coords t) → cond0_1 (grid0.coords t) → cfg0.idle 7 (grid0.coords t) = false := by decide +kernel

/-! ## The staging and scratch memrefs -/

/-- One staging buffer of output window 7, through which its contents are stated (the choice does not matter). -/
abbrev VO0_7 : View sig .tc .vmem S128x64 .f32 := (Memref.whole cc0_stg7_0 : Memref sig .tc .vmem S128x64 .f32).view
/-- Each window's current staging memref at point `t`, spelled as the pipeline passes it, and its wholeness. -/
abbrev ms0_0 (t : Fin cfg0.N) : Memref sig .tc .vmem S128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x64 .f32 := win0_7.stage (cfg0.slots t 7)
abbrev hs0_7 (t : Fin cfg0.N) : (ms0_7 t).IsWhole := hstage0_7 ((cfg0.slots t 7).cast nbuf0_7)
/-- The scratch accumulator: a whole scoped buffer of the kernel's own, passed beside the windows. -/
abbrev scM0_0 : Memref sig .tc .vmem S128x64 .f32 := Memref.whole cc0_scratch0
/-- The scratch the kernel carries between points, as a view: what it holds is stated through it. -/
abbrev VS0_0 : View sig .tc .vmem S128x64 .f32 := scM0_0.view

/-- The core's other scoped buffers that are no staging buffer of this region (the second region's staging buffers),
    each whole at some contents: the body does not touch them. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg13_0), ((c : Thread nD τ).loc cc1_stg13_0) ↦{fullShare} f))

/-- The region invariant with the scratch accumulator as a memref owned at some contents: what the body obligation
    hands the run and takes back. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_eq]; simp only [scM0_0, owns_whole]; try rfl

end Cert.Kernel.Hand

end
-- ==== Proof.K_R0RunA.lean ====
/- The pairwise kernel's whole body run in case A of its control — the first inner grid step: the accumulator is reset to −∞ before
   the step, the output block is not written. -/
import proofs.«141513_j49228915147505_1_alg».proof.Proof.K_R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- What the body's stores leave in the output's staging memref and in the scratch accumulator, as pieces (last
    first), in case A (the inner grid coordinate is 0: the first conditional is taken (the accumulator is reset to -∞ before it is read), the second is not), WITH the proof that on whole memrefs — the inputs' at their
    contents `x·`, the output's (idle here) at contents `xi7` handed back untouched, the scratch at anything — the body runs to
    the continuation holding the inputs' as they were, the output's as it was and the scratch with its
    pieces written. The pieces are the witness the run finds. -/
noncomputable def kernelRun0_A (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : cond0_0 i) (hc1 : ¬cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) :
    Σ' (L7 : List (View.Piece (Elt F) S128x64 .f32)), { LS0 : List (View.Piece (Elt F) S128x64 .f32) //
      ∀ (xi7 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__edge_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Hand

end
-- ==== Proof.K_R0RunB.lean ====
/- The pairwise kernel's whole body run in case B of its control — an inner step that is neither first nor last: the accumulator is
   carried, the output block is not written. -/
import proofs.«141513_j49228915147505_1_alg».proof.Proof.K_R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- What the body's stores leave in the output's staging memref and in the scratch accumulator, as pieces (last
    first), in case B (the inner grid coordinate is 1..6: neither conditional is taken), WITH the proof that on whole memrefs — the inputs' at their
    contents `x·`, the output's (idle here) at contents `xi7` handed back untouched, the scratch at the contents `xs0` the point before left — the body runs to
    the continuation holding the inputs' as they were, the output's as it was and the scratch with its
    pieces written. The pieces are the witness the run finds. -/
noncomputable def kernelRun0_B (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : ¬cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) :
    Σ' (L7 : List (View.Piece (Elt F) S128x64 .f32)), { LS0 : List (View.Piece (Elt F) S128x64 .f32) //
      ∀ (xi7 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__edge_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Hand

end
-- ==== Proof.K_R0RunC.lean ====
/- The pairwise kernel's whole body run in case C of its control — the last inner step: the accumulator is carried and then stored
   to the output block. -/
import proofs.«141513_j49228915147505_1_alg».proof.Proof.K_R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- What the body's stores leave in the output's staging memref and in the scratch accumulator, as pieces (last
    first), in case C (the inner grid coordinate is 7: the first conditional is not taken, the second is (the accumulator is copied to the output block)), WITH the proof that on whole memrefs — the inputs' at their
    contents `x·`, the output's at anything, the scratch at the contents `xs0` the point before left — the body runs to
    the continuation holding the inputs' as they were, the output's buffer with its pieces written and the scratch with its
    pieces written. The pieces are the witness the run finds. -/
noncomputable def kernelRun0_C (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) :
    Σ' (L7 : List (View.Piece (Elt F) S128x64 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__edge_kernel i arg2 harg2 arg3 harg3 arg4 harg4 arg5 harg5 arg6 harg6 arg7 harg7 arg8 harg8 arg9 harg9 arg10 harg10) K } := by
  refine ⟨?_, ?_, fun E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel.Hand

end
-- ==== Proof.K_R0.lean ====
/- Region 0 (the pairwise kernel on its 8×8 grid), the rest of its proof data at the entry contents `V`: what the output
   block and the scratch accumulator hold per case of the control and point by point, the region invariant that carries
   the accumulator from point to point, the proof data, the body obligation, and the invariant's entry and exit. -/
import proofs.«141513_j49228915147505_1_alg».proof.Proof.K_R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Case A stores nothing into output 7 (the window is idle at its points and not written back there): no pieces — a
    placeholder that nothing consults. -/
def out0_A_7 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : cond0_0 i) (hc1 : ¬cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) : Vec F S128x64 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4 x5 x6).1)

/-- Case B stores nothing into output 7 (the window is idle at its points and not written back there): no pieces — a
    placeholder that nothing consults. -/
def out0_B_7 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : ¬cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) : Vec F S128x64 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 x5 x6 xs0).1)

/-- Case A's pieces for the scratch accumulator cover it (whole stores). -/
theorem scover0_A_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : cond0_0 i) (hc1 : ¬cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (y : S128x64.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).2.1 S128x64.size (by sl_kernel_rfl) y

/-- What case A leaves in the scratch accumulator: its pieces read back over junk. -/
def sout0_A_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : cond0_0 i) (hc1 : ¬cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) : Vec F S128x64 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5 x6).2.1)

/-- Case B's pieces for the scratch accumulator cover it (whole stores). -/
theorem scover0_B_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : ¬cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) (y : S128x64.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xs0).2.1 S128x64.size (by sl_kernel_rfl) y

/-- What case B leaves in the scratch accumulator: its pieces read back over junk. -/
def sout0_B_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : ¬cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) : Vec F S128x64 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 x6 xs0).2.1)

/-- Case C's pieces for output 7 tile its block (one whole store), so they cover it. -/
theorem cover0_C_7 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) (y : S128x64.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).1 S128x64.size (by sl_kernel_rfl) y

/-- What case C leaves in output 7's staging buffer: its pieces read back over junk. -/
def out0_C_7 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) : Vec F S128x64 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 x6 xs0).1)

/-- Case C's pieces for the scratch accumulator cover it (whole stores). -/
theorem scover0_C_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) (y : S128x64.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).2.1 S128x64.size (by sl_kernel_rfl) y

/-- What case C leaves in the scratch accumulator: its pieces read back over junk. -/
def sout0_C_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) : Vec F S128x64 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 x6 xs0).2.1)

/-! ## What the output block and the accumulator hold after each point -/

/-- THE ACCUMULATION. What output 7's staging buffer and the scratch accumulator hold after the body at position `n`
    (the output's buffer, then the scratch): the case the closed forms select at `n`, run at the point's memrefs and input
    blocks, the scratch read at what this leaves at `n - 1`. -/
def outsAt0 (c : Dev nD) : (n : ℕ) → n < cfg0.N → Vec F S128x64 .f32 × Vec F S128x64 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 8 = 0 then
      if h1 : (n + 1) % 8 = 7 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 8 = 7 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)

/-- `outsAt0` at a point of case A: that case's contents. -/
theorem outsAt0_A (c : Dev nD) (t : Fin cfg0.N) (h0 : t.val % 8 = 0) (h1 : ¬t.val % 8 = 7) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

/-- `outsAt0` at a point of case B: that case's contents, over what the point before left in the scratch. -/
theorem outsAt0_B (c : Dev nD) (t : Fin cfg0.N) (h0 : ¬t.val % 8 = 0) (h1 : ¬t.val % 8 = 7) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left in the scratch. -/
theorem outsAt0_C (c : Dev nD) (t : Fin cfg0.N) (h0 : ¬t.val % 8 = 0) (h1 : t.val % 8 = 7) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the scoped rest with the scratch accumulator at what the point before left in it (`outsAt0`'s second
    component), the other scoped buffers at anything, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

/-- Before a point that is not the first: the scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the output's at `outsAt0`'s first component; the invariant `PhiS0`; nothing
    owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point: the inputs' memrefs hold their blocks (`before0_W`); the closed forms say which case the point
    is in; so that case's run applies; the invariant hands the body the scratch at what the point before left (at
    anything at the first point) and takes it back at this point's contents; the other scoped buffers, the generator
    register and the core's `owes` pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS0_castSucc V c t, PhiS0_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold out0_C_7 sout0_C_0; (try dsimp only)
      by_cases hz : t.val = 0
      · exfalso; omega
      · rw [PhiS0_castSucc V c t, PhiS0_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class's invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.K_R1Run.lean ====
/- The per-point kernel on its one grid point: the whole body run on any whole staging memrefs — the pieces its stores leave in the
   two outputs' staging memrefs (last first), the inputs' contents unchanged; the outputs may be entered at any contents. -/
import proofs.«141513_j49228915147505_1_alg».proof.Proof.Gen.Kernel.Launch
import proofs.«141513_j49228915147505_1_alg».proof.Proof.Gen.Kernel.Skeleton
import proofs.«141513_j49228915147505_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1: the body's run on any staging memrefs

The body reads its twelve inputs whole, stores output 12 whole once, and stores output 13 through two rectangles
(columns 0..1023 and columns 1024..1087). It also loads each output rectangle just before storing it; those loaded
values feed no payload, so the outputs may be entered at any contents. -/

set_option maxHeartbeats 4000000 in
/-- The pieces the body's stores leave in each output's staging memref (last first), with the proof that on whole
    staging memrefs, the inputs' at contents `x·` and the outputs' at anything, the body runs to the continuation
    holding the inputs' as they were and each output's with its pieces written. -/
noncomputable def kernelRun1_A (c : Dev nD) (i : grid1.Coords) (arg1 : Memref sig .tc .vmem S1024x64 .f32) (harg1 : arg1.IsWhole) (arg2 : Memref sig .tc .vmem S1024x3 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S3x64 .f32) (harg5 : arg5.IsWhole) (arg6 : Memref sig .tc .vmem S1x3 .f32) (harg6 : arg6.IsWhole) (arg7 : Memref sig .tc .vmem S64x3 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1x1024 .f32) (harg12 : arg12.IsWhole) (arg13 : Memref sig .tc .vmem S1024x3 .f32) (harg13 : arg13.IsWhole) (arg14 : Memref sig .tc .vmem S1024x1088 .f32) (harg14 : arg14.IsWhole)
    (x0 : Vec F S1024x64 .f32) (x1 : Vec F S1024x3 .f32) (x2 : Vec F S64x64 .f32) (x3 : Vec F S1x64 .f32) (x4 : Vec F S3x64 .f32) (x5 : Vec F S1x3 .f32) (x6 : Vec F S64x3 .f32) (x7 : Vec F S1x64 .f32) (x8 : Vec F S128x64 .f32) (x9 : Vec F S1x128 .f32) (x10 : Vec F S1024x128 .f32) (x11 : Vec F S1x1024 .f32) :
    Σ' (L12 : List (View.Piece (Elt F) S1024x3 .f32)), { L13 : List (View.Piece (Elt F) S1024x1088 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ K ⟨⟩))
          ⊢ wp frame (wpE (defs₀ (F := F)) Variants.none c none) E (cc1__pointnet_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc1__pointnet_kernel_eq_skeleton]; unfold cc1__pointnet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    iexists _; iexact H13

end Cert.Kernel.Hand

end
-- ==== Proof.K_R1.lean ====
/- The per-point kernel on its one grid point, the rest of its proof data at the entry contents V: the windows' blocks, what the two
   output blocks hold after the body, the proof data, the body obligation, and the invariant's entry and exit. -/
import proofs.«141513_j49228915147505_1_alg».proof.Proof.Gen.Kernel.Launch
import proofs.«141513_j49228915147505_1_alg».proof.Proof.Gen.Kernel.Skeleton
import proofs.«141513_j49228915147505_1_alg».proof.Proof.Gen.Kernel.Points
import proofs.«141513_j49228915147505_1_alg».proof.Proof.K_R1Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: the parameter the region's half is stated at
variable (V : (c : Dev nD) → (b : Ref sig .tc) → Buf (Elt F) ((c : Thread nD τ).loc b))

/-! # Region 1 (pipeline 1, one grid point), at the entry contents `V`

## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place (the window is uncut and never idle). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place (the window is uncut and never idle). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place (the window is uncut and never idle). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place (the window is uncut and never idle). -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place (the window is uncut and never idle). -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place (the window is uncut and never idle). -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place (the window is uncut and never idle). -/
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s and whose body leaves the block in place (the window is uncut and never idle). -/
theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is `V`'s and whose body leaves the block in place (the window is uncut and never idle). -/
theorem before1_8_of {c : Dev nD} (dat : Dat τ (Elt F) Unit ℕ (Pipeline.UD sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not, for any proof
    data whose array is `V`'s and whose body leaves the block in place (the window is uncut and never idle). -/
theorem before1_9_of {c : Dev nD} (dat : Dat τ (Elt F) Unit ℕ (Pipeline.UD sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current staging buffer holds its block at every point, fetched there or not, for any proof
    data whose array is `V`'s and whose body leaves the block in place (the window is uncut and never idle). -/
theorem before1_10_of {c : Dev nD} (dat : Dat τ (Elt F) Unit ℕ (Pipeline.UD sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's current staging buffer holds its block at every point, fetched there or not, for any proof
    data whose array is `V`'s and whose body leaves the block in place (the window is uncut and never idle). -/
theorem before1_11_of {c : Dev nD} (dat : Dat τ (Elt F) Unit ℕ (Pipeline.UD sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs and the outputs' views -/

/-- One staging buffer of each output window, through which its contents are stated (the choice does not matter:
    a covering list of writes reads the same through any view). -/
abbrev VO1_12 : View sig .tc .vmem S1024x3 .f32 := (Memref.whole cc1_stg12_0 : Memref sig .tc .vmem S1024x3 .f32).view
abbrev VO1_13 : View sig .tc .vmem S1024x1088 .f32 := (Memref.whole cc1_stg13_0 : Memref sig .tc .vmem S1024x1088 .f32).view
/-- Each window's current staging memref at point `t`, spelled as the pipeline passes it (`bodyAt1`), and its wholeness. -/
abbrev ms1_0 (t : Fin cfg1.N) : Memref sig .tc .vmem S1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S3x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x3 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x3 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1024x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x1024 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1024x3 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1024x1088 .f32 := win1_13.stage (cfg1.slots t 13)
abbrev hs1_13 (t : Fin cfg1.N) : (ms1_13 t).IsWhole := hstage1_13 ((cfg1.slots t 13).cast nbuf1_13)

/-! ## What the run leaves in the outputs -/

/-- The run's pieces for output 12 tile its block (one store of the whole `S1024x3`), so they cover it. -/
theorem cover1_A_12 (c : Dev nD) (i : grid1.Coords) (arg1 : Memref sig .tc .vmem S1024x64 .f32) (harg1 : arg1.IsWhole) (arg2 : Memref sig .tc .vmem S1024x3 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S3x64 .f32) (harg5 : arg5.IsWhole) (arg6 : Memref sig .tc .vmem S1x3 .f32) (harg6 : arg6.IsWhole) (arg7 : Memref sig .tc .vmem S64x3 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1x1024 .f32) (harg12 : arg12.IsWhole) (arg13 : Memref sig .tc .vmem S1024x3 .f32) (harg13 : arg13.IsWhole) (arg14 : Memref sig .tc .vmem S1024x1088 .f32) (harg14 : arg14.IsWhole)
    (x0 : Vec F S1024x64 .f32) (x1 : Vec F S1024x3 .f32) (x2 : Vec F S64x64 .f32) (x3 : Vec F S1x64 .f32) (x4 : Vec F S3x64 .f32) (x5 : Vec F S1x3 .f32) (x6 : Vec F S64x3 .f32) (x7 : Vec F S1x64 .f32) (x8 : Vec F S128x64 .f32) (x9 : Vec F S1x128 .f32) (x10 : Vec F S1024x128 .f32) (x11 : Vec F S1x1024 .f32) (y : S1024x3.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1 S1024x3.size (by sl_kernel_rfl) y

/-- What the run leaves in output 12's staging buffer: its pieces read back over junk. -/
def out1_A_12 (c : Dev nD) (i : grid1.Coords) (arg1 : Memref sig .tc .vmem S1024x64 .f32) (harg1 : arg1.IsWhole) (arg2 : Memref sig .tc .vmem S1024x3 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S3x64 .f32) (harg5 : arg5.IsWhole) (arg6 : Memref sig .tc .vmem S1x3 .f32) (harg6 : arg6.IsWhole) (arg7 : Memref sig .tc .vmem S64x3 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1x1024 .f32) (harg12 : arg12.IsWhole) (arg13 : Memref sig .tc .vmem S1024x3 .f32) (harg13 : arg13.IsWhole) (arg14 : Memref sig .tc .vmem S1024x1088 .f32) (harg14 : arg14.IsWhole)
    (x0 : Vec F S1024x64 .f32) (x1 : Vec F S1024x3 .f32) (x2 : Vec F S64x64 .f32) (x3 : Vec F S1x64 .f32) (x4 : Vec F S3x64 .f32) (x5 : Vec F S1x3 .f32) (x6 : Vec F S64x3 .f32) (x7 : Vec F S1x64 .f32) (x8 : Vec F S128x64 .f32) (x9 : Vec F S1x128 .f32) (x10 : Vec F S1024x128 .f32) (x11 : Vec F S1x1024 .f32) : Vec F S1024x3 .f32 :=
  VO1_12.read (Elt F) (VO1_12.writes (Elt F) VO1_12.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1)

/-- The run's pieces for output 13 cover its block: columns 0..1023 by one store, columns 1024..1087 by the other. -/
theorem cover1_A_13 (c : Dev nD) (i : grid1.Coords) (arg1 : Memref sig .tc .vmem S1024x64 .f32) (harg1 : arg1.IsWhole) (arg2 : Memref sig .tc .vmem S1024x3 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S3x64 .f32) (harg5 : arg5.IsWhole) (arg6 : Memref sig .tc .vmem S1x3 .f32) (harg6 : arg6.IsWhole) (arg7 : Memref sig .tc .vmem S64x3 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1x1024 .f32) (harg12 : arg12.IsWhole) (arg13 : Memref sig .tc .vmem S1024x3 .f32) (harg13 : arg13.IsWhole) (arg14 : Memref sig .tc .vmem S1024x1088 .f32) (harg14 : arg14.IsWhole)
    (x0 : Vec F S1024x64 .f32) (x1 : Vec F S1024x3 .f32) (x2 : Vec F S64x64 .f32) (x3 : Vec F S1x64 .f32) (x4 : Vec F S3x64 .f32) (x5 : Vec F S1x3 .f32) (x6 : Vec F S64x3 .f32) (x7 : Vec F S1x64 .f32) (x8 : Vec F S128x64 .f32) (x9 : Vec F S1x128 .f32) (x10 : Vec F S1024x128 .f32) (x11 : Vec F S1x1024 .f32) (y : S1024x1088.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).2.1, y ∈ pc.1.set :=
  View.cover_of_tiledBy (kernelRun1_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).2.1 ![1024, 64] (by sl_kernel_rfl) y

/-- What the run leaves in output 13's staging buffer: its pieces read back over junk. -/
def out1_A_13 (c : Dev nD) (i : grid1.Coords) (arg1 : Memref sig .tc .vmem S1024x64 .f32) (harg1 : arg1.IsWhole) (arg2 : Memref sig .tc .vmem S1024x3 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S3x64 .f32) (harg5 : arg5.IsWhole) (arg6 : Memref sig .tc .vmem S1x3 .f32) (harg6 : arg6.IsWhole) (arg7 : Memref sig .tc .vmem S64x3 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1x1024 .f32) (harg12 : arg12.IsWhole) (arg13 : Memref sig .tc .vmem S1024x3 .f32) (harg13 : arg13.IsWhole) (arg14 : Memref sig .tc .vmem S1024x1088 .f32) (harg14 : arg14.IsWhole)
    (x0 : Vec F S1024x64 .f32) (x1 : Vec F S1024x3 .f32) (x2 : Vec F S64x64 .f32) (x3 : Vec F S1x64 .f32) (x4 : Vec F S3x64 .f32) (x5 : Vec F S1x3 .f32) (x6 : Vec F S64x3 .f32) (x7 : Vec F S1x64 .f32) (x8 : Vec F S128x64 .f32) (x9 : Vec F S1x128 .f32) (x10 : Vec F S1024x128 .f32) (x11 : Vec F S1x1024 .f32) : Vec F S1024x1088 .f32 :=
  VO1_13.read (Elt F) (VO1_13.writes (Elt F) VO1_13.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).2.1)

/-! ## What the outputs hold after each point -/

/-- What output 12's staging buffer holds after the body at point `t`: the run's contents at the point's memrefs
    and input blocks. -/
def outsAt1_12 (c : Dev nD) (t : Fin cfg1.N) : Vec F S1024x3 .f32 :=
  out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
/-- What output 13's staging buffer holds after the body at point `t`. -/
def outsAt1_13 (c : Dev nD) (t : Fin cfg1.N) : Vec F S1024x1088 .f32 :=
  out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)

/-! ## The pipeline's proof data -/

/-- The proof data of pipeline 1 on core `c`: the arrays as the region finds them (`V`); after the body at point `t`
    each input's buffer at its block and each output's at what the run leaves; the invariant the scoped rest and the
    generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => outsAt1_12 V c t
    | ⟨13, _⟩ => outsAt1_13 V c t
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = outsAt1_12 V c t := by dsimp only [dat1]
theorem after1_13 (c : Dev nD) (t : Fin cfg1.N) : (dat1 V c).after 13 t = outsAt1_13 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t))

/-- The body at any point: the inputs' memrefs hold their blocks (`before1_W`), the outputs' anything, so the run
    applies; the invariant and the core's `owes` pass through unread; each output's buffer, written through pieces
    that cover it, reads the same as those pieces written over junk. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  unfold outsAt1_12 outsAt1_13
  unfold out1_A_12 out1_A_13
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, ⟨%e12, H12⟩, ⟨%e13, H13⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover1_A_12 c _ _ _ _ _ _ _ _ _ _ _ _ _ _ _ _ _ _ _ _ _ _ _ _ _ _ _ _ _ _ _ _ _ _ _ _ _ _ _ _ _)
  unfold owns; iexists _; isplitr
  swap; · iexact H13
  ipureintro; exact View.read_writes_of_cover _ _ _ _ _ (cover1_A_13 c _ _ _ _ _ _ _ _ _ _ _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K_Run.lean ====
/-
  The program from launch to return: the host stretch before the first kernel region, the pairwise region, the host stretch
  between, the per-point region, and the host tail, composed in order. Between two items every unscoped buffer of a core is held
  whole at named contents: the launch memory, then what the first stretch computes from it, then the pairwise region's arrays
  at what its pipeline leaves in them (every other buffer as before), and so on to the end. Every weakly fair execution
  terminates, and the final memory holds each unscoped buffer at the last of these contents; read at the argument arrays,
  which no host operation writes and no region changes, this is the frame.
-/
import proofs.«141513_j49228915147505_1_alg».proof.Proof.K_R0
import proofs.«141513_j49228915147505_1_alg».proof.Proof.K_R1
import proofs.«141513_j49228915147505_1_alg».proof.Proof.Gen.Kernel.Regions
import Idealize.ShloMosaic.Lib.Pipeline.Regions
import Idealize.ShloMosaic.Lib.Pipeline.FrameSuffix
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents between items -/

/-- Core `c`'s buffers at launch. -/
abbrev B0 : Dev nD → Valuation τ sig (Elt F) := fun c b => m (c, b)
/-- After the first host stretch. -/
def B1 (c : Dev nD) : Valuation τ sig (Elt F) := StableHlo.after hostOps0 (B0 m c)
/-- The same read at the TensorCore's references: what the pairwise region is entered with. -/
abbrev E1 : (c : Dev nD) → (b : Ref sig .tc) → Buf (Elt F) ((c : Thread nD τ).loc b) := fun c b => B1 m c b
/-- After the pairwise region: its arrays at what the pipeline leaves, every other buffer as entered. -/
def B2 (c : Dev nD) : Valuation τ sig (Elt F) :=
  Pipeline.withArrays spec0 c (B1 m c) fun w => (dat0 (E1 m) c).arrAt w cfg0.N
abbrev E2 : (c : Dev nD) → (b : Ref sig .tc) → Buf (Elt F) ((c : Thread nD τ).loc b) := fun c b => B2 m c b
/-- After the second host stretch. -/
def B3 (c : Dev nD) : Valuation τ sig (Elt F) := StableHlo.after hostOps1 (B2 m c)
/-- What the per-point region is entered with. -/
abbrev E3 : (c : Dev nD) → (b : Ref sig .tc) → Buf (Elt F) ((c : Thread nD τ).loc b) := fun c b => B3 m c b
/-- After the per-point region. -/
def B4 (c : Dev nD) : Valuation τ sig (Elt F) :=
  Pipeline.withArrays spec1 c (B3 m c) fun w => (dat1 (E3 m) c).arrAt w cfg1.N
abbrev E4 : (c : Dev nD) → (b : Ref sig .tc) → Buf (Elt F) ((c : Thread nD τ).loc b) := fun c b => B4 m c b
/-- After the host tail: the final contents. -/
def B5 (c : Dev nD) : Valuation τ sig (Elt F) := StableHlo.after hostOps2 (B4 m c)

theorem B1_of (c : Dev nD) (r : Ref sig .tc) (h : r ∉ hostOps0_W) : B1 m c r = B0 m c r :=
  StableHlo.after_of_writes_sub hostOps0 _ hostOps0_writes h
theorem B3_of (c : Dev nD) (r : Ref sig .tc) (h : r ∉ hostOps1_W) : B3 m c r = B2 m c r :=
  StableHlo.after_of_writes_sub hostOps1 _ hostOps1_writes h
theorem B5_of (c : Dev nD) (r : Ref sig .tc) (h : r ∉ hostOps2_W) : B5 m c r = B4 m c r :=
  StableHlo.after_of_writes_sub hostOps2 _ hostOps2_writes h

theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-! ## The arguments end as launched -/

theorem B5_main_arg0 (c : Dev nD) : B5 m c (Proc.devRef .tc main_arg0) = m ((c : Thread nD τ).loc main_arg0) :=
  (B5_of m c main_arg0 (by decide)).trans <| (B4_of_ne m c main_arg0 (by decide)).trans <| (B3_of m c main_arg0 (by decide)).trans <| (B2_of_ne m c main_arg0 (by decide)).trans <| (B1_of m c main_arg0 (by decide)).trans rfl
theorem B5_main_arg1 (c : Dev nD) : B5 m c (Proc.devRef .tc main_arg1) = m ((c : Thread nD τ).loc main_arg1) :=
  (B5_of m c main_arg1 (by decide)).trans <| (B4_of_ne m c main_arg1 (by decide)).trans <| (B3_of m c main_arg1 (by decide)).trans <| (B2_of_ne m c main_arg1 (by decide)).trans <| (B1_of m c main_arg1 (by decide)).trans rfl
theorem B5_main_arg2 (c : Dev nD) : B5 m c (Proc.devRef .tc main_arg2) = m ((c : Thread nD τ).loc main_arg2) :=
  (B5_of m c main_arg2 (by decide)).trans <| (B4_of_ne m c main_arg2 (by decide)).trans <| (B3_of m c main_arg2 (by decide)).trans <| (B2_of_ne m c main_arg2 (by decide)).trans <| (B1_of m c main_arg2 (by decide)).trans rfl
theorem B5_main_arg3 (c : Dev nD) : B5 m c (Proc.devRef .tc main_arg3) = m ((c : Thread nD τ).loc main_arg3) :=
  (B5_of m c main_arg3 (by decide)).trans <| (B4_of_ne m c main_arg3 (by decide)).trans <| (B3_of m c main_arg3 (by decide)).trans <| (B2_of_ne m c main_arg3 (by decide)).trans <| (B1_of m c main_arg3 (by decide)).trans rfl
theorem B5_main_arg4 (c : Dev nD) : B5 m c (Proc.devRef .tc main_arg4) = m ((c : Thread nD τ).loc main_arg4) :=
  (B5_of m c main_arg4 (by decide)).trans <| (B4_of_ne m c main_arg4 (by decide)).trans <| (B3_of m c main_arg4 (by decide)).trans <| (B2_of_ne m c main_arg4 (by decide)).trans <| (B1_of m c main_arg4 (by decide)).trans rfl
theorem B5_main_arg5 (c : Dev nD) : B5 m c (Proc.devRef .tc main_arg5) = m ((c : Thread nD τ).loc main_arg5) :=
  (B5_of m c main_arg5 (by decide)).trans <| (B4_of_ne m c main_arg5 (by decide)).trans <| (B3_of m c main_arg5 (by decide)).trans <| (B2_of_ne m c main_arg5 (by decide)).trans <| (B1_of m c main_arg5 (by decide)).trans rfl
theorem B5_main_arg6 (c : Dev nD) : B5 m c (Proc.devRef .tc main_arg6) = m ((c : Thread nD τ).loc main_arg6) :=
  (B5_of m c main_arg6 (by decide)).trans <| (B4_of_ne m c main_arg6 (by decide)).trans <| (B3_of m c main_arg6 (by decide)).trans <| ((B2_arr m c 5).trans (((dat0 (E1 m) c).arrAt_in 5 rfl _).trans (A_eq0 (E1 m) c 5))).trans <| (B1_of m c main_arg6 (by decide)).trans rfl
theorem B5_main_arg7 (c : Dev nD) : B5 m c (Proc.devRef .tc main_arg7) = m ((c : Thread nD τ).loc main_arg7) :=
  (B5_of m c main_arg7 (by decide)).trans <| (B4_of_ne m c main_arg7 (by decide)).trans <| (B3_of m c main_arg7 (by decide)).trans <| (B2_of_ne m c main_arg7 (by decide)).trans <| (B1_of m c main_arg7 (by decide)).trans rfl
theorem B5_main_arg8 (c : Dev nD) : B5 m c (Proc.devRef .tc main_arg8) = m ((c : Thread nD τ).loc main_arg8) :=
  (B5_of m c main_arg8 (by decide)).trans <| ((B4_arr m c 2).trans (((dat1 (E3 m) c).arrAt_in 2 rfl _).trans (A_eq1 (E3 m) c 2))).trans <| (B3_of m c main_arg8 (by decide)).trans <| (B2_of_ne m c main_arg8 (by decide)).trans <| (B1_of m c main_arg8 (by decide)).trans rfl
theorem B5_main_arg9 (c : Dev nD) : B5 m c (Proc.devRef .tc main_arg9) = m ((c : Thread nD τ).loc main_arg9) :=
  (B5_of m c main_arg9 (by decide)).trans <| (B4_of_ne m c main_arg9 (by decide)).trans <| (B3_of m c main_arg9 (by decide)).trans <| (B2_of_ne m c main_arg9 (by decide)).trans <| (B1_of m c main_arg9 (by decide)).trans rfl
theorem B5_main_arg10 (c : Dev nD) : B5 m c (Proc.devRef .tc main_arg10) = m ((c : Thread nD τ).loc main_arg10) :=
  (B5_of m c main_arg10 (by decide)).trans <| ((B4_arr m c 4).trans (((dat1 (E3 m) c).arrAt_in 4 rfl _).trans (A_eq1 (E3 m) c 4))).trans <| (B3_of m c main_arg10 (by decide)).trans <| (B2_of_ne m c main_arg10 (by decide)).trans <| (B1_of m c main_arg10 (by decide)).trans rfl
theorem B5_main_arg11 (c : Dev nD) : B5 m c (Proc.devRef .tc main_arg11) = m ((c : Thread nD τ).loc main_arg11) :=
  (B5_of m c main_arg11 (by decide)).trans <| (B4_of_ne m c main_arg11 (by decide)).trans <| (B3_of m c main_arg11 (by decide)).trans <| (B2_of_ne m c main_arg11 (by decide)).trans <| (B1_of m c main_arg11 (by decide)).trans rfl
theorem B5_main_arg12 (c : Dev nD) : B5 m c (Proc.devRef .tc main_arg12) = m ((c : Thread nD τ).loc main_arg12) :=
  (B5_of m c main_arg12 (by decide)).trans <| ((B4_arr m c 6).trans (((dat1 (E3 m) c).arrAt_in 6 rfl _).trans (A_eq1 (E3 m) c 6))).trans <| (B3_of m c main_arg12 (by decide)).trans <| (B2_of_ne m c main_arg12 (by decide)).trans <| (B1_of m c main_arg12 (by decide)).trans rfl
theorem B5_main_arg13 (c : Dev nD) : B5 m c (Proc.devRef .tc main_arg13) = m ((c : Thread nD τ).loc main_arg13) :=
  (B5_of m c main_arg13 (by decide)).trans <| (B4_of_ne m c main_arg13 (by decide)).trans <| (B3_of m c main_arg13 (by decide)).trans <| (B2_of_ne m c main_arg13 (by decide)).trans <| (B1_of m c main_arg13 (by decide)).trans rfl
theorem B5_main_arg14 (c : Dev nD) : B5 m c (Proc.devRef .tc main_arg14) = m ((c : Thread nD τ).loc main_arg14) :=
  (B5_of m c main_arg14 (by decide)).trans <| ((B4_arr m c 8).trans (((dat1 (E3 m) c).arrAt_in 8 rfl _).trans (A_eq1 (E3 m) c 8))).trans <| (B3_of m c main_arg14 (by decide)).trans <| (B2_of_ne m c main_arg14 (by decide)).trans <| (B1_of m c main_arg14 (by decide)).trans rfl
theorem B5_main_arg15 (c : Dev nD) : B5 m c (Proc.devRef .tc main_arg15) = m ((c : Thread nD τ).loc main_arg15) :=
  (B5_of m c main_arg15 (by decide)).trans <| (B4_of_ne m c main_arg15 (by decide)).trans <| (B3_of m c main_arg15 (by decide)).trans <| (B2_of_ne m c main_arg15 (by decide)).trans <| (B1_of m c main_arg15 (by decide)).trans rfl
theorem B5_main_arg16 (c : Dev nD) : B5 m c (Proc.devRef .tc main_arg16) = m ((c : Thread nD τ).loc main_arg16) :=
  (B5_of m c main_arg16 (by decide)).trans <| ((B4_arr m c 10).trans (((dat1 (E3 m) c).arrAt_in 10 rfl _).trans (A_eq1 (E3 m) c 10))).trans <| (B3_of m c main_arg16 (by decide)).trans <| (B2_of_ne m c main_arg16 (by decide)).trans <| (B1_of m c main_arg16 (by decide)).trans rfl
theorem B5_main_arg17 (c : Dev nD) : B5 m c (Proc.devRef .tc main_arg17) = m ((c : Thread nD τ).loc main_arg17) :=
  (B5_of m c main_arg17 (by decide)).trans <| (B4_of_ne m c main_arg17 (by decide)).trans <| (B3_of m c main_arg17 (by decide)).trans <| (B2_of_ne m c main_arg17 (by decide)).trans <| (B1_of m c main_arg17 (by decide)).trans rfl

/-! ## The proof data family and the thread state -/

/-- No pallas_call has a prefetched table. -/
abbrev admH : (p : Fin 2) → (pcfgs (F := F) p).Adm := fun p => (cfgs p).toPCfg_adm
/-- Each region's proof data at the contents it is entered with. -/
def pdats : (p : Fin 2) → (c : Dev nD) → Dat τ (Elt F) Unit ℕ (Pipeline.UD sig nD τ) ℕ (Pipeline.pin (pcfgs (F := F)) admH p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a segment over all unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B5 m c) ∗ ∃ r, prngReg c r)

/-! ## The regions as segments -/

set_option backward.isDefEq.respectTransparency.types false in
/-- The pairwise region: entered from the buffers at `B1`, left at `B2`. Its arrays are split out of the unscoped buffers and put
    back at their exit contents; the generator register goes into the region's invariant and comes back; nothing is owed. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (E1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (E1 m c) fun w => A_eq0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (E1 m) c).Φ 0 from rfl]
    refine (?_ : _ ⊢ Pipeline.ΦA spec0 c).trans (hin0 (E1 m) c)
    unfold Pipeline.ΦA
    iintro ⟨Hp, -, Hr⟩
    isplitl [Hr]; · iexact Hr
    iexact Hp
  hout c := by
    rw [show (pdats m 0 c).Φ (Fin.last _) = (dat0 (E1 m) c).Φ (Fin.last cfg0.N) from rfl]
    refine (hout0 (E1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := Pipeline.UD sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The per-point region: entered from the buffers at `B3`, left at `B4`; the same routing. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (E3 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (E3 m c) fun w => A_eq1 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := Pipeline.UD sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The five items in order. -/
abbrev segsH : List (Pipeline.Seg (pcfgs (F := F)) admH (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)) ]

/-- The program is the run of the five items. -/
theorem main_run (c : Dev nD) : main (F := F) c = Pipeline.Seg.run (segsH m) := by
  rw [main_chain c, Pipeline.Seg.run_eq_chain]; rfl

set_option backward.isDefEq.respectTransparency.types false in
/-- Every weakly fair execution from memory `m` with zero counters terminates, nothing faulting, and the final memory holds every
    unscoped buffer of every core at the last contents `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) admH (pdats m) () cellOf_inj embL defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (B5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (B5_main_arg0 m c),
      (h c _ (mem_uc main_arg1 (by decide))).trans (B5_main_arg1 m c),
      (h c _ (mem_uc main_arg2 (by decide))).trans (B5_main_arg2 m c),
      (h c _ (mem_uc main_arg3 (by decide))).trans (B5_main_arg3 m c),
      (h c _ (mem_uc main_arg4 (by decide))).trans (B5_main_arg4 m c),
      (h c _ (mem_uc main_arg5 (by decide))).trans (B5_main_arg5 m c),
      (h c _ (mem_uc main_arg6 (by decide))).trans (B5_main_arg6 m c),
      (h c _ (mem_uc main_arg7 (by decide))).trans (B5_main_arg7 m c),
      (h c _ (mem_uc main_arg8 (by decide))).trans (B5_main_arg8 m c),
      (h c _ (mem_uc main_arg9 (by decide))).trans (B5_main_arg9 m c),
      (h c _ (mem_uc main_arg10 (by decide))).trans (B5_main_arg10 m c),
      (h c _ (mem_uc main_arg11 (by decide))).trans (B5_main_arg11 m c),
      (h c _ (mem_uc main_arg12 (by decide))).trans (B5_main_arg12 m c),
      (h c _ (mem_uc main_arg13 (by decide))).trans (B5_main_arg13 m c),
      (h c _ (mem_uc main_arg14 (by decide))).trans (B5_main_arg14 m c),
      (h c _ (mem_uc main_arg15 (by decide))).trans (B5_main_arg15 m c),
      (h c _ (mem_uc main_arg16 (by decide))).trans (B5_main_arg16 m c),
      (h c _ (mem_uc main_arg17 (by decide))).trans (B5_main_arg17 m c)⟩) (run_all m ρ)

end Cert.Kernel.Hand

end
-- ==== Proof.KI_R0Runs.lean ====
/- Region 0 (the pairwise kernel on its 8×8 grid): what the three whole-body runs share, stated at the contents `V`
   the region is entered with — the windows' blocks, the inputs' staging contents, the body's two branch conditions in
   closed form over the grid, where the output window is idle, the staging and scratch memrefs, and the region
   invariant with the scratch accumulator as an owned memref. -/
import proofs.«141513_j49228915147505_1_alg».proof.Proof.Gen.KernelIdeal.Launch
import proofs.«141513_j49228915147505_1_alg».proof.Proof.Gen.KernelIdeal.Skeleton
import proofs.«141513_j49228915147505_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved), for any proof data whose array is `V`'s and whose body leaves the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved), for any proof data whose array is `V`'s and whose body leaves the block in place. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the
    block index has not moved), for any proof data whose array is `V`'s and whose body leaves the block in place. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (unfetched, the
    block index has not moved), for any proof data whose array is `V`'s and whose body leaves the block in place. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (unfetched, the
    block index has not moved), for any proof data whose array is `V`'s and whose body leaves the block in place. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (unfetched, the
    block index has not moved), for any proof data whose array is `V`'s and whose body leaves the block in place. -/
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (the accumulator is reset), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8): the inner coordinate is 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional (the accumulator is copied to the output block). -/
abbrev cond0_1 (i : grid0.Coords) : Prop := k0_cond2 i = 1#1
/-- It holds at the points ≡ 7 (mod 8): the inner coordinate is 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- Window 6 is never idle (an input). -/
theorem liveAt0_6 : ∀ t : Fin cfg0.N, cfg0.idle 6 (grid0.coords t) = false := by decide +kernel
/-- At the points of case A (inner coordinate 0) output 7 is idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B (inner coordinate 1..6) output 7 is idle. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C (inner coordinate 7) output 7 is live: the case stores into it. -/
theorem liveAt0_7_C : ∀ t : Fin cfg0.N, ¬cond0_0 (grid0.coords t) → cond0_1 (grid0.coords t) → cfg0.idle 7 (grid0.coords t) = false := by decide +kernel

/-! ## The staging and scratch memrefs -/

/-- One staging buffer of output window 7, through which its contents are stated (the choice does not matter). -/
abbrev VO0_7 : View sig .tc .vmem S128x64 .f32 := (Memref.whole cc0_stg7_0 : Memref sig .tc .vmem S128x64 .f32).view
/-- Each window's current staging memref at point `t`, spelled as the pipeline passes it, and its wholeness. -/
abbrev ms0_0 (t : Fin cfg0.N) : Memref sig .tc .vmem S128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x64 .f32 := win0_7.stage (cfg0.slots t 7)
abbrev hs0_7 (t : Fin cfg0.N) : (ms0_7 t).IsWhole := hstage0_7 ((cfg0.slots t 7).cast nbuf0_7)
/-- The scratch accumulator: a whole scoped buffer of the kernel's own, passed beside the windows. -/
abbrev scM0_0 : Memref sig .tc .vmem S128x64 .f32 := Memref.whole cc0_scratch0
/-- The scratch the kernel carries between points, as a view: what it holds is stated through it. -/
abbrev VS0_0 : View sig .tc .vmem S128x64 .f32 := scM0_0.view

/-- The core's other scoped buffers that are no staging buffer of this region (the second region's staging buffers),
    each whole at some contents: the body does not touch them. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg13_0), ((c : Thread nD τ).loc cc1_stg13_0) ↦{fullShare} f))

/-- The region invariant with the scratch accumulator as a memref owned at some contents: what the body obligation
    hands the run and takes back. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_eq]; simp only [scM0_0, owns_whole]; try rfl

end Cert.KernelIdeal.Hand

end
-- ==== Proof.KI_R0RunA.lean ====
/- The pairwise kernel's whole body run in case A of its control — the first inner grid step: the accumulator is reset to −∞ before
   the step, the output block is not written. -/
import proofs.«141513_j49228915147505_1_alg».proof.Proof.KI_R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- What the body's stores leave in the output's staging memref and in the scratch accumulator, as pieces (last
    first), in case A (the inner grid coordinate is 0: the first conditional is taken (the accumulator is reset to -∞ before it is read), the second is not), WITH the proof that on whole memrefs — the inputs' at their
    contents `x·`, the output's (idle here) at contents `xi7` handed back untouched, the scratch at anything — the body runs to
    the continuation holding the inputs' as they were, the output's as it was and the scratch with its
    pieces written. The pieces are the witness the run finds. -/
noncomputable def kernelRun0_A (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : cond0_0 i) (hc1 : ¬cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) :
    Σ' (L7 : List (View.Piece (Elt F) S128x64 .f32)), { LS0 : List (View.Piece (Elt F) S128x64 .f32) //
      ∀ (xi7 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__edge_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Hand

end
-- ==== Proof.KI_R0RunB.lean ====
/- The pairwise kernel's whole body run in case B of its control — an inner step that is neither first nor last: the accumulator is
   carried, the output block is not written. -/
import proofs.«141513_j49228915147505_1_alg».proof.Proof.KI_R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- What the body's stores leave in the output's staging memref and in the scratch accumulator, as pieces (last
    first), in case B (the inner grid coordinate is 1..6: neither conditional is taken), WITH the proof that on whole memrefs — the inputs' at their
    contents `x·`, the output's (idle here) at contents `xi7` handed back untouched, the scratch at the contents `xs0` the point before left — the body runs to
    the continuation holding the inputs' as they were, the output's as it was and the scratch with its
    pieces written. The pieces are the witness the run finds. -/
noncomputable def kernelRun0_B (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : ¬cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) :
    Σ' (L7 : List (View.Piece (Elt F) S128x64 .f32)), { LS0 : List (View.Piece (Elt F) S128x64 .f32) //
      ∀ (xi7 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__edge_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Hand

end
-- ==== Proof.KI_R0RunC.lean ====
/- The pairwise kernel's whole body run in case C of its control — the last inner step: the accumulator is carried and then stored
   to the output block. -/
import proofs.«141513_j49228915147505_1_alg».proof.Proof.KI_R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
/-- What the body's stores leave in the output's staging memref and in the scratch accumulator, as pieces (last
    first), in case C (the inner grid coordinate is 7: the first conditional is not taken, the second is (the accumulator is copied to the output block)), WITH the proof that on whole memrefs — the inputs' at their
    contents `x·`, the output's at anything, the scratch at the contents `xs0` the point before left — the body runs to
    the continuation holding the inputs' as they were, the output's buffer with its pieces written and the scratch with its
    pieces written. The pieces are the witness the run finds. -/
noncomputable def kernelRun0_C (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) :
    Σ' (L7 : List (View.Piece (Elt F) S128x64 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__edge_kernel i arg2 harg2 arg3 harg3 arg4 harg4 arg5 harg5 arg6 harg6 arg7 harg7 arg8 harg8 arg9 harg9 arg10 harg10) K } := by
  refine ⟨?_, ?_, fun E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Hand

end
-- ==== Proof.KI_R0.lean ====
/- Region 0 (the pairwise kernel on its 8×8 grid), the rest of its proof data at the entry contents `V`: what the output
   block and the scratch accumulator hold per case of the control and point by point, the region invariant that carries
   the accumulator from point to point, the proof data, the body obligation, and the invariant's entry and exit. -/
import proofs.«141513_j49228915147505_1_alg».proof.Proof.KI_R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Case A stores nothing into output 7 (the window is idle at its points and not written back there): no pieces — a
    placeholder that nothing consults. -/
def out0_A_7 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : cond0_0 i) (hc1 : ¬cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) : Vec F S128x64 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4 x5 x6).1)

/-- Case B stores nothing into output 7 (the window is idle at its points and not written back there): no pieces — a
    placeholder that nothing consults. -/
def out0_B_7 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : ¬cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) : Vec F S128x64 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 x5 x6 xs0).1)

/-- Case A's pieces for the scratch accumulator cover it (whole stores). -/
theorem scover0_A_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : cond0_0 i) (hc1 : ¬cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (y : S128x64.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).2.1 S128x64.size (by sl_kernel_rfl) y

/-- What case A leaves in the scratch accumulator: its pieces read back over junk. -/
def sout0_A_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : cond0_0 i) (hc1 : ¬cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) : Vec F S128x64 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5 x6).2.1)

/-- Case B's pieces for the scratch accumulator cover it (whole stores). -/
theorem scover0_B_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : ¬cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) (y : S128x64.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xs0).2.1 S128x64.size (by sl_kernel_rfl) y

/-- What case B leaves in the scratch accumulator: its pieces read back over junk. -/
def sout0_B_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : ¬cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) : Vec F S128x64 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 x6 xs0).2.1)

/-- Case C's pieces for output 7 tile its block (one whole store), so they cover it. -/
theorem cover0_C_7 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) (y : S128x64.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).1 S128x64.size (by sl_kernel_rfl) y

/-- What case C leaves in output 7's staging buffer: its pieces read back over junk. -/
def out0_C_7 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) : Vec F S128x64 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 x6 xs0).1)

/-- Case C's pieces for the scratch accumulator cover it (whole stores). -/
theorem scover0_C_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) (y : S128x64.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).2.1 S128x64.size (by sl_kernel_rfl) y

/-- What case C leaves in the scratch accumulator: its pieces read back over junk. -/
def sout0_C_0 (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) : Vec F S128x64 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 x6 xs0).2.1)

/-! ## What the output block and the accumulator hold after each point -/

/-- THE ACCUMULATION. What output 7's staging buffer and the scratch accumulator hold after the body at position `n`
    (the output's buffer, then the scratch): the case the closed forms select at `n`, run at the point's memrefs and input
    blocks, the scratch read at what this leaves at `n - 1`. -/
def outsAt0 (c : Dev nD) : (n : ℕ) → n < cfg0.N → Vec F S128x64 .f32 × Vec F S128x64 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 8 = 0 then
      if h1 : (n + 1) % 8 = 7 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 8 = 7 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)

/-- `outsAt0` at a point of case A: that case's contents. -/
theorem outsAt0_A (c : Dev nD) (t : Fin cfg0.N) (h0 : t.val % 8 = 0) (h1 : ¬t.val % 8 = 7) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

/-- `outsAt0` at a point of case B: that case's contents, over what the point before left in the scratch. -/
theorem outsAt0_B (c : Dev nD) (t : Fin cfg0.N) (h0 : ¬t.val % 8 = 0) (h1 : ¬t.val % 8 = 7) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left in the scratch. -/
theorem outsAt0_C (c : Dev nD) (t : Fin cfg0.N) (h0 : ¬t.val % 8 = 0) (h1 : t.val % 8 = 7) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the scoped rest with the scratch accumulator at what the point before left in it (`outsAt0`'s second
    component), the other scoped buffers at anything, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

/-- Before a point that is not the first: the scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the output's at `outsAt0`'s first component; the invariant `PhiS0`; nothing
    owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point: the inputs' memrefs hold their blocks (`before0_W`); the closed forms say which case the point
    is in; so that case's run applies; the invariant hands the body the scratch at what the point before left (at
    anything at the first point) and takes it back at this point's contents; the other scoped buffers, the generator
    register and the core's `owes` pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS0_castSucc V c t, PhiS0_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold out0_C_7 sout0_C_0; (try dsimp only)
      by_cases hz : t.val = 0
      · exfalso; omega
      · rw [PhiS0_castSucc V c t, PhiS0_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class's invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KI_R1Run.lean ====
/- The per-point kernel on its one grid point: the whole body run on any whole staging memrefs — the pieces its stores leave in the
   two outputs' staging memrefs (last first), the inputs' contents unchanged; the outputs may be entered at any contents. -/
import proofs.«141513_j49228915147505_1_alg».proof.Proof.Gen.KernelIdeal.Launch
import proofs.«141513_j49228915147505_1_alg».proof.Proof.Gen.KernelIdeal.Skeleton
import proofs.«141513_j49228915147505_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1: the body's run on any staging memrefs

The body reads its twelve inputs whole, stores output 12 whole once, and stores output 13 through two rectangles
(columns 0..1023 and columns 1024..1087). It also loads each output rectangle just before storing it; those loaded
values feed no payload, so the outputs may be entered at any contents. -/

set_option maxHeartbeats 4000000 in
/-- The pieces the body's stores leave in each output's staging memref (last first), with the proof that on whole
    staging memrefs, the inputs' at contents `x·` and the outputs' at anything, the body runs to the continuation
    holding the inputs' as they were and each output's with its pieces written. -/
noncomputable def kernelRun1_A (c : Dev nD) (i : grid1.Coords) (arg1 : Memref sig .tc .vmem S1024x64 .f32) (harg1 : arg1.IsWhole) (arg2 : Memref sig .tc .vmem S1024x3 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S3x64 .f32) (harg5 : arg5.IsWhole) (arg6 : Memref sig .tc .vmem S1x3 .f32) (harg6 : arg6.IsWhole) (arg7 : Memref sig .tc .vmem S64x3 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1x1024 .f32) (harg12 : arg12.IsWhole) (arg13 : Memref sig .tc .vmem S1024x3 .f32) (harg13 : arg13.IsWhole) (arg14 : Memref sig .tc .vmem S1024x1088 .f32) (harg14 : arg14.IsWhole)
    (x0 : Vec F S1024x64 .f32) (x1 : Vec F S1024x3 .f32) (x2 : Vec F S64x64 .f32) (x3 : Vec F S1x64 .f32) (x4 : Vec F S3x64 .f32) (x5 : Vec F S1x3 .f32) (x6 : Vec F S64x3 .f32) (x7 : Vec F S1x64 .f32) (x8 : Vec F S128x64 .f32) (x9 : Vec F S1x128 .f32) (x10 : Vec F S1024x128 .f32) (x11 : Vec F S1x1024 .f32) :
    Σ' (L12 : List (View.Piece (Elt F) S1024x3 .f32)), { L13 : List (View.Piece (Elt F) S1024x1088 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ K ⟨⟩))
          ⊢ wp frame (wpE (defs₀ (F := F)) Variants.none c none) E (cc1__pointnet_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc1__pointnet_kernel_eq_skeleton]; unfold cc1__pointnet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    iexists _; iexact H13

end Cert.KernelIdeal.Hand

end
-- ==== Proof.KI_R1.lean ====
/- The per-point kernel on its one grid point, the rest of its proof data at the entry contents V: the windows' blocks, what the two
   output blocks hold after the body, the proof data, the body obligation, and the invariant's entry and exit. -/
import proofs.«141513_j49228915147505_1_alg».proof.Proof.Gen.KernelIdeal.Launch
import proofs.«141513_j49228915147505_1_alg».proof.Proof.Gen.KernelIdeal.Skeleton
import proofs.«141513_j49228915147505_1_alg».proof.Proof.Gen.KernelIdeal.Points
import proofs.«141513_j49228915147505_1_alg».proof.Proof.KI_R1Run
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: the parameter the region's half is stated at
variable (V : (c : Dev nD) → (b : Ref sig .tc) → Buf (Elt F) ((c : Thread nD τ).loc b))

/-! # Region 1 (pipeline 1, one grid point), at the entry contents `V`

## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place (the window is uncut and never idle). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place (the window is uncut and never idle). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place (the window is uncut and never idle). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place (the window is uncut and never idle). -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place (the window is uncut and never idle). -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place (the window is uncut and never idle). -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place (the window is uncut and never idle). -/
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s and whose body leaves the block in place (the window is uncut and never idle). -/
theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is `V`'s and whose body leaves the block in place (the window is uncut and never idle). -/
theorem before1_8_of {c : Dev nD} (dat : Dat τ (Elt F) Unit ℕ (Pipeline.UD sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not, for any proof
    data whose array is `V`'s and whose body leaves the block in place (the window is uncut and never idle). -/
theorem before1_9_of {c : Dev nD} (dat : Dat τ (Elt F) Unit ℕ (Pipeline.UD sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current staging buffer holds its block at every point, fetched there or not, for any proof
    data whose array is `V`'s and whose body leaves the block in place (the window is uncut and never idle). -/
theorem before1_10_of {c : Dev nD} (dat : Dat τ (Elt F) Unit ℕ (Pipeline.UD sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's current staging buffer holds its block at every point, fetched there or not, for any proof
    data whose array is `V`'s and whose body leaves the block in place (the window is uncut and never idle). -/
theorem before1_11_of {c : Dev nD} (dat : Dat τ (Elt F) Unit ℕ (Pipeline.UD sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs and the outputs' views -/

/-- One staging buffer of each output window, through which its contents are stated (the choice does not matter:
    a covering list of writes reads the same through any view). -/
abbrev VO1_12 : View sig .tc .vmem S1024x3 .f32 := (Memref.whole cc1_stg12_0 : Memref sig .tc .vmem S1024x3 .f32).view
abbrev VO1_13 : View sig .tc .vmem S1024x1088 .f32 := (Memref.whole cc1_stg13_0 : Memref sig .tc .vmem S1024x1088 .f32).view
/-- Each window's current staging memref at point `t`, spelled as the pipeline passes it (`bodyAt1`), and its wholeness. -/
abbrev ms1_0 (t : Fin cfg1.N) : Memref sig .tc .vmem S1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S3x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x3 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x3 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1024x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x1024 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1024x3 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1024x1088 .f32 := win1_13.stage (cfg1.slots t 13)
abbrev hs1_13 (t : Fin cfg1.N) : (ms1_13 t).IsWhole := hstage1_13 ((cfg1.slots t 13).cast nbuf1_13)

/-! ## What the run leaves in the outputs -/

/-- The run's pieces for output 12 tile its block (one store of the whole `S1024x3`), so they cover it. -/
theorem cover1_A_12 (c : Dev nD) (i : grid1.Coords) (arg1 : Memref sig .tc .vmem S1024x64 .f32) (harg1 : arg1.IsWhole) (arg2 : Memref sig .tc .vmem S1024x3 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S3x64 .f32) (harg5 : arg5.IsWhole) (arg6 : Memref sig .tc .vmem S1x3 .f32) (harg6 : arg6.IsWhole) (arg7 : Memref sig .tc .vmem S64x3 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1x1024 .f32) (harg12 : arg12.IsWhole) (arg13 : Memref sig .tc .vmem S1024x3 .f32) (harg13 : arg13.IsWhole) (arg14 : Memref sig .tc .vmem S1024x1088 .f32) (harg14 : arg14.IsWhole)
    (x0 : Vec F S1024x64 .f32) (x1 : Vec F S1024x3 .f32) (x2 : Vec F S64x64 .f32) (x3 : Vec F S1x64 .f32) (x4 : Vec F S3x64 .f32) (x5 : Vec F S1x3 .f32) (x6 : Vec F S64x3 .f32) (x7 : Vec F S1x64 .f32) (x8 : Vec F S128x64 .f32) (x9 : Vec F S1x128 .f32) (x10 : Vec F S1024x128 .f32) (x11 : Vec F S1x1024 .f32) (y : S1024x3.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1 S1024x3.size (by sl_kernel_rfl) y

/-- What the run leaves in output 12's staging buffer: its pieces read back over junk. -/
def out1_A_12 (c : Dev nD) (i : grid1.Coords) (arg1 : Memref sig .tc .vmem S1024x64 .f32) (harg1 : arg1.IsWhole) (arg2 : Memref sig .tc .vmem S1024x3 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S3x64 .f32) (harg5 : arg5.IsWhole) (arg6 : Memref sig .tc .vmem S1x3 .f32) (harg6 : arg6.IsWhole) (arg7 : Memref sig .tc .vmem S64x3 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1x1024 .f32) (harg12 : arg12.IsWhole) (arg13 : Memref sig .tc .vmem S1024x3 .f32) (harg13 : arg13.IsWhole) (arg14 : Memref sig .tc .vmem S1024x1088 .f32) (harg14 : arg14.IsWhole)
    (x0 : Vec F S1024x64 .f32) (x1 : Vec F S1024x3 .f32) (x2 : Vec F S64x64 .f32) (x3 : Vec F S1x64 .f32) (x4 : Vec F S3x64 .f32) (x5 : Vec F S1x3 .f32) (x6 : Vec F S64x3 .f32) (x7 : Vec F S1x64 .f32) (x8 : Vec F S128x64 .f32) (x9 : Vec F S1x128 .f32) (x10 : Vec F S1024x128 .f32) (x11 : Vec F S1x1024 .f32) : Vec F S1024x3 .f32 :=
  VO1_12.read (Elt F) (VO1_12.writes (Elt F) VO1_12.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1)

/-- The run's pieces for output 13 cover its block: columns 0..1023 by one store, columns 1024..1087 by the other. -/
theorem cover1_A_13 (c : Dev nD) (i : grid1.Coords) (arg1 : Memref sig .tc .vmem S1024x64 .f32) (harg1 : arg1.IsWhole) (arg2 : Memref sig .tc .vmem S1024x3 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S3x64 .f32) (harg5 : arg5.IsWhole) (arg6 : Memref sig .tc .vmem S1x3 .f32) (harg6 : arg6.IsWhole) (arg7 : Memref sig .tc .vmem S64x3 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1x1024 .f32) (harg12 : arg12.IsWhole) (arg13 : Memref sig .tc .vmem S1024x3 .f32) (harg13 : arg13.IsWhole) (arg14 : Memref sig .tc .vmem S1024x1088 .f32) (harg14 : arg14.IsWhole)
    (x0 : Vec F S1024x64 .f32) (x1 : Vec F S1024x3 .f32) (x2 : Vec F S64x64 .f32) (x3 : Vec F S1x64 .f32) (x4 : Vec F S3x64 .f32) (x5 : Vec F S1x3 .f32) (x6 : Vec F S64x3 .f32) (x7 : Vec F S1x64 .f32) (x8 : Vec F S128x64 .f32) (x9 : Vec F S1x128 .f32) (x10 : Vec F S1024x128 .f32) (x11 : Vec F S1x1024 .f32) (y : S1024x1088.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).2.1, y ∈ pc.1.set :=
  View.cover_of_tiledBy (kernelRun1_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).2.1 ![1024, 64] (by sl_kernel_rfl) y

/-- What the run leaves in output 13's staging buffer: its pieces read back over junk. -/
def out1_A_13 (c : Dev nD) (i : grid1.Coords) (arg1 : Memref sig .tc .vmem S1024x64 .f32) (harg1 : arg1.IsWhole) (arg2 : Memref sig .tc .vmem S1024x3 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S3x64 .f32) (harg5 : arg5.IsWhole) (arg6 : Memref sig .tc .vmem S1x3 .f32) (harg6 : arg6.IsWhole) (arg7 : Memref sig .tc .vmem S64x3 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1x1024 .f32) (harg12 : arg12.IsWhole) (arg13 : Memref sig .tc .vmem S1024x3 .f32) (harg13 : arg13.IsWhole) (arg14 : Memref sig .tc .vmem S1024x1088 .f32) (harg14 : arg14.IsWhole)
    (x0 : Vec F S1024x64 .f32) (x1 : Vec F S1024x3 .f32) (x2 : Vec F S64x64 .f32) (x3 : Vec F S1x64 .f32) (x4 : Vec F S3x64 .f32) (x5 : Vec F S1x3 .f32) (x6 : Vec F S64x3 .f32) (x7 : Vec F S1x64 .f32) (x8 : Vec F S128x64 .f32) (x9 : Vec F S1x128 .f32) (x10 : Vec F S1024x128 .f32) (x11 : Vec F S1x1024 .f32) : Vec F S1024x1088 .f32 :=
  VO1_13.read (Elt F) (VO1_13.writes (Elt F) VO1_13.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).2.1)

/-! ## What the outputs hold after each point -/

/-- What output 12's staging buffer holds after the body at point `t`: the run's contents at the point's memrefs
    and input blocks. -/
def outsAt1_12 (c : Dev nD) (t : Fin cfg1.N) : Vec F S1024x3 .f32 :=
  out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
/-- What output 13's staging buffer holds after the body at point `t`. -/
def outsAt1_13 (c : Dev nD) (t : Fin cfg1.N) : Vec F S1024x1088 .f32 :=
  out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)

/-! ## The pipeline's proof data -/

/-- The proof data of pipeline 1 on core `c`: the arrays as the region finds them (`V`); after the body at point `t`
    each input's buffer at its block and each output's at what the run leaves; the invariant the scoped rest and the
    generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => outsAt1_12 V c t
    | ⟨13, _⟩ => outsAt1_13 V c t
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = outsAt1_12 V c t := by dsimp only [dat1]
theorem after1_13 (c : Dev nD) (t : Fin cfg1.N) : (dat1 V c).after 13 t = outsAt1_13 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t))

/-- The body at any point: the inputs' memrefs hold their blocks (`before1_W`), the outputs' anything, so the run
    applies; the invariant and the core's `owes` pass through unread; each output's buffer, written through pieces
    that cover it, reads the same as those pieces written over junk. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  unfold outsAt1_12 outsAt1_13
  unfold out1_A_12 out1_A_13
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, ⟨%e12, H12⟩, ⟨%e13, H13⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover1_A_12 c _ _ _ _ _ _ _ _ _ _ _ _ _ _ _ _ _ _ _ _ _ _ _ _ _ _ _ _ _ _ _ _ _ _ _ _ _ _ _ _ _)
  unfold owns; iexists _; isplitr
  swap; · iexact H13
  ipureintro; exact View.read_writes_of_cover _ _ _ _ _ (cover1_A_13 c _ _ _ _ _ _ _ _ _ _ _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI_Run.lean ====
/-
  The program from launch to return: the host stretch before the first kernel region, the pairwise region, the host stretch
  between, the per-point region, and the host tail, composed in order. Between two items every unscoped buffer of a core is held
  whole at named contents: the launch memory, then what the first stretch computes from it, then the pairwise region's arrays
  at what its pipeline leaves in them (every other buffer as before), and so on to the end. Every weakly fair execution
  terminates, and the final memory holds each unscoped buffer at the last of these contents; read at the argument arrays,
  which no host operation writes and no region changes, this is the frame.
-/
import proofs.«141513_j49228915147505_1_alg».proof.Proof.KI_R0
import proofs.«141513_j49228915147505_1_alg».proof.Proof.KI_R1
import proofs.«141513_j49228915147505_1_alg».proof.Proof.Gen.KernelIdeal.Regions
import Idealize.ShloMosaic.Lib.Pipeline.Regions
import Idealize.ShloMosaic.Lib.Pipeline.FrameSuffix
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents between items -/

/-- Core `c`'s buffers at launch. -/
abbrev B0 : Dev nD → Valuation τ sig (Elt F) := fun c b => m (c, b)
/-- After the first host stretch. -/
def B1 (c : Dev nD) : Valuation τ sig (Elt F) := StableHlo.after hostOps0 (B0 m c)
/-- The same read at the TensorCore's references: what the pairwise region is entered with. -/
abbrev E1 : (c : Dev nD) → (b : Ref sig .tc) → Buf (Elt F) ((c : Thread nD τ).loc b) := fun c b => B1 m c b
/-- After the pairwise region: its arrays at what the pipeline leaves, every other buffer as entered. -/
def B2 (c : Dev nD) : Valuation τ sig (Elt F) :=
  Pipeline.withArrays spec0 c (B1 m c) fun w => (dat0 (E1 m) c).arrAt w cfg0.N
abbrev E2 : (c : Dev nD) → (b : Ref sig .tc) → Buf (Elt F) ((c : Thread nD τ).loc b) := fun c b => B2 m c b
/-- After the second host stretch. -/
def B3 (c : Dev nD) : Valuation τ sig (Elt F) := StableHlo.after hostOps1 (B2 m c)
/-- What the per-point region is entered with. -/
abbrev E3 : (c : Dev nD) → (b : Ref sig .tc) → Buf (Elt F) ((c : Thread nD τ).loc b) := fun c b => B3 m c b
/-- After the per-point region. -/
def B4 (c : Dev nD) : Valuation τ sig (Elt F) :=
  Pipeline.withArrays spec1 c (B3 m c) fun w => (dat1 (E3 m) c).arrAt w cfg1.N
abbrev E4 : (c : Dev nD) → (b : Ref sig .tc) → Buf (Elt F) ((c : Thread nD τ).loc b) := fun c b => B4 m c b
/-- After the host tail: the final contents. -/
def B5 (c : Dev nD) : Valuation τ sig (Elt F) := StableHlo.after hostOps2 (B4 m c)

theorem B1_of (c : Dev nD) (r : Ref sig .tc) (h : r ∉ hostOps0_W) : B1 m c r = B0 m c r :=
  StableHlo.after_of_writes_sub hostOps0 _ hostOps0_writes h
theorem B3_of (c : Dev nD) (r : Ref sig .tc) (h : r ∉ hostOps1_W) : B3 m c r = B2 m c r :=
  StableHlo.after_of_writes_sub hostOps1 _ hostOps1_writes h
theorem B5_of (c : Dev nD) (r : Ref sig .tc) (h : r ∉ hostOps2_W) : B5 m c r = B4 m c r :=
  StableHlo.after_of_writes_sub hostOps2 _ hostOps2_writes h

theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-! ## The arguments end as launched -/

theorem B5_main_arg0 (c : Dev nD) : B5 m c (Proc.devRef .tc main_arg0) = m ((c : Thread nD τ).loc main_arg0) :=
  (B5_of m c main_arg0 (by decide)).trans <| (B4_of_ne m c main_arg0 (by decide)).trans <| (B3_of m c main_arg0 (by decide)).trans <| (B2_of_ne m c main_arg0 (by decide)).trans <| (B1_of m c main_arg0 (by decide)).trans rfl
theorem B5_main_arg1 (c : Dev nD) : B5 m c (Proc.devRef .tc main_arg1) = m ((c : Thread nD τ).loc main_arg1) :=
  (B5_of m c main_arg1 (by decide)).trans <| (B4_of_ne m c main_arg1 (by decide)).trans <| (B3_of m c main_arg1 (by decide)).trans <| (B2_of_ne m c main_arg1 (by decide)).trans <| (B1_of m c main_arg1 (by decide)).trans rfl
theorem B5_main_arg2 (c : Dev nD) : B5 m c (Proc.devRef .tc main_arg2) = m ((c : Thread nD τ).loc main_arg2) :=
  (B5_of m c main_arg2 (by decide)).trans <| (B4_of_ne m c main_arg2 (by decide)).trans <| (B3_of m c main_arg2 (by decide)).trans <| (B2_of_ne m c main_arg2 (by decide)).trans <| (B1_of m c main_arg2 (by decide)).trans rfl
theorem B5_main_arg3 (c : Dev nD) : B5 m c (Proc.devRef .tc main_arg3) = m ((c : Thread nD τ).loc main_arg3) :=
  (B5_of m c main_arg3 (by decide)).trans <| (B4_of_ne m c main_arg3 (by decide)).trans <| (B3_of m c main_arg3 (by decide)).trans <| (B2_of_ne m c main_arg3 (by decide)).trans <| (B1_of m c main_arg3 (by decide)).trans rfl
theorem B5_main_arg4 (c : Dev nD) : B5 m c (Proc.devRef .tc main_arg4) = m ((c : Thread nD τ).loc main_arg4) :=
  (B5_of m c main_arg4 (by decide)).trans <| (B4_of_ne m c main_arg4 (by decide)).trans <| (B3_of m c main_arg4 (by decide)).trans <| (B2_of_ne m c main_arg4 (by decide)).trans <| (B1_of m c main_arg4 (by decide)).trans rfl
theorem B5_main_arg5 (c : Dev nD) : B5 m c (Proc.devRef .tc main_arg5) = m ((c : Thread nD τ).loc main_arg5) :=
  (B5_of m c main_arg5 (by decide)).trans <| (B4_of_ne m c main_arg5 (by decide)).trans <| (B3_of m c main_arg5 (by decide)).trans <| (B2_of_ne m c main_arg5 (by decide)).trans <| (B1_of m c main_arg5 (by decide)).trans rfl
theorem B5_main_arg6 (c : Dev nD) : B5 m c (Proc.devRef .tc main_arg6) = m ((c : Thread nD τ).loc main_arg6) :=
  (B5_of m c main_arg6 (by decide)).trans <| (B4_of_ne m c main_arg6 (by decide)).trans <| (B3_of m c main_arg6 (by decide)).trans <| ((B2_arr m c 5).trans (((dat0 (E1 m) c).arrAt_in 5 rfl _).trans (A_eq0 (E1 m) c 5))).trans <| (B1_of m c main_arg6 (by decide)).trans rfl
theorem B5_main_arg7 (c : Dev nD) : B5 m c (Proc.devRef .tc main_arg7) = m ((c : Thread nD τ).loc main_arg7) :=
  (B5_of m c main_arg7 (by decide)).trans <| (B4_of_ne m c main_arg7 (by decide)).trans <| (B3_of m c main_arg7 (by decide)).trans <| (B2_of_ne m c main_arg7 (by decide)).trans <| (B1_of m c main_arg7 (by decide)).trans rfl
theorem B5_main_arg8 (c : Dev nD) : B5 m c (Proc.devRef .tc main_arg8) = m ((c : Thread nD τ).loc main_arg8) :=
  (B5_of m c main_arg8 (by decide)).trans <| ((B4_arr m c 2).trans (((dat1 (E3 m) c).arrAt_in 2 rfl _).trans (A_eq1 (E3 m) c 2))).trans <| (B3_of m c main_arg8 (by decide)).trans <| (B2_of_ne m c main_arg8 (by decide)).trans <| (B1_of m c main_arg8 (by decide)).trans rfl
theorem B5_main_arg9 (c : Dev nD) : B5 m c (Proc.devRef .tc main_arg9) = m ((c : Thread nD τ).loc main_arg9) :=
  (B5_of m c main_arg9 (by decide)).trans <| (B4_of_ne m c main_arg9 (by decide)).trans <| (B3_of m c main_arg9 (by decide)).trans <| (B2_of_ne m c main_arg9 (by decide)).trans <| (B1_of m c main_arg9 (by decide)).trans rfl
theorem B5_main_arg10 (c : Dev nD) : B5 m c (Proc.devRef .tc main_arg10) = m ((c : Thread nD τ).loc main_arg10) :=
  (B5_of m c main_arg10 (by decide)).trans <| ((B4_arr m c 4).trans (((dat1 (E3 m) c).arrAt_in 4 rfl _).trans (A_eq1 (E3 m) c 4))).trans <| (B3_of m c main_arg10 (by decide)).trans <| (B2_of_ne m c main_arg10 (by decide)).trans <| (B1_of m c main_arg10 (by decide)).trans rfl
theorem B5_main_arg11 (c : Dev nD) : B5 m c (Proc.devRef .tc main_arg11) = m ((c : Thread nD τ).loc main_arg11) :=
  (B5_of m c main_arg11 (by decide)).trans <| (B4_of_ne m c main_arg11 (by decide)).trans <| (B3_of m c main_arg11 (by decide)).trans <| (B2_of_ne m c main_arg11 (by decide)).trans <| (B1_of m c main_arg11 (by decide)).trans rfl
theorem B5_main_arg12 (c : Dev nD) : B5 m c (Proc.devRef .tc main_arg12) = m ((c : Thread nD τ).loc main_arg12) :=
  (B5_of m c main_arg12 (by decide)).trans <| ((B4_arr m c 6).trans (((dat1 (E3 m) c).arrAt_in 6 rfl _).trans (A_eq1 (E3 m) c 6))).trans <| (B3_of m c main_arg12 (by decide)).trans <| (B2_of_ne m c main_arg12 (by decide)).trans <| (B1_of m c main_arg12 (by decide)).trans rfl
theorem B5_main_arg13 (c : Dev nD) : B5 m c (Proc.devRef .tc main_arg13) = m ((c : Thread nD τ).loc main_arg13) :=
  (B5_of m c main_arg13 (by decide)).trans <| (B4_of_ne m c main_arg13 (by decide)).trans <| (B3_of m c main_arg13 (by decide)).trans <| (B2_of_ne m c main_arg13 (by decide)).trans <| (B1_of m c main_arg13 (by decide)).trans rfl
theorem B5_main_arg14 (c : Dev nD) : B5 m c (Proc.devRef .tc main_arg14) = m ((c : Thread nD τ).loc main_arg14) :=
  (B5_of m c main_arg14 (by decide)).trans <| ((B4_arr m c 8).trans (((dat1 (E3 m) c).arrAt_in 8 rfl _).trans (A_eq1 (E3 m) c 8))).trans <| (B3_of m c main_arg14 (by decide)).trans <| (B2_of_ne m c main_arg14 (by decide)).trans <| (B1_of m c main_arg14 (by decide)).trans rfl
theorem B5_main_arg15 (c : Dev nD) : B5 m c (Proc.devRef .tc main_arg15) = m ((c : Thread nD τ).loc main_arg15) :=
  (B5_of m c main_arg15 (by decide)).trans <| (B4_of_ne m c main_arg15 (by decide)).trans <| (B3_of m c main_arg15 (by decide)).trans <| (B2_of_ne m c main_arg15 (by decide)).trans <| (B1_of m c main_arg15 (by decide)).trans rfl
theorem B5_main_arg16 (c : Dev nD) : B5 m c (Proc.devRef .tc main_arg16) = m ((c : Thread nD τ).loc main_arg16) :=
  (B5_of m c main_arg16 (by decide)).trans <| ((B4_arr m c 10).trans (((dat1 (E3 m) c).arrAt_in 10 rfl _).trans (A_eq1 (E3 m) c 10))).trans <| (B3_of m c main_arg16 (by decide)).trans <| (B2_of_ne m c main_arg16 (by decide)).trans <| (B1_of m c main_arg16 (by decide)).trans rfl
theorem B5_main_arg17 (c : Dev nD) : B5 m c (Proc.devRef .tc main_arg17) = m ((c : Thread nD τ).loc main_arg17) :=
  (B5_of m c main_arg17 (by decide)).trans <| (B4_of_ne m c main_arg17 (by decide)).trans <| (B3_of m c main_arg17 (by decide)).trans <| (B2_of_ne m c main_arg17 (by decide)).trans <| (B1_of m c main_arg17 (by decide)).trans rfl

/-! ## The proof data family and the thread state -/

/-- No pallas_call has a prefetched table. -/
abbrev admH : (p : Fin 2) → (pcfgs (F := F) p).Adm := fun p => (cfgs p).toPCfg_adm
/-- Each region's proof data at the contents it is entered with. -/
def pdats : (p : Fin 2) → (c : Dev nD) → Dat τ (Elt F) Unit ℕ (Pipeline.UD sig nD τ) ℕ (Pipeline.pin (pcfgs (F := F)) admH p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a segment over all unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B5 m c) ∗ ∃ r, prngReg c r)

/-! ## The regions as segments -/

set_option backward.isDefEq.respectTransparency.types false in
/-- The pairwise region: entered from the buffers at `B1`, left at `B2`. Its arrays are split out of the unscoped buffers and put
    back at their exit contents; the generator register goes into the region's invariant and comes back; nothing is owed. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (E1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (E1 m c) fun w => A_eq0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (E1 m) c).Φ 0 from rfl]
    refine (?_ : _ ⊢ Pipeline.ΦA spec0 c).trans (hin0 (E1 m) c)
    unfold Pipeline.ΦA
    iintro ⟨Hp, -, Hr⟩
    isplitl [Hr]; · iexact Hr
    iexact Hp
  hout c := by
    rw [show (pdats m 0 c).Φ (Fin.last _) = (dat0 (E1 m) c).Φ (Fin.last cfg0.N) from rfl]
    refine (hout0 (E1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := Pipeline.UD sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The per-point region: entered from the buffers at `B3`, left at `B4`; the same routing. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (E3 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (E3 m c) fun w => A_eq1 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := Pipeline.UD sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The five items in order. -/
abbrev segsH : List (Pipeline.Seg (pcfgs (F := F)) admH (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)) ]

/-- The program is the run of the five items. -/
theorem main_run (c : Dev nD) : main (F := F) c = Pipeline.Seg.run (segsH m) := by
  rw [main_chain c, Pipeline.Seg.run_eq_chain]; rfl

set_option backward.isDefEq.respectTransparency.types false in
/-- Every weakly fair execution from memory `m` with zero counters terminates, nothing faulting, and the final memory holds every
    unscoped buffer of every core at the last contents `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) admH (pdats m) () cellOf_inj embL defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (B5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (B5_main_arg0 m c),
      (h c _ (mem_uc main_arg1 (by decide))).trans (B5_main_arg1 m c),
      (h c _ (mem_uc main_arg2 (by decide))).trans (B5_main_arg2 m c),
      (h c _ (mem_uc main_arg3 (by decide))).trans (B5_main_arg3 m c),
      (h c _ (mem_uc main_arg4 (by decide))).trans (B5_main_arg4 m c),
      (h c _ (mem_uc main_arg5 (by decide))).trans (B5_main_arg5 m c),
      (h c _ (mem_uc main_arg6 (by decide))).trans (B5_main_arg6 m c),
      (h c _ (mem_uc main_arg7 (by decide))).trans (B5_main_arg7 m c),
      (h c _ (mem_uc main_arg8 (by decide))).trans (B5_main_arg8 m c),
      (h c _ (mem_uc main_arg9 (by decide))).trans (B5_main_arg9 m c),
      (h c _ (mem_uc main_arg10 (by decide))).trans (B5_main_arg10 m c),
      (h c _ (mem_uc main_arg11 (by decide))).trans (B5_main_arg11 m c),
      (h c _ (mem_uc main_arg12 (by decide))).trans (B5_main_arg12 m c),
      (h c _ (mem_uc main_arg13 (by decide))).trans (B5_main_arg13 m c),
      (h c _ (mem_uc main_arg14 (by decide))).trans (B5_main_arg14 m c),
      (h c _ (mem_uc main_arg15 (by decide))).trans (B5_main_arg15 m c),
      (h c _ (mem_uc main_arg16 (by decide))).trans (B5_main_arg16 m c),
      (h c _ (mem_uc main_arg17 (by decide))).trans (B5_main_arg17 m c)⟩) (run_all m ρ)

end Cert.KernelIdeal.Hand

end
-- ==== Proof.Spec.lean ====
/-
  The mathematics both programs compute, as functions of the argument arrays over the extended reals, index by index.

  Inputs: per-point features F1, F2 : [1, 64, 1024] (channel-major), the pairwise MLP's weights W10 : [64, 128] (the first
  64 input channels meet F1's point i, the last 64 meet F2's point j), b10, W11 : [64, 64], b11; the flow MLP's W20, b20,
  W21 : [3, 64], b21; the point cloud pc1 : [1, 1024, 3]; the per-point MLP's Wp1 : [64, 3], bp1, Wp2 : [128, 64], bp2,
  Wp3 : [1024, 128], bp3.

    h1(i, j, o)  = max (∑_c F1(c, i)·W10(o, c) + ∑_c F2(c, j)·W10(o, 64 + c) + b10(o)) 0
    h2(i, j, o)  = max (∑_c h1(i, j, c)·W11(o, c) + b11(o)) 0
    hmax(j, o)   = max over all 1024 points i of h2(i, j, o)          (from −∞)
    m(n, o)      = max (∑_c hmax(n, c)·W20(o, c) + b20(o)) 0
    flow(n, d)   = ∑_c m(n, c)·W21(d, c) + b21(d)
    x(n, d)      = pc1(n, d) + flow(n, d)
    pf(n, o)     = max (∑_d x(n, d)·Wp1(o, d) + bp1(o)) 0
    q(n, o)      = max (∑_c pf(n, c)·Wp2(o, c) + bp2(o)) 0
    h3(n, o)     = ∑_c q(n, c)·Wp3(o, c) + bp3(o)
    g(o)         = max over all 1024 points n of h3(n, o)             (from −∞)

  Results: out0(0, d, n) = flow(n, d);  out1(0, n, k) = g(k) for k < 1024, pf(n, k − 1024) for 1024 ≤ k < 1088.
-/
import Idealize.ShloMosaic.PureOps.Ideal
import Idealize.ShloMosaic.Lib.ValueIdx

noncomputable section

namespace Cert.Spec

open Idealize.ShloMosaic Idealize.ShloMosaic.ValueIdx

/-- Arrays of extended reals over literal shapes. -/
abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

/-- Channel c of the first half of the pairwise layer's 128 input channels. -/
abbrev lo (c : Fin 64) : Fin 128 := ⟨c.val, Nat.lt_of_lt_of_le c.isLt (by decide)⟩
/-- Channel 64 + c: the second half. -/
abbrev hi (c : Fin 64) : Fin 128 := ⟨64 + c.val, Nat.add_lt_add_left c.isLt 64⟩

/-- The maximum of a finite family from −∞, as the fold the reductions are read as. -/
abbrev maxOver {n : Nat} (f : Fin n → EReal) : EReal := (Finset.univ : Finset (Fin n)).fold max (⊥ : EReal) f

variable (F1 F2 : A3 1 64 1024) (W10 : A2 64 128) (b10 : A1 64) (W11 : A2 64 64) (b11 : A1 64)

/-- The pairwise layer's first activation at the pair (i, j), channel o. -/
def h1 (i j : Fin 1024) (o : Fin 64) : EReal :=
  max ((∑ c : Fin 64, F1 (ix3 0 c i) * W10 (ix2 o (lo c))) + (∑ c : Fin 64, F2 (ix3 0 c j) * W10 (ix2 o (hi c))) + b10 (ix1 o)) 0

/-- Its second activation. -/
def h2 (i j : Fin 1024) (o : Fin 64) : EReal :=
  max ((∑ c : Fin 64, h1 F1 F2 W10 b10 i j c * W11 (ix2 o c)) + b11 (ix1 o)) 0

/-- The pool over the first point of the pair. -/
def hmax (j : Fin 1024) (o : Fin 64) : EReal := maxOver fun i : Fin 1024 => h2 F1 F2 W10 b10 W11 b11 i j o

variable (H : Fin 1024 → Fin 64 → EReal) (W20 : A2 64 64) (b20 : A1 64) (W21 : A2 3 64) (b21 : A1 3)
  (pc1 : A3 1 1024 3) (Wp1 : A2 64 3) (bp1 : A1 64) (Wp2 : A2 128 64) (bp2 : A1 128) (Wp3 : A2 1024 128) (bp3 : A1 1024)

/-- The flow MLP's hidden layer over a pooled feature array H. -/
def mh (n : Fin 1024) (o : Fin 64) : EReal := max ((∑ c : Fin 64, H n c * W20 (ix2 o c)) + b20 (ix1 o)) 0
/-- The flow. -/
def flow (n : Fin 1024) (d : Fin 3) : EReal := (∑ c : Fin 64, mh H W20 b20 n c * W21 (ix2 d c)) + b21 (ix1 d)
/-- The displaced point. -/
def xpt (n : Fin 1024) (d : Fin 3) : EReal := pc1 (ix3 0 n d) + flow H W20 b20 W21 b21 n d
/-- The per-point feature. -/
def pf (n : Fin 1024) (o : Fin 64) : EReal :=
  max ((∑ d : Fin 3, xpt H W20 b20 W21 b21 pc1 n d * Wp1 (ix2 o d)) + bp1 (ix1 o)) 0
/-- The second per-point layer. -/
def q2 (n : Fin 1024) (o : Fin 128) : EReal :=
  max ((∑ c : Fin 64, pf H W20 b20 W21 b21 pc1 Wp1 bp1 n c * Wp2 (ix2 o c)) + bp2 (ix1 o)) 0
/-- The third per-point layer (no activation). -/
def h3 (n : Fin 1024) (o : Fin 1024) : EReal :=
  (∑ c : Fin 128, q2 H W20 b20 W21 b21 pc1 Wp1 bp1 Wp2 bp2 n c * Wp3 (ix2 o c)) + bp3 (ix1 o)
/-- The global feature: the pool over the points. -/
def gfeat (o : Fin 1024) : EReal := maxOver fun n : Fin 1024 => h3 H W20 b20 W21 b21 pc1 Wp1 bp1 Wp2 bp2 Wp3 bp3 n o

/-- The first result, [1, 3, 1024]: the flow, channel-major. -/
def out0 : A3 1 3 1024 := fun i => flow H W20 b20 W21 b21 (i 2) (i 1)

/-- The second result, [1, 1024, 1088]: the global feature in every row's first 1024 columns, the row's own feature after it. -/
def out1 : A3 1 1024 1088 := fun i =>
  if h : (i 2).val < 1024 then gfeat H W20 b20 W21 b21 pc1 Wp1 bp1 Wp2 bp2 Wp3 bp3 ⟨(i 2).val, h⟩
  else pf H W20 b20 W21 b21 pc1 Wp1 bp1 (i 1) ⟨(i 2).val - 1024, by have h2 : (i 2).val < 1088 := (i 2).isLt; omega⟩

end Cert.Spec

end
-- ==== Proof.KI_Host.lean ====
/-
  What the host operations around the two kernel regions compute, read at an index, over any contents V of the buffers they
  start from: the features transposed to point-major [1024, 64]; the two halves of the pairwise layer's weight matrix; the bias
  vectors as rows; the point cloud and the last result as matrices; and, after the second region, the flow transposed to
  channel-major [1, 3, 1024] and the feature matrix given its leading unit axis.
-/
import proofs.«141513_j49228915147505_1_alg».proof.Proof.Gen.KernelIdeal.Launch
import proofs.«141513_j49228915147505_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo

variable {F : FTy → Type} [FloatOps F]
variable (V : Valuation τ sig (Elt F))

/-- Point n, channel ch of the first feature array, point-major. -/
theorem host0_v1 (n : Fin 1024) (ch : Fin 64) :
    (StableHlo.after hostOps0 V (Proc.devRef .tc main_v1) : S1024x64.Idx → Elt F .f32) (ix2 n ch)
      = (V (Proc.devRef .tc main_arg2) : S1x64x1024.Idx → Elt F .f32) (ix3 0 ch n) := by
  have e : (StableHlo.after hostOps0 V (Proc.devRef .tc main_v1) : S1024x64.Idx → Elt F .f32)
      = transpose S1024x64 [1, 0] (shapeCast S64x1024 (V (Proc.devRef .tc main_arg2) : S1x64x1024.Idx → Elt F .f32) shapeCasts_S1x64x1024_S64x1024) transposes_S64x1024_S1024x64_1_0 := by
    after_results <;> rfl
  rw [e, transpose_ix2_apply, shapeCast_1ab_ab_apply]

/-- The same for the second feature array. -/
theorem host0_v3 (n : Fin 1024) (ch : Fin 64) :
    (StableHlo.after hostOps0 V (Proc.devRef .tc main_v3) : S1024x64.Idx → Elt F .f32) (ix2 n ch)
      = (V (Proc.devRef .tc main_arg3) : S1x64x1024.Idx → Elt F .f32) (ix3 0 ch n) := by
  have e : (StableHlo.after hostOps0 V (Proc.devRef .tc main_v3) : S1024x64.Idx → Elt F .f32)
      = transpose S1024x64 [1, 0] (shapeCast S64x1024 (V (Proc.devRef .tc main_arg3) : S1x64x1024.Idx → Elt F .f32) shapeCasts_S1x64x1024_S64x1024) transposes_S64x1024_S1024x64_1_0 := by
    after_results <;> rfl
  rw [e, transpose_ix2_apply, shapeCast_1ab_ab_apply]

/-- The first half of the pairwise layer's weights. -/
theorem host0_v4 (o ch : Fin 64) :
    (StableHlo.after hostOps0 V (Proc.devRef .tc main_v4) : S64x64.Idx → Elt F .f32) (ix2 o ch)
      = (V (Proc.devRef .tc main_arg4) : S64x128.Idx → Elt F .f32) (ix2 o (Cert.Spec.lo ch)) := by
  have e : (StableHlo.after hostOps0 V (Proc.devRef .tc main_v4) : S64x64.Idx → Elt F .f32)
      = extractStridedSlice S64x64 ![0, 0] (V (Proc.devRef .tc main_arg4) : S64x128.Idx → Elt F .f32) slices_S64x128_S64x64_0_0 := by
    after_results <;> rfl
  rw [e]
  exact slice2_axis1_apply 0 _ _ o ch (Cert.Spec.lo ch) (Nat.zero_add _).symm

/-- The second half. -/
theorem host0_v5 (o ch : Fin 64) :
    (StableHlo.after hostOps0 V (Proc.devRef .tc main_v5) : S64x64.Idx → Elt F .f32) (ix2 o ch)
      = (V (Proc.devRef .tc main_arg4) : S64x128.Idx → Elt F .f32) (ix2 o (Cert.Spec.hi ch)) := by
  have e : (StableHlo.after hostOps0 V (Proc.devRef .tc main_v5) : S64x64.Idx → Elt F .f32)
      = extractStridedSlice S64x64 ![0, 64] (V (Proc.devRef .tc main_arg4) : S64x128.Idx → Elt F .f32) slices_S64x128_S64x64_0_64 := by
    after_results <;> rfl
  rw [e]
  exact slice2_axis1_apply 64 _ _ o ch (Cert.Spec.hi ch) rfl

/-- The first bias as a row. -/
theorem host0_v6 (u : Fin 1) (o : Fin 64) :
    (StableHlo.after hostOps0 V (Proc.devRef .tc main_v6) : S1x64.Idx → Elt F .f32) (ix2 u o)
      = (V (Proc.devRef .tc main_arg5) : S64.Idx → Elt F .f32) (ix1 o) := by
  have e : (StableHlo.after hostOps0 V (Proc.devRef .tc main_v6) : S1x64.Idx → Elt F .f32)
      = shapeCast S1x64 (V (Proc.devRef .tc main_arg5) : S64.Idx → Elt F .f32) shapeCasts_S64_S1x64 := by
    after_results <;> rfl
  rw [e, shapeCast_a_1a_apply]

/-- The second bias as a row. -/
theorem host0_v7 (u : Fin 1) (o : Fin 64) :
    (StableHlo.after hostOps0 V (Proc.devRef .tc main_v7) : S1x64.Idx → Elt F .f32) (ix2 u o)
      = (V (Proc.devRef .tc main_arg7) : S64.Idx → Elt F .f32) (ix1 o) := by
  have e : (StableHlo.after hostOps0 V (Proc.devRef .tc main_v7) : S1x64.Idx → Elt F .f32)
      = shapeCast S1x64 (V (Proc.devRef .tc main_arg7) : S64.Idx → Elt F .f32) shapeCasts_S64_S1x64 := by
    after_results <;> rfl
  rw [e, shapeCast_a_1a_apply]

/-- The point cloud as a matrix. -/
theorem host1_v9 (n : Fin 1024) (d : Fin 3) :
    (StableHlo.after hostOps1 V (Proc.devRef .tc main_v9) : S1024x3.Idx → Elt F .f32) (ix2 n d)
      = (V (Proc.devRef .tc main_arg0) : S1x1024x3.Idx → Elt F .f32) (ix3 0 n d) := by
  have e : (StableHlo.after hostOps1 V (Proc.devRef .tc main_v9) : S1024x3.Idx → Elt F .f32)
      = shapeCast S1024x3 (V (Proc.devRef .tc main_arg0) : S1x1024x3.Idx → Elt F .f32) shapeCasts_S1x1024x3_S1024x3 := by
    after_results <;> rfl
  rw [e, shapeCast_1ab_ab_apply]

theorem host1_v10 (u : Fin 1) (o : Fin 64) :
    (StableHlo.after hostOps1 V (Proc.devRef .tc main_v10) : S1x64.Idx → Elt F .f32) (ix2 u o)
      = (V (Proc.devRef .tc main_arg9) : S64.Idx → Elt F .f32) (ix1 o) := by
  have e : (StableHlo.after hostOps1 V (Proc.devRef .tc main_v10) : S1x64.Idx → Elt F .f32)
      = shapeCast S1x64 (V (Proc.devRef .tc main_arg9) : S64.Idx → Elt F .f32) shapeCasts_S64_S1x64 := by
    after_results <;> rfl
  rw [e, shapeCast_a_1a_apply]

theorem host1_v11 (u : Fin 1) (o : Fin 3) :
    (StableHlo.after hostOps1 V (Proc.devRef .tc main_v11) : S1x3.Idx → Elt F .f32) (ix2 u o)
      = (V (Proc.devRef .tc main_arg11) : S3.Idx → Elt F .f32) (ix1 o) := by
  have e : (StableHlo.after hostOps1 V (Proc.devRef .tc main_v11) : S1x3.Idx → Elt F .f32)
      = shapeCast S1x3 (V (Proc.devRef .tc main_arg11) : S3.Idx → Elt F .f32) shapeCasts_S3_S1x3 := by
    after_results <;> rfl
  rw [e, shapeCast_a_1a_apply]

theorem host1_v12 (u : Fin 1) (o : Fin 64) :
    (StableHlo.after hostOps1 V (Proc.devRef .tc main_v12) : S1x64.Idx → Elt F .f32) (ix2 u o)
      = (V (Proc.devRef .tc main_arg13) : S64.Idx → Elt F .f32) (ix1 o) := by
  have e : (StableHlo.after hostOps1 V (Proc.devRef .tc main_v12) : S1x64.Idx → Elt F .f32)
      = shapeCast S1x64 (V (Proc.devRef .tc main_arg13) : S64.Idx → Elt F .f32) shapeCasts_S64_S1x64 := by
    after_results <;> rfl
  rw [e, shapeCast_a_1a_apply]

theorem host1_v13 (u : Fin 1) (o : Fin 128) :
    (StableHlo.after hostOps1 V (Proc.devRef .tc main_v13) : S1x128.Idx → Elt F .f32) (ix2 u o)
      = (V (Proc.devRef .tc main_arg15) : S128.Idx → Elt F .f32) (ix1 o) := by
  have e : (StableHlo.after hostOps1 V (Proc.devRef .tc main_v13) : S1x128.Idx → Elt F .f32)
      = shapeCast S1x128 (V (Proc.devRef .tc main_arg15) : S128.Idx → Elt F .f32) shapeCasts_S128_S1x128 := by
    after_results <;> rfl
  rw [e, shapeCast_a_1a_apply]

theorem host1_v14 (u : Fin 1) (o : Fin 1024) :
    (StableHlo.after hostOps1 V (Proc.devRef .tc main_v14) : S1x1024.Idx → Elt F .f32) (ix2 u o)
      = (V (Proc.devRef .tc main_arg17) : S1024.Idx → Elt F .f32) (ix1 o) := by
  have e : (StableHlo.after hostOps1 V (Proc.devRef .tc main_v14) : S1x1024.Idx → Elt F .f32)
      = shapeCast S1x1024 (V (Proc.devRef .tc main_arg17) : S1024.Idx → Elt F .f32) shapeCasts_S1024_S1x1024 := by
    after_results <;> rfl
  rw [e, shapeCast_a_1a_apply]

/-- The first result: the flow matrix, channel-major under a leading unit axis. -/
theorem host2_v17 (u : Fin 1) (d : Fin 3) (n : Fin 1024) :
    (StableHlo.after hostOps2 V (Proc.devRef .tc main_v17) : S1x3x1024.Idx → Elt F .f32) (ix3 u d n)
      = (V (Proc.devRef .tc main_v15_0) : S1024x3.Idx → Elt F .f32) (ix2 n d) := by
  have e : (StableHlo.after hostOps2 V (Proc.devRef .tc main_v17) : S1x3x1024.Idx → Elt F .f32)
      = transpose S1x3x1024 [0, 2, 1] (broadcastInDim S1x1024x3 ![1, 2] bcast_S1024x3_S1x1024x3_1_2 (V (Proc.devRef .tc main_v15_0) : S1024x3.Idx → Elt F .f32)) transposes_S1x1024x3_S1x3x1024_0_2_1 := by
    after_results <;> rfl
  rw [e, transpose_ix3_021_apply]
  exact broadcastInDim_apply _ _ _ _ (ix2 n d) fun a => by
    match a with
    | ⟨0, _⟩ => rfl
    | ⟨1, _⟩ => rfl

/-- The second result: the feature matrix under a leading unit axis. -/
theorem host2_v18 (u : Fin 1) (n : Fin 1024) (k : Fin 1088) :
    (StableHlo.after hostOps2 V (Proc.devRef .tc main_v18) : S1x1024x1088.Idx → Elt F .f32) (ix3 u n k)
      = (V (Proc.devRef .tc main_v15_1) : S1024x1088.Idx → Elt F .f32) (ix2 n k) := by
  have e : (StableHlo.after hostOps2 V (Proc.devRef .tc main_v18) : S1x1024x1088.Idx → Elt F .f32)
      = broadcastInDim S1x1024x1088 ![1, 2] bcast_S1024x1088_S1x1024x1088_1_2 (V (Proc.devRef .tc main_v15_1) : S1024x1088.Idx → Elt F .f32) := by
    after_results <;> rfl
  rw [e]
  exact broadcastInDim_apply _ _ _ _ (ix2 n k) fun a => by
    match a with
    | ⟨0, _⟩ => rfl
    | ⟨1, _⟩ => rfl

end Cert.KernelIdeal.Hand

end
-- ==== Proof.LibTileMax.lean ====
/-
  A maximum taken tile by tile.

  For a family `f` indexed by `Fin N` with `N = B * T` (T tiles of B consecutive indices), the running maximum that
  starts at the least element and, for a = 0, 1, …, T − 1 in turn, takes the maximum with tile a's own maximum
  (itself a fold of `max` from the least element over the tile's B indices B·a + b) ends at the maximum of the whole
  family. Stated in any linear order with a least element; the folds are `Finset.fold max ⊥`, the form in which
  a maximum-reduction is read.
-/
import Mathlib.Data.Finset.Fold
import Mathlib.Data.Fintype.Basic
import Mathlib.Order.BoundedOrder.Basic

namespace Cert.LibTileMax

variable {α : Type*} [LinearOrder α] [OrderBot α]

/-- Index B·a + b of tile a lies below B·T when a < T and b < B. -/
theorem tile_index_lt {B T N : ℕ} (hN : B * T = N) {a : ℕ} (ha : a < T) (b : Fin B) : B * a + b.val < N := by
  have h1 : B * a + b.val < B * (a + 1) := by
    rw [Nat.mul_succ]; exact Nat.add_lt_add_left b.isLt _
  exact hN ▸ lt_of_lt_of_le h1 (Nat.mul_le_mul_left B ha)

/-- The maximum of tile a: the fold of `max` from the least element over the tile's B indices (the least element for
    a tile number outside the range). -/
def tileMax (B T : ℕ) {N : ℕ} (hN : B * T = N) (f : Fin N → α) (a : ℕ) : α :=
  if ha : a < T then (Finset.univ : Finset (Fin B)).fold max ⊥ (fun b => f ⟨B * a + b.val, tile_index_lt hN ha b⟩) else ⊥

/-- The running maximum over the first a tiles. -/
def accTile (B T : ℕ) {N : ℕ} (hN : B * T = N) (f : Fin N → α) : ℕ → α
  | 0 => ⊥
  | a + 1 => max (accTile B T hN f a) (tileMax B T hN f a)

@[simp] theorem accTile_zero (B T : ℕ) {N : ℕ} (hN : B * T = N) (f : Fin N → α) : accTile B T hN f 0 = ⊥ := rfl

theorem accTile_succ (B T : ℕ) {N : ℕ} (hN : B * T = N) (f : Fin N → α) (a : ℕ) :
    accTile B T hN f (a + 1) = max (accTile B T hN f a) (tileMax B T hN f a) := rfl

/-- Inside the range a tile's maximum is the fold over its indices. -/
theorem tileMax_of_lt (B T : ℕ) {N : ℕ} (hN : B * T = N) (f : Fin N → α) {a : ℕ} (ha : a < T) :
    tileMax B T hN f a = (Finset.univ : Finset (Fin B)).fold max ⊥ (fun b => f ⟨B * a + b.val, tile_index_lt hN ha b⟩) :=
  dif_pos ha

/-- The running maximum over the first t tiles is below x exactly when every member with index below B·t is. -/
theorem accTile_le_iff (B T : ℕ) {N : ℕ} (hN : B * T = N) (f : Fin N → α) (x : α) :
    ∀ t, t ≤ T → (accTile B T hN f t ≤ x ↔ ∀ i : Fin N, i.val < B * t → f i ≤ x) := by
  intro t
  induction t with
  | zero =>
    intro _
    refine ⟨fun _ i hi => absurd hi (by simp), fun _ => bot_le⟩
  | succ t ih =>
    intro ht
    have ht' : t < T := ht
    rw [accTile_succ, max_le_iff, ih (Nat.le_of_lt ht'), tileMax_of_lt B T hN f ht', Finset.fold_max_le]
    constructor
    · rintro ⟨h1, _, h2⟩ i hi
      by_cases hlt : i.val < B * t
      · exact h1 i hlt
      · have hb : i.val - B * t < B := by
          rw [Nat.mul_succ] at hi
          omega
        have := h2 ⟨i.val - B * t, hb⟩ (Finset.mem_univ _)
        have e : (⟨B * t + (i.val - B * t), tile_index_lt hN ht' ⟨i.val - B * t, hb⟩⟩ : Fin N) = i :=
          Fin.ext (by show B * t + (i.val - B * t) = i.val; omega)
        rw [e] at this
        exact this
    · intro h
      refine ⟨fun i hi => h i (lt_of_lt_of_le hi (Nat.mul_le_mul_left B (Nat.le_succ t))), bot_le, fun b _ => h _ ?_⟩
      show B * t + b.val < B * (t + 1)
      rw [Nat.mul_succ]; exact Nat.add_lt_add_left b.isLt _

/-- After all T tiles the running maximum is the maximum of the whole family. -/
theorem accTile_all (B T : ℕ) {N : ℕ} (hN : B * T = N) (f : Fin N → α) :
    accTile B T hN f T = (Finset.univ : Finset (Fin N)).fold max ⊥ f := by
  refine eq_of_forall_ge_iff fun x => ?_
  rw [accTile_le_iff B T hN f x T le_rfl, Finset.fold_max_le]
  constructor
  · intro h
    exact ⟨bot_le, fun i _ => h i (hN ▸ i.isLt)⟩
  · intro h i _
    exact h.2 i (Finset.mem_univ _)

end Cert.LibTileMax
-- ==== Proof.KI_Val0.lean ====
/-
  The arithmetic of the pairwise stage's body, read at an index over the extended reals, and the pooling over tiles.

  One grid step (j tile jt, i tile it) of the pairwise stage holds rows 128·it … of the first feature array and rows
  128·jt … of the second, forms for every pair (ii, jj) of the two tiles the two-layer activation h2, takes the
  maximum over ii and folds it into the accumulator. This module reads the body's pure values at an index:
  the accumulator's reset value is −∞ (`pay2_apply`), one step replaces the accumulator at (jj, o) by its maximum
  with the maximum over the tile's 128 points of h2 (`tile_step`), and eight such steps from −∞ give the maximum
  over all 1024 points (`accTile_eight`).
-/
import proofs.«141513_j49228915147505_1_alg».proof.Proof.Gen.KernelIdeal.Skeleton
import proofs.«141513_j49228915147505_1_alg».proof.Proof.Spec
import proofs.«141513_j49228915147505_1_alg».proof.Proof.LibTileMax
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val0

open Idealize.ShloMosaic Idealize.ShloMosaic.ValueIdx Cert.KernelIdeal Cert.KernelIdeal.Gen

/-! ## The accumulator's reset value -/

/-- The word 0xFF800000 denotes −∞. -/
theorem ofBits_negInf : Ideal.ofBits .f32 0xFF800000#32 = ⊥ := by simp [Ideal.ofBits, Ideal.ieee]

/-- The value the accumulator is reset to at the first i tile: −∞ everywhere. -/
theorem pay2_apply (jj : Fin 128) (o : Fin 64) : k0_pay2 (F := Ideal) (ix2 jj o) = ⊥ := by
  unfold k0_pay2
  rw [shapeCast_self]
  exact ofBits_negInf

/-! ## The pooling over the eight tiles -/

/-- The running maximum over the first a tiles of 128 points of a family over the 1024 points: −∞ before the first
    tile, then the maximum with each tile's own maximum in turn. -/
def accTile (f : Fin 1024 → EReal) (a : ℕ) : EReal := Cert.LibTileMax.accTile 128 8 (N := 1024) rfl f a

theorem accTile_zero (f : Fin 1024 → EReal) : accTile f 0 = ⊥ := rfl

/-- One more tile: the maximum with the tile's maximum over its 128 points. -/
theorem accTile_succ (f : Fin 1024 → EReal) (a : Fin 8) :
    accTile f (a.val + 1) = max (accTile f a.val)
      (Cert.Spec.maxOver fun b : Fin 128 => f ⟨128 * a.val + b.val, by have := a.isLt; have := b.isLt; omega⟩) := by
  unfold accTile
  rw [Cert.LibTileMax.accTile_succ, Cert.LibTileMax.tileMax_of_lt 128 8 rfl f a.isLt]

/-- After the eighth tile the running maximum is the maximum over all 1024 points. -/
theorem accTile_eight (f : Fin 1024 → EReal) : accTile f 8 = Cert.Spec.maxOver f :=
  Cert.LibTileMax.accTile_all 128 8 rfl f

/-! ## Layout operations of the body, read at an index -/

section Layout
variable {α : Type}

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- A [c] array cast to [1, 1, c] reads, at (u, v, k), the operand at k. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    rw [hu, hv]; simp)

/-- An [a, 1, c] array broadcast to [a, b, c] reads, at (i, j, k), the operand at (i, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A [1, b, c] array broadcast to [a, b, c] reads, at (i, j, k), the operand at (0, j, k). -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A [1, 1, c] array broadcast to [a, b, c] reads, at (i, j, k), the operand at (0, 0, k). -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- The [128, 128, 64] array of pairs flattened to [16384, 64] reads, at row 128·i + j, the pair (i, j). -/
theorem shapeCast_pairs_rows_apply (x : S128x128x64.Idx → α) (h : S128x128x64.ShapeCasts S16384x64)
    (i j : Fin 128) (k : Fin 64) :
    shapeCast S16384x64 x h (ix2 (⟨128 * i.val + j.val, by have := i.isLt; have := j.isLt; omega⟩ : Fin 16384) k) = x (ix3 i j k) :=
  shapeCast_apply x h _ _ (by
    rw [Shape.rowMajor_val_three, Shape.rowMajor_val_two]
    show (i.val * 128 + j.val) * 64 + k.val = (128 * i.val + j.val) * 64 + k.val
    omega)

/-- The [16384, 64] array of rows viewed as [128, 128, 64] reads, at the pair (i, j), row 128·i + j. -/
theorem shapeCast_rows_pairs_apply (x : S16384x64.Idx → α) (h : S16384x64.ShapeCasts S128x128x64)
    (i j : Fin 128) (k : Fin 64) :
    shapeCast S128x128x64 x h (ix3 i j k) = x (ix2 (⟨128 * i.val + j.val, by have := i.isLt; have := j.isLt; omega⟩ : Fin 16384) k) :=
  shapeCast_apply x h _ _ (by
    rw [Shape.rowMajor_val_two, Shape.rowMajor_val_three]
    show (128 * i.val + j.val) * 64 + k.val = (i.val * 128 + j.val) * 64 + k.val
    omega)

end Layout

/-! ## The body's three products, read at an index -/

theorem lhsA_0 (i : S128x64.Idx) (q : dot_S128x64_S64x64_S128x64_1_0_0_1_n_n.contr.Idx) : (dot_S128x64_S64x64_S128x64_1_0_0_1_n_n.lhsIdx i q 0).val = (i 0).val := by
  unfold DotDims.lhsIdx
  rw [dif_neg (show ¬(0 : Fin S128x64.rank) ∈ dot_S128x64_S64x64_S128x64_1_0_0_1_n_n.lhsBatch by decide), dif_pos (show (0 : Fin S128x64.rank) ∈ dot_S128x64_S64x64_S128x64_1_0_0_1_n_n.lhsNonContracting by decide)]
  rfl
theorem lhsA_1 (i : S128x64.Idx) (q : dot_S128x64_S64x64_S128x64_1_0_0_1_n_n.contr.Idx) : (dot_S128x64_S64x64_S128x64_1_0_0_1_n_n.lhsIdx i q 1).val = (q ⟨0, by decide⟩).val :=
  dot_S128x64_S64x64_S128x64_1_0_0_1_n_n.lhsIdx_val_of_single rfl i q
theorem rhsA_0 (i : S128x64.Idx) (q : dot_S128x64_S64x64_S128x64_1_0_0_1_n_n.contr.Idx) : (dot_S128x64_S64x64_S128x64_1_0_0_1_n_n.rhsIdx i q 0).val = (q ⟨0, by decide⟩).val :=
  dot_S128x64_S64x64_S128x64_1_0_0_1_n_n.rhsIdx_val_of_single rfl i q
theorem rhsA_1 (i : S128x64.Idx) (q : dot_S128x64_S64x64_S128x64_1_0_0_1_n_n.contr.Idx) : (dot_S128x64_S64x64_S128x64_1_0_0_1_n_n.rhsIdx i q 1).val = (i 1).val := by
  unfold DotDims.rhsIdx
  rw [dif_neg (show ¬(1 : Fin S64x64.rank) ∈ dot_S128x64_S64x64_S128x64_1_0_0_1_n_n.rhsBatch by decide), dif_pos (show (1 : Fin S64x64.rank) ∈ dot_S128x64_S64x64_S128x64_1_0_0_1_n_n.rhsNonContracting by decide)]
  rfl

/-- The [128, 64] × [64, 64] product into the zero accumulator, at (r, c): the sum over the 64 contracted channels. -/
theorem matmulA_apply (lhs : FVec Ideal S128x64 .bf16) (rhs : FVec Ideal S64x64 .bf16) (r : Fin 128) (c : Fin 64) :
    matmul dot_S128x64_S64x64_S128x64_1_0_0_1_n_n none lhs rhs (constant (F := Ideal) S128x64 .f32 0x00000000#32) (ix2 r c)
      = ∑ k : Fin 64, lhs (ix2 r k) * rhs (ix2 k c) := by
  simp only [matmul]
  rw [Ideal.matmul_constant_zero_apply, ← Equiv.sum_comp (contrEquiv1 dot_S128x64_S64x64_S128x64_1_0_0_1_n_n 64 rfl rfl).symm]
  refine Finset.sum_congr rfl fun k _ => ?_
  have hk := contrEquiv1_symm_val dot_S128x64_S64x64_S128x64_1_0_0_1_n_n 64 rfl rfl k
  have el : dot_S128x64_S64x64_S128x64_1_0_0_1_n_n.lhsIdx (ix2 r c) ((contrEquiv1 dot_S128x64_S64x64_S128x64_1_0_0_1_n_n 64 rfl rfl).symm k) = ix2 r k := funext fun a => Fin.ext (by
    match a with
    | ⟨0, _⟩ => exact lhsA_0 _ _
    | ⟨1, _⟩ => exact (lhsA_1 _ _).trans hk)
  have er : dot_S128x64_S64x64_S128x64_1_0_0_1_n_n.rhsIdx (ix2 r c) ((contrEquiv1 dot_S128x64_S64x64_S128x64_1_0_0_1_n_n 64 rfl rfl).symm k) = ix2 k c := funext fun a => Fin.ext (by
    match a with
    | ⟨0, _⟩ => exact (rhsA_0 _ _).trans hk
    | ⟨1, _⟩ => exact rhsA_1 _ _)
  rw [el, er]

theorem lhsB_0 (i : S16384x64.Idx) (q : dot_S16384x64_S64x64_S16384x64_1_0_0_1_n_n.contr.Idx) : (dot_S16384x64_S64x64_S16384x64_1_0_0_1_n_n.lhsIdx i q 0).val = (i 0).val := by
  unfold DotDims.lhsIdx
  rw [dif_neg (show ¬(0 : Fin S16384x64.rank) ∈ dot_S16384x64_S64x64_S16384x64_1_0_0_1_n_n.lhsBatch by decide), dif_pos (show (0 : Fin S16384x64.rank) ∈ dot_S16384x64_S64x64_S16384x64_1_0_0_1_n_n.lhsNonContracting by decide)]
  rfl
theorem lhsB_1 (i : S16384x64.Idx) (q : dot_S16384x64_S64x64_S16384x64_1_0_0_1_n_n.contr.Idx) : (dot_S16384x64_S64x64_S16384x64_1_0_0_1_n_n.lhsIdx i q 1).val = (q ⟨0, by decide⟩).val :=
  dot_S16384x64_S64x64_S16384x64_1_0_0_1_n_n.lhsIdx_val_of_single rfl i q
theorem rhsB_0 (i : S16384x64.Idx) (q : dot_S16384x64_S64x64_S16384x64_1_0_0_1_n_n.contr.Idx) : (dot_S16384x64_S64x64_S16384x64_1_0_0_1_n_n.rhsIdx i q 0).val = (q ⟨0, by decide⟩).val :=
  dot_S16384x64_S64x64_S16384x64_1_0_0_1_n_n.rhsIdx_val_of_single rfl i q
theorem rhsB_1 (i : S16384x64.Idx) (q : dot_S16384x64_S64x64_S16384x64_1_0_0_1_n_n.contr.Idx) : (dot_S16384x64_S64x64_S16384x64_1_0_0_1_n_n.rhsIdx i q 1).val = (i 1).val := by
  unfold DotDims.rhsIdx
  rw [dif_neg (show ¬(1 : Fin S64x64.rank) ∈ dot_S16384x64_S64x64_S16384x64_1_0_0_1_n_n.rhsBatch by decide), dif_pos (show (1 : Fin S64x64.rank) ∈ dot_S16384x64_S64x64_S16384x64_1_0_0_1_n_n.rhsNonContracting by decide)]
  rfl

/-- The [16384, 64] × [64, 64] product into the zero accumulator, at (r, c): the sum over the 64 contracted channels. -/
theorem matmulB_apply (lhs : FVec Ideal S16384x64 .bf16) (rhs : FVec Ideal S64x64 .bf16) (r : Fin 16384) (c : Fin 64) :
    matmul dot_S16384x64_S64x64_S16384x64_1_0_0_1_n_n none lhs rhs (constant (F := Ideal) S16384x64 .f32 0x00000000#32) (ix2 r c)
      = ∑ k : Fin 64, lhs (ix2 r k) * rhs (ix2 k c) := by
  simp only [matmul]
  rw [Ideal.matmul_constant_zero_apply, ← Equiv.sum_comp (contrEquiv1 dot_S16384x64_S64x64_S16384x64_1_0_0_1_n_n 64 rfl rfl).symm]
  refine Finset.sum_congr rfl fun k _ => ?_
  have hk := contrEquiv1_symm_val dot_S16384x64_S64x64_S16384x64_1_0_0_1_n_n 64 rfl rfl k
  have el : dot_S16384x64_S64x64_S16384x64_1_0_0_1_n_n.lhsIdx (ix2 r c) ((contrEquiv1 dot_S16384x64_S64x64_S16384x64_1_0_0_1_n_n 64 rfl rfl).symm k) = ix2 r k := funext fun a => Fin.ext (by
    match a with
    | ⟨0, _⟩ => exact lhsB_0 _ _
    | ⟨1, _⟩ => exact (lhsB_1 _ _).trans hk)
  have er : dot_S16384x64_S64x64_S16384x64_1_0_0_1_n_n.rhsIdx (ix2 r c) ((contrEquiv1 dot_S16384x64_S64x64_S16384x64_1_0_0_1_n_n 64 rfl rfl).symm k) = ix2 k c := funext fun a => Fin.ext (by
    match a with
    | ⟨0, _⟩ => exact (rhsB_0 _ _).trans hk
    | ⟨1, _⟩ => exact rhsB_1 _ _)
  rw [el, er]

/-! ## The body's payloads at an index -/

/-- The second bias row as a vector: at o the row's entry (0, o). -/
theorem pay3_apply (b1 : Vec Ideal S1x64 .f32) (o : Fin 64) :
    k0_pay3 (F := Ideal) b1 (ix1 o) = b1 (ix2 (0 : Fin 1) o) := by
  unfold k0_pay3
  exact shapeCast_1a_a_apply b1 _ o

/-- The second layer's weights transposed: at (k, o) the weight at (o, k). -/
theorem pay5_apply (w1 : Vec Ideal S64x64 .f32) (k o : Fin 64) :
    k0_pay5 (F := Ideal) w1 (ix2 k o) = w1 (ix2 o k) := by
  unfold k0_pay5
  exact (transpose_ix2_apply _ _ k o).trans rfl

/-- The first activation of the pair (ii, jj) of the two tiles, channel c, at row 128·ii + jj of the flattened array. -/
theorem pay4_apply (x1 x2 : Vec Ideal S128x64 .f32) (wa wb : Vec Ideal S64x64 .f32) (b0 : Vec Ideal S1x64 .f32)
    (ii jj : Fin 128) (c : Fin 64) :
    k0_pay4 (F := Ideal) x1 x2 wa wb b0
        (ix2 (⟨128 * ii.val + jj.val, by have := ii.isLt; have := jj.isLt; omega⟩ : Fin 16384) c)
      = max ((∑ k : Fin 64, x1 (ix2 ii k) * wa (ix2 c k)) + (∑ k : Fin 64, x2 (ix2 jj k) * wb (ix2 c k))
          + b0 (ix2 (0 : Fin 1) c)) 0 := by
  unfold k0_pay4
  refine (truncf_apply (φ := .f32) (ψ := .bf16) _ bitsLt_bf16_f32 _).trans ?_
  refine (shapeCast_pairs_rows_apply _ _ ii jj c).trans ?_
  refine congrArg₂ max ?_ Ideal.ofBits_zero_f32
  refine congrArg₂ (· + ·) (congrArg₂ (· + ·) ?_ ?_) ?_
  · refine (broadcastTo_a1c_abc_apply _ _ ii jj c).trans ?_
    refine (shapeCast_ab_a1b_apply _ _ ii 0 c).trans ?_
    refine (matmulA_apply _ _ ii c).trans ?_
    refine Finset.sum_congr rfl fun k _ => congrArg₂ (· * ·) ?_ ?_
    · exact congrFun (shapeCast_self x1 _) (ix2 ii k)
    · refine (transpose_ix2_apply _ _ k c).trans ?_
      exact congrFun (shapeCast_self wa _) (ix2 c k)
  · refine (broadcastTo_1bc_abc_apply _ _ ii jj c).trans ?_
    refine (shapeCast_ab_1ab_apply _ _ 0 jj c).trans ?_
    refine (matmulA_apply _ _ jj c).trans ?_
    refine Finset.sum_congr rfl fun k _ => congrArg₂ (· * ·) ?_ ?_
    · exact congrFun (shapeCast_self x2 _) (ix2 jj k)
    · refine (transpose_ix2_apply _ _ k c).trans ?_
      exact congrFun (shapeCast_self wb _) (ix2 c k)
  · refine (broadcastTo_11c_abc_apply _ _ ii jj c).trans ?_
    refine (shapeCast_c_11c_apply _ _ 0 0 c).trans ?_
    exact shapeCast_1a_a_apply b0 _ c

/-- One step of the pool at (jj, o), over any flattened first activation h, transposed weights w and bias: the
    accumulator's maximum with the maximum over the tile's 128 points ii of the second activation of row 128·ii + jj. -/
theorem pay1_apply (bias : FVec Ideal S64 .f32) (h : FVec Ideal S16384x64 .bf16) (w : FVec Ideal S64x64 .bf16)
    (acc : Vec Ideal S128x64 .f32) (jj : Fin 128) (o : Fin 64) :
    k0_pay1 (F := Ideal) bias h w acc (ix2 jj o)
      = max (acc (ix2 jj o)) (Cert.Spec.maxOver fun ii : Fin 128 =>
          max ((∑ k : Fin 64, h (ix2 (⟨128 * ii.val + jj.val, by have := ii.isLt; have := jj.isLt; omega⟩ : Fin 16384) k)
            * w (ix2 k o)) + bias (ix1 o)) 0) := by
  unfold k0_pay1
  refine (congrFun (shapeCast_self _ _) (ix2 jj o)).trans ?_
  refine congrArg₂ max rfl ?_
  refine (Ideal.multiReduction_maximumf_single _ _ reduces_S128x128x64_S128x64 _ _ (ix2 jj o)).trans ?_
  have hlift : ∀ ii : Fin 128, reduces_S128x128x64_S128x64.lift (ix2 jj o) ii = ix3 ii jj o := fun ii =>
    funext fun a => Fin.ext (by
      match a with
      | ⟨0, _⟩ => rfl
      | ⟨1, _⟩ => rfl
      | ⟨2, _⟩ => rfl)
  show (Finset.univ : Finset (Fin 128)).fold max (Ideal.ofBits .f32 0xFF800000#32) _
    = (Finset.univ : Finset (Fin 128)).fold max ⊥ _
  rw [ofBits_negInf]
  refine congrArg (fun g => (Finset.univ : Finset (Fin 128)).fold max ⊥ g) (funext fun ii => ?_)
  refine (congrArg _ (hlift ii)).trans ?_
  refine congrArg₂ max ?_ Ideal.ofBits_zero_f32
  refine congrArg₂ (· + ·) ?_ ?_
  · refine (shapeCast_rows_pairs_apply _ _ ii jj o).trans ?_
    exact matmulB_apply _ _ _ o
  · refine (broadcastTo_11c_abc_apply _ _ ii jj o).trans ?_
    exact shapeCast_c_11c_apply _ _ 0 0 o

/-! ## One grid step of the pool -/

/-- One grid step (i tile `it`, j tile `jt`): when the loaded blocks are the pieces of the argument arrays — rows
    128·it … of the first features, rows 128·jt … of the second, the two halves of the first layer's weights, the second
    layer's weights and the two bias rows — the value stored back to the accumulator at (jj, o) is the accumulator's
    maximum with the maximum, over the 128 points of tile `it`, of the second activation of the pair (point, 128·jt + jj). -/
theorem tile_step (x1 x2 : Vec Ideal S128x64 .f32) (wa wb w1 : Vec Ideal S64x64 .f32) (b0 b1 : Vec Ideal S1x64 .f32)
    (acc : Vec Ideal S128x64 .f32) (it jt : Fin 8)
    (F1 F2 : Cert.Spec.A3 1 64 1024) (W10 : Cert.Spec.A2 64 128) (b10 : Cert.Spec.A1 64) (W11 : Cert.Spec.A2 64 64)
    (b11 : Cert.Spec.A1 64)
    (hx1 : ∀ (ii : Fin 128) (c : Fin 64),
      x1 (ix2 ii c) = F1 (ix3 0 c ⟨128 * it.val + ii.val, by have := it.isLt; have := ii.isLt; omega⟩))
    (hx2 : ∀ (ii : Fin 128) (c : Fin 64),
      x2 (ix2 ii c) = F2 (ix3 0 c ⟨128 * jt.val + ii.val, by have := jt.isLt; have := ii.isLt; omega⟩))
    (hwa : ∀ o c : Fin 64, wa (ix2 o c) = W10 (ix2 o (Cert.Spec.lo c)))
    (hwb : ∀ o c : Fin 64, wb (ix2 o c) = W10 (ix2 o (Cert.Spec.hi c)))
    (hb0 : ∀ o : Fin 64, b0 (ix2 0 o) = b10 (ix1 o))
    (hw1 : ∀ o c : Fin 64, w1 (ix2 o c) = W11 (ix2 o c))
    (hb1 : ∀ o : Fin 64, b1 (ix2 0 o) = b11 (ix1 o))
    (jj : Fin 128) (o : Fin 64) :
    k0_pay1 (F := Ideal) (k0_pay3 b1) (k0_pay4 x1 x2 wa wb b0) (k0_pay5 w1) acc (ix2 jj o)
      = max (acc (ix2 jj o)) (Cert.Spec.maxOver fun ii : Fin 128 =>
          Cert.Spec.h2 F1 F2 W10 b10 W11 b11
            ⟨128 * it.val + ii.val, by have := it.isLt; have := ii.isLt; omega⟩
            ⟨128 * jt.val + jj.val, by have := jt.isLt; have := jj.isLt; omega⟩ o) := by
  refine (pay1_apply _ _ _ acc jj o).trans ?_
  refine congrArg₂ max rfl ?_
  refine congrArg (fun g => (Finset.univ : Finset (Fin 128)).fold max ⊥ g) (funext fun ii => ?_)
  unfold Cert.Spec.h2
  refine congrArg₂ max (congrArg₂ (· + ·) (Finset.sum_congr rfl fun k _ => congrArg₂ (· * ·) ?_ ?_) ?_) rfl
  · refine (pay4_apply x1 x2 wa wb b0 ii jj k).trans ?_
    unfold Cert.Spec.h1
    refine congrArg₂ max (congrArg₂ (· + ·) (congrArg₂ (· + ·) ?_ ?_) (hb0 k)) rfl
    · exact Finset.sum_congr rfl fun c _ => congrArg₂ (· * ·) (hx1 ii c) (hwa k c)
    · exact Finset.sum_congr rfl fun c _ => congrArg₂ (· * ·) (hx2 jj c) (hwb k c)
  · exact (pay5_apply w1 k o).trans (hw1 o k)
  · exact (pay3_apply b1 o).trans (hb1 o)

end Cert.KernelIdeal.Val0

end
-- ==== Proof.KI_R0Val.lean ====
/- Region 0 (the pairwise stage), its VALUE: what each case of the body leaves in the scratch accumulator and in the
   output block as terms of the loaded blocks; then, over the extended reals and under the hypothesis that the region's
   arrays are the argument arrays' entries, the accumulator after each grid step is the running maximum over the tiles of
   points met so far, the output block stored at the last inner step is the maximum over all points, and the result array
   ends holding the pooled feature at every (point, channel). -/
import proofs.«141513_j49228915147505_1_alg».proof.Proof.KI_R0
import proofs.«141513_j49228915147505_1_alg».proof.Proof.Spec
import proofs.«141513_j49228915147505_1_alg».proof.Proof.LibTileMax
import proofs.«141513_j49228915147505_1_alg».proof.Proof.KI_Val0
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)
open Idealize.ShloMosaic.ValueIdx

namespace Cert.KernelIdeal.Hand

open Cert.KernelIdeal Cert.KernelIdeal.Gen

section Closed
variable {F : FTy → Type} [FloatOps F]

/-- The offset of a whole-buffer rectangle. -/
theorem hz2 : (![0, 0] : Fin 2 → Nat) = fun _ => 0 := funext fun a => by fin_cases a <;> rfl

/-- At a first inner step the accumulator is reset to -∞ and then takes the maximum with the step's pooled tile. -/
theorem soutA_eq (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : cond0_0 i) (hc1 : ¬cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay1 (k0_pay3 x6) (k0_pay4 x0 x1 x2 x3 x4) (k0_pay5 x5) (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  try sl_unfold_words
  refine (View.canon_cons_unit_zero hz2 _ _ _).trans ?_
  rw [View.readCov_unit_zero (S := S128x64) _ hz2]
  simp only [View.readAt_eq_ld, harg2.read_unread, harg3.read_unread, harg4.read_unread, harg5.read_unread, harg6.read_unread, harg7.read_unread, harg8.read_unread, View.ld_unit_zero (S := S128x64) hz2, View.ld_unit_zero (S := S64x64) hz2, View.ld_unit_zero (S := S1x64) hz2]

/-- At a middle inner step the accumulator takes the maximum of what it held with the step's pooled tile. -/
theorem soutB_eq (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : ¬cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay1 (k0_pay3 x6) (k0_pay4 x0 x1 x2 x3 x4) (k0_pay5 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  try sl_unfold_words
  refine (View.canon_cons_unit_zero hz2 _ _ _).trans ?_
  simp only [View.readAt_eq_ld, harg2.read_unread, harg3.read_unread, harg4.read_unread, harg5.read_unread, harg6.read_unread, harg7.read_unread, harg8.read_unread, harg10.read_unread, View.ld_unit_zero (S := S128x64) hz2, View.ld_unit_zero (S := S64x64) hz2, View.ld_unit_zero (S := S1x64) hz2]

/-- At the last inner step the accumulator is updated the same way, -/
theorem soutC_eq (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay1 (k0_pay3 x6) (k0_pay4 x0 x1 x2 x3 x4) (k0_pay5 x5) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  try sl_unfold_words
  refine (View.canon_cons_unit_zero hz2 _ _ _).trans ?_
  simp only [View.readAt_eq_ld, harg2.read_unread, harg3.read_unread, harg4.read_unread, harg5.read_unread, harg6.read_unread, harg7.read_unread, harg8.read_unread, harg10.read_unread, View.ld_unit_zero (S := S128x64) hz2, View.ld_unit_zero (S := S64x64) hz2, View.ld_unit_zero (S := S1x64) hz2]

/-- and the output block is stored at the updated accumulator. -/
theorem outC_eq (c : Dev nD) (i : grid0.Coords) (arg2 : Memref sig .tc .vmem S128x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S128x64 .f32) (harg10 : arg10.IsWhole) (hc0 : ¬cond0_0 i) (hc1 : cond0_1 i)
    (x0 : Vec F S128x64 .f32) (x1 : Vec F S128x64 .f32) (x2 : Vec F S64x64 .f32) (x3 : Vec F S64x64 .f32) (x4 : Vec F S1x64 .f32) (x5 : Vec F S64x64 .f32) (x6 : Vec F S1x64 .f32) (xs0 : Vec F S128x64 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay1 (k0_pay3 x6) (k0_pay4 x0 x1 x2 x3 x4) (k0_pay5 x5) xs0 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  try sl_unfold_words
  refine (View.canon_cons_unit_zero hz2 _ _ _).trans ?_
  rw [View.readCov_unit_zero (S := S128x64) _ hz2]
  simp only [View.readAt_eq_ld, harg2.read_unread, harg3.read_unread, harg4.read_unread, harg5.read_unread, harg6.read_unread, harg7.read_unread, harg8.read_unread, harg10.read_unread, View.ld_unit_zero (S := S128x64) hz2, View.ld_unit_zero (S := S64x64) hz2, View.ld_unit_zero (S := S1x64) hz2]

end Closed

/-! ## The region over the extended reals -/

section Region

variable (V : (c : Dev nD) → (b : Ref sig .tc) → Buf (Elt Ideal) ((c : Thread nD τ).loc b))

/-- Row 128·k + a of a 1024-row array: row a of tile k. -/
abbrev row (k : Fin 8) (a : Fin 128) : Fin 1024 := ⟨128 * k.val + a.val, by have := k.isLt; have := a.isLt; omega⟩

/-! ### The windows' block indices, decided over the grid -/

theorem index0_0 : ∀ t : Fin cfg0.N, win0_0.index t 0 = t.val % 8 ∧ win0_0.index t 1 = 0 :=
  (by decide +kernel : ∀ t : Fin grid0.N, win0_0.index t 0 = t.val % 8 ∧ win0_0.index t 1 = 0)
theorem index0_1 : ∀ t : Fin cfg0.N, win0_1.index t 0 = t.val / 8 ∧ win0_1.index t 1 = 0 :=
  (by decide +kernel : ∀ t : Fin grid0.N, win0_1.index t 0 = t.val / 8 ∧ win0_1.index t 1 = 0)
theorem index0_2 : ∀ t : Fin cfg0.N, win0_2.index t 0 = 0 ∧ win0_2.index t 1 = 0 :=
  (by decide +kernel : ∀ t : Fin grid0.N, win0_2.index t 0 = 0 ∧ win0_2.index t 1 = 0)
theorem index0_3 : ∀ t : Fin cfg0.N, win0_3.index t 0 = 0 ∧ win0_3.index t 1 = 0 :=
  (by decide +kernel : ∀ t : Fin grid0.N, win0_3.index t 0 = 0 ∧ win0_3.index t 1 = 0)
theorem index0_4 : ∀ t : Fin cfg0.N, win0_4.index t 0 = 0 ∧ win0_4.index t 1 = 0 :=
  (by decide +kernel : ∀ t : Fin grid0.N, win0_4.index t 0 = 0 ∧ win0_4.index t 1 = 0)
theorem index0_5 : ∀ t : Fin cfg0.N, win0_5.index t 0 = 0 ∧ win0_5.index t 1 = 0 :=
  (by decide +kernel : ∀ t : Fin grid0.N, win0_5.index t 0 = 0 ∧ win0_5.index t 1 = 0)
theorem index0_6 : ∀ t : Fin cfg0.N, win0_6.index t 0 = 0 ∧ win0_6.index t 1 = 0 :=
  (by decide +kernel : ∀ t : Fin grid0.N, win0_6.index t 0 = 0 ∧ win0_6.index t 1 = 0)
theorem index0_7 : ∀ t : Fin cfg0.N, win0_7.index t 0 = t.val / 8 ∧ win0_7.index t 1 = 0 :=
  (by decide +kernel : ∀ t : Fin grid0.N, win0_7.index t 0 = t.val / 8 ∧ win0_7.index t 1 = 0)
theorem xsize0_7 : ∀ t : Fin cfg0.N, win0_7.xsize (grid0.coords t) 0 = 128 ∧ win0_7.xsize (grid0.coords t) 1 = 64 :=
  (by decide +kernel : ∀ t : Fin grid0.N, win0_7.xsize (grid0.coords t) 0 = 128 ∧ win0_7.xsize (grid0.coords t) 1 = 64)

/-! ### The input blocks, read at coordinates -/

/-- Window 0's block at a point is rows 128·(tile) … of its array, the tile the point's inner coordinate. -/
theorem iblk0_0_apply (c : Dev nD) (t : Fin cfg0.N) (k : Fin 8) (hk : t.val % 8 = k.val) (a : Fin 128) (b : Fin 64) :
    (iblk0 V c 0 t : Vec Ideal S128x64 .f32) (ix2 a b) = (V c main_v1 : S1024x64.Idx → EReal) (ix2 (row k a) b) := by
  have hi := index0_0 t
  unfold iblk0
  rw [View.read_apply]
  show V c main_v1 _ = V c main_v1 _
  congr 1
  funext ax
  apply Fin.ext
  match ax with
  | ⟨0, _⟩ => show win0_0.index t 0 * 128 + 1 * a.val = 128 * k.val + a.val; rw [hi.1, hk]; omega
  | ⟨1, _⟩ => show win0_0.index t 1 * 64 + 1 * b.val = b.val; rw [hi.2]; omega

/-- Window 1's block at a point is rows 128·(tile) … of its array, the tile the point's outer coordinate. -/
theorem iblk0_1_apply (c : Dev nD) (t : Fin cfg0.N) (k : Fin 8) (hk : t.val / 8 = k.val) (a : Fin 128) (b : Fin 64) :
    (iblk0 V c 1 t : Vec Ideal S128x64 .f32) (ix2 a b) = (V c main_v3 : S1024x64.Idx → EReal) (ix2 (row k a) b) := by
  have hi := index0_1 t
  unfold iblk0
  rw [View.read_apply]
  show V c main_v3 _ = V c main_v3 _
  congr 1
  funext ax
  apply Fin.ext
  match ax with
  | ⟨0, _⟩ => show win0_1.index t 0 * 128 + 1 * a.val = 128 * k.val + a.val; rw [hi.1, hk]; omega
  | ⟨1, _⟩ => show win0_1.index t 1 * 64 + 1 * b.val = b.val; rw [hi.2]; omega

/-- Window 2's block is its whole array at every point. -/
theorem iblk0_2_apply (c : Dev nD) (t : Fin cfg0.N) (a : Fin 64) (b : Fin 64) :
    (iblk0 V c 2 t : Vec Ideal S64x64 .f32) (ix2 a b) = (V c main_v4 : S64x64.Idx → EReal) (ix2 a b) := by
  have hi := index0_2 t
  unfold iblk0
  rw [View.read_apply]
  show V c main_v4 _ = V c main_v4 _
  congr 1
  funext ax
  apply Fin.ext
  match ax with
  | ⟨0, _⟩ => show win0_2.index t 0 * 64 + 1 * a.val = a.val; rw [hi.1]; omega
  | ⟨1, _⟩ => show win0_2.index t 1 * 64 + 1 * b.val = b.val; rw [hi.2]; omega

/-- Window 3's block is its whole array at every point. -/
theorem iblk0_3_apply (c : Dev nD) (t : Fin cfg0.N) (a : Fin 64) (b : Fin 64) :
    (iblk0 V c 3 t : Vec Ideal S64x64 .f32) (ix2 a b) = (V c main_v5 : S64x64.Idx → EReal) (ix2 a b) := by
  have hi := index0_3 t
  unfold iblk0
  rw [View.read_apply]
  show V c main_v5 _ = V c main_v5 _
  congr 1
  funext ax
  apply Fin.ext
  match ax with
  | ⟨0, _⟩ => show win0_3.index t 0 * 64 + 1 * a.val = a.val; rw [hi.1]; omega
  | ⟨1, _⟩ => show win0_3.index t 1 * 64 + 1 * b.val = b.val; rw [hi.2]; omega

/-- Window 4's block is its whole array at every point. -/
theorem iblk0_4_apply (c : Dev nD) (t : Fin cfg0.N) (a : Fin 1) (b : Fin 64) :
    (iblk0 V c 4 t : Vec Ideal S1x64 .f32) (ix2 a b) = (V c main_v6 : S1x64.Idx → EReal) (ix2 a b) := by
  have hi := index0_4 t
  unfold iblk0
  rw [View.read_apply]
  show V c main_v6 _ = V c main_v6 _
  congr 1
  funext ax
  apply Fin.ext
  match ax with
  | ⟨0, _⟩ => show win0_4.index t 0 * 1 + 1 * a.val = a.val; rw [hi.1]; omega
  | ⟨1, _⟩ => show win0_4.index t 1 * 64 + 1 * b.val = b.val; rw [hi.2]; omega

/-- Window 5's block is its whole array at every point. -/
theorem iblk0_5_apply (c : Dev nD) (t : Fin cfg0.N) (a : Fin 64) (b : Fin 64) :
    (iblk0 V c 5 t : Vec Ideal S64x64 .f32) (ix2 a b) = (V c main_arg6 : S64x64.Idx → EReal) (ix2 a b) := by
  have hi := index0_5 t
  unfold iblk0
  rw [View.read_apply]
  show V c main_arg6 _ = V c main_arg6 _
  congr 1
  funext ax
  apply Fin.ext
  match ax with
  | ⟨0, _⟩ => show win0_5.index t 0 * 64 + 1 * a.val = a.val; rw [hi.1]; omega
  | ⟨1, _⟩ => show win0_5.index t 1 * 64 + 1 * b.val = b.val; rw [hi.2]; omega

/-- Window 6's block is its whole array at every point. -/
theorem iblk0_6_apply (c : Dev nD) (t : Fin cfg0.N) (a : Fin 1) (b : Fin 64) :
    (iblk0 V c 6 t : Vec Ideal S1x64 .f32) (ix2 a b) = (V c main_v7 : S1x64.Idx → EReal) (ix2 a b) := by
  have hi := index0_6 t
  unfold iblk0
  rw [View.read_apply]
  show V c main_v7 _ = V c main_v7 _
  congr 1
  funext ax
  apply Fin.ext
  match ax with
  | ⟨0, _⟩ => show win0_6.index t 0 * 1 + 1 * a.val = a.val; rw [hi.1]; omega
  | ⟨1, _⟩ => show win0_6.index t 1 * 64 + 1 * b.val = b.val; rw [hi.2]; omega

/-! ### The arrays the region is entered with -/

variable (F1 F2 : Cert.Spec.A3 1 64 1024) (W10 : Cert.Spec.A2 64 128) (b10 : Cert.Spec.A1 64) (W11 : Cert.Spec.A2 64 64)
  (b11 : Cert.Spec.A1 64)

/-- The region's operand arrays on core `c` are the argument arrays' entries: the two feature arrays point-major, the
    two halves of the first layer's weights, the second layer's weights, the two bias rows. -/
structure Entry0 (c : Dev nD) : Prop where
  hV1 : ∀ (n : Fin 1024) (ch : Fin 64), (V c main_v1 : S1024x64.Idx → EReal) (ix2 n ch) = F1 (ix3 0 ch n)
  hV3 : ∀ (n : Fin 1024) (ch : Fin 64), (V c main_v3 : S1024x64.Idx → EReal) (ix2 n ch) = F2 (ix3 0 ch n)
  hV4 : ∀ (o ch : Fin 64), (V c main_v4 : S64x64.Idx → EReal) (ix2 o ch) = W10 (ix2 o (Cert.Spec.lo ch))
  hV5 : ∀ (o ch : Fin 64), (V c main_v5 : S64x64.Idx → EReal) (ix2 o ch) = W10 (ix2 o (Cert.Spec.hi ch))
  hV6 : ∀ (u : Fin 1) (o : Fin 64), (V c main_v6 : S1x64.Idx → EReal) (ix2 u o) = b10 (ix1 o)
  hV7 : ∀ (u : Fin 1) (o : Fin 64), (V c main_v7 : S1x64.Idx → EReal) (ix2 u o) = b11 (ix1 o)
  hW11 : ∀ (o ch : Fin 64), (V c main_arg6 : S64x64.Idx → EReal) (ix2 o ch) = W11 (ix2 o ch)

variable {V F1 F2 W10 b10 W11 b11}

/-- One grid step at point `t` (inner tile `it`, outer tile `jt`), on the point's input blocks and any accumulator
    contents: the stored value at (jj, o) is the accumulator's maximum with the maximum over tile `it`'s 128 points of the
    second activation of the pair (point, row jj of tile `jt`). -/
theorem step_eq {c : Dev nD} (hE : Entry0 V F1 F2 W10 b10 W11 b11 c) (t : Fin cfg0.N) (it jt : Fin 8)
    (hit : t.val % 8 = it.val) (hjt : t.val / 8 = jt.val) (acc : Vec Ideal S128x64 .f32) (jj : Fin 128) (o : Fin 64) :
    k0_pay1 (F := Ideal) (k0_pay3 (iblk0 V c 6 t)) (k0_pay4 (iblk0 V c 0 t) (iblk0 V c 1 t) (iblk0 V c 2 t) (iblk0 V c 3 t) (iblk0 V c 4 t))
        (k0_pay5 (iblk0 V c 5 t)) acc (ix2 jj o)
      = max (acc (ix2 jj o)) (Cert.Spec.maxOver fun ii : Fin 128 => Cert.Spec.h2 F1 F2 W10 b10 W11 b11 (row it ii) (row jt jj) o) :=
  Val0.tile_step (iblk0 V c 0 t) (iblk0 V c 1 t) (iblk0 V c 2 t) (iblk0 V c 3 t) (iblk0 V c 5 t) (iblk0 V c 4 t) (iblk0 V c 6 t) acc it jt
    F1 F2 W10 b10 W11 b11
    (fun ii ch => (iblk0_0_apply V c t it hit ii ch).trans (hE.hV1 _ ch))
    (fun ii ch => (iblk0_1_apply V c t jt hjt ii ch).trans (hE.hV3 _ ch))
    (fun o ch => (iblk0_2_apply V c t o ch).trans (hE.hV4 o ch))
    (fun o ch => (iblk0_3_apply V c t o ch).trans (hE.hV5 o ch))
    (fun o => (iblk0_4_apply V c t 0 o).trans (hE.hV6 0 o))
    (fun o ch => (iblk0_5_apply V c t o ch).trans (hE.hW11 o ch))
    (fun o => (iblk0_6_apply V c t 0 o).trans (hE.hV7 0 o))
    jj o

/-- Point 8·j + i of the grid. -/
theorem pt_lt (j : Fin 8) {i : ℕ} (hi : i < 8) : 8 * j.val + i < cfg0.N := by
  have hN : cfg0.N = 64 := N_0
  have := j.isLt; omega

/-- THE ACCUMULATOR. After the grid step (j, i) the scratch holds, at (jj, o), the running maximum over the first i + 1
    tiles of points of the second activation against row jj of tile j: by induction on the inner step — the first resets
    to −∞ and folds tile 0 in, each later one folds its tile into what the step before left. -/
theorem scratch_eq {c : Dev nD} (hE : Entry0 V F1 F2 W10 b10 W11 b11 c) (j : Fin 8) :
    ∀ (i : ℕ) (hi : i < 8) (jj : Fin 128) (o : Fin 64),
      (outsAt0 V c (8 * j.val + i) (pt_lt j hi)).2 (ix2 jj o)
        = Val0.accTile (fun n => Cert.Spec.h2 F1 F2 W10 b10 W11 b11 n (row j jj) o) (i + 1)
  | 0, hi, jj, o => by
    have h0 : (⟨8 * j.val + 0, pt_lt j hi⟩ : Fin cfg0.N).val % 8 = 0 := by show (8 * j.val + 0) % 8 = 0; omega
    have h1 : ¬(⟨8 * j.val + 0, pt_lt j hi⟩ : Fin cfg0.N).val % 8 = 7 := by show ¬(8 * j.val + 0) % 8 = 7; omega
    have e := outsAt0_A V c ⟨8 * j.val + 0, pt_lt j hi⟩ h0 h1
    rw [show (outsAt0 V c (8 * j.val + 0) (pt_lt j hi)) = _ from e]
    dsimp only
    rw [soutA_eq]
    rw [step_eq hE ⟨8 * j.val + 0, pt_lt j hi⟩ ⟨0, by decide⟩ j h0 (by show (8 * j.val + 0) / 8 = j.val; omega)]
    rw [Val0.pay2_apply]
    exact (Val0.accTile_succ (fun n => Cert.Spec.h2 F1 F2 W10 b10 W11 b11 n (row j jj) o) ⟨0, by decide⟩).symm
  | i + 1, hi, jj, o => by
    have ih := scratch_eq hE j i (Nat.lt_of_succ_lt hi) jj o
    have h0 : ¬(⟨8 * j.val + (i + 1), pt_lt j hi⟩ : Fin cfg0.N).val % 8 = 0 := by show ¬(8 * j.val + (i + 1)) % 8 = 0; omega
    have hit : (⟨8 * j.val + (i + 1), pt_lt j hi⟩ : Fin cfg0.N).val % 8 = (⟨i + 1, hi⟩ : Fin 8).val := by show (8 * j.val + (i + 1)) % 8 = i + 1; omega
    have hjt : (⟨8 * j.val + (i + 1), pt_lt j hi⟩ : Fin cfg0.N).val / 8 = j.val := by show (8 * j.val + (i + 1)) / 8 = j.val; omega
    have hprev : ∀ (m : ℕ) (hm : m < cfg0.N), m = 8 * j.val + i →
        (outsAt0 V c m hm).2 (ix2 jj o) = Val0.accTile (fun n => Cert.Spec.h2 F1 F2 W10 b10 W11 b11 n (row j jj) o) (i + 1) := by
      intro m hm e; subst e; exact ih
    by_cases h1 : (⟨8 * j.val + (i + 1), pt_lt j hi⟩ : Fin cfg0.N).val % 8 = 7
    · have e := outsAt0_C V c ⟨8 * j.val + (i + 1), pt_lt j hi⟩ h0 h1
      rw [show (outsAt0 V c (8 * j.val + (i + 1)) (pt_lt j hi)) = _ from e]
      dsimp only
      rw [soutC_eq, step_eq hE _ ⟨i + 1, hi⟩ j hit hjt, hprev _ _ (by show 8 * j.val + (i + 1) - 1 = 8 * j.val + i; omega)]
      exact (Val0.accTile_succ (fun n => Cert.Spec.h2 F1 F2 W10 b10 W11 b11 n (row j jj) o) ⟨i + 1, hi⟩).symm
    · have e := outsAt0_B V c ⟨8 * j.val + (i + 1), pt_lt j hi⟩ h0 h1
      rw [show (outsAt0 V c (8 * j.val + (i + 1)) (pt_lt j hi)) = _ from e]
      dsimp only
      rw [soutB_eq, step_eq hE _ ⟨i + 1, hi⟩ j hit hjt, hprev _ _ (by show 8 * j.val + (i + 1) - 1 = 8 * j.val + i; omega)]
      exact (Val0.accTile_succ (fun n => Cert.Spec.h2 F1 F2 W10 b10 W11 b11 n (row j jj) o) ⟨i + 1, hi⟩).symm

/-- THE OUTPUT BLOCK. At the last inner step of row tile j the output's staging buffer takes the updated accumulator: at
    (jj, o) the maximum over all 1024 points of the second activation against row jj of tile j — the pooled feature. -/
theorem out_eq {c : Dev nD} (hE : Entry0 V F1 F2 W10 b10 W11 b11 c) (j : Fin 8) (jj : Fin 128) (o : Fin 64) :
    (outsAt0 V c (8 * j.val + 7) (pt_lt j (by decide))).1 (ix2 jj o) = Cert.Spec.hmax F1 F2 W10 b10 W11 b11 (row j jj) o := by
  have hi : (7 : ℕ) < 8 := by decide
  have h0 : ¬(⟨8 * j.val + 7, pt_lt j hi⟩ : Fin cfg0.N).val % 8 = 0 := by show ¬(8 * j.val + 7) % 8 = 0; omega
  have h1 : (⟨8 * j.val + 7, pt_lt j hi⟩ : Fin cfg0.N).val % 8 = 7 := by show (8 * j.val + 7) % 8 = 7; omega
  have hit : (⟨8 * j.val + 7, pt_lt j hi⟩ : Fin cfg0.N).val % 8 = (⟨7, hi⟩ : Fin 8).val := h1
  have hjt : (⟨8 * j.val + 7, pt_lt j hi⟩ : Fin cfg0.N).val / 8 = j.val := by show (8 * j.val + 7) / 8 = j.val; omega
  have hprev : ∀ (m : ℕ) (hm : m < cfg0.N), m = 8 * j.val + 6 →
      (outsAt0 V c m hm).2 (ix2 jj o) = Val0.accTile (fun n => Cert.Spec.h2 F1 F2 W10 b10 W11 b11 n (row j jj) o) (6 + 1) := by
    intro m hm e; subst e; exact scratch_eq hE j 6 (by decide) jj o
  have e := outsAt0_C V c ⟨8 * j.val + 7, pt_lt j hi⟩ h0 h1
  rw [show (outsAt0 V c (8 * j.val + 7) (pt_lt j hi)) = _ from e]
  dsimp only
  rw [outC_eq, step_eq hE _ ⟨7, hi⟩ j hit hjt, hprev _ _ (by show 8 * j.val + 7 - 1 = 8 * j.val + 6; omega)]
  exact ((Val0.accTile_succ (fun n => Cert.Spec.h2 F1 F2 W10 b10 W11 b11 n (row j jj) o) ⟨7, hi⟩).symm).trans (Val0.accTile_eight _)

/-- The pooled feature as contents of the region's result array. -/
abbrev pooled (F1 F2 : Cert.Spec.A3 1 64 1024) (W10 : Cert.Spec.A2 64 128) (b10 : Cert.Spec.A1 64) (W11 : Cert.Spec.A2 64 64)
    (b11 : Cert.Spec.A1 64) : S1024x64.Idx → EReal := fun i => Cert.Spec.hmax F1 F2 W10 b10 W11 b11 (i 0) (i 1)

/-- What a flushing point (the last inner step of a row tile) writes back is its block of the pooled feature. -/
theorem flushed_eq {c : Dev nD} (hE : Entry0 V F1 F2 W10 b10 W11 b11 c) (t : Fin cfg0.N) (hf : (cfg0.win 7).flush t = true) :
    (dat0 V c).flushed 7 t = ((cfg0.win 7).blk t).view.read (Elt Ideal) (pooled F1 F2 W10 b10 W11 b11) := by
  have hN : t.val < 64 := lt_of_lt_of_eq t.isLt (show cfg0.N = 64 from N_0)
  have h7 : t.val % 8 = 7 := (flush0_7 t).mp hf
  have hj : t.val / 8 < 8 := by omega
  obtain ⟨tv, ht⟩ := t
  have hi : win0_7.index ⟨tv, ht⟩ 0 = tv / 8 ∧ win0_7.index ⟨tv, ht⟩ 1 = 0 := index0_7 ⟨tv, ht⟩
  have etv : tv = 8 * (⟨tv / 8, hj⟩ : Fin 8).val + 7 := by show tv = 8 * (tv / 8) + 7; dsimp only at h7; omega
  funext y
  show (dat0 V c).after 7 ⟨tv, ht⟩ ((cfg0.win 7).xinj (grid0.coords ⟨tv, ht⟩) y) = _
  rw [after0_7, View.read_apply]
  have hy : (cfg0.win 7).xinj (grid0.coords ⟨tv, ht⟩) y
      = ix2 (⟨(y 0).val, lt_of_lt_of_eq (y 0).isLt (xsize0_7 ⟨tv, ht⟩).1⟩ : Fin 128) (⟨(y 1).val, lt_of_lt_of_eq (y 1).isLt (xsize0_7 ⟨tv, ht⟩).2⟩ : Fin 64) :=
    funext fun a => Fin.ext (by
      match a with
      | ⟨0, _⟩ => rfl
      | ⟨1, _⟩ => rfl)
  rw [hy]
  have key : ∀ (m : ℕ) (hm : m < cfg0.N), m = 8 * (⟨tv / 8, hj⟩ : Fin 8).val + 7 → ∀ (jj : Fin 128) (o : Fin 64),
      (outsAt0 V c m hm).1 (ix2 jj o) = Cert.Spec.hmax F1 F2 W10 b10 W11 b11 (row ⟨tv / 8, hj⟩ jj) o := by
    intro m hm e jj o; subst e; exact out_eq hE ⟨tv / 8, hj⟩ jj o
  rw [key tv ht etv]
  show Cert.Spec.hmax F1 F2 W10 b10 W11 b11 _ _ = Cert.Spec.hmax F1 F2 W10 b10 W11 b11 _ _
  congr 1
  · apply Fin.ext
    show 128 * (tv / 8) + (y 0).val = win0_7.index ⟨tv, ht⟩ 0 * 128 + 1 * (y 0).val
    rw [hi.1]; omega
  · apply Fin.ext
    show (y 1).val = win0_7.index ⟨tv, ht⟩ 1 * 64 + 1 * (y 1).val
    rw [hi.2]; omega

/-- Every row of the result array is in the block of its row tile's last inner step. -/
theorem cover0_7 (i : S1024x64.Idx) :
    ∃ t : Fin cfg0.N, (cfg0.win 7).flush t = true ∧ i ∈ ((cfg0.win 7).blk t).view.set := by
  have hN : cfg0.N = 64 := N_0
  have h0 : (i 0 : Nat) < 1024 := (i 0).isLt
  have h1 : (i 1 : Nat) < 64 := (i 1).isLt
  have ht : 8 * ((i 0 : Nat) / 128) + 7 < cfg0.N := by omega
  refine ⟨⟨8 * ((i 0 : Nat) / 128) + 7, ht⟩, (flush0_7 _).mpr (by show (8 * ((i 0 : Nat) / 128) + 7) % 8 = 7; omega), ?_⟩
  have hi := index0_7 ⟨8 * ((i 0 : Nat) / 128) + 7, ht⟩
  have hx := xsize0_7 ⟨8 * ((i 0 : Nat) / 128) + 7, ht⟩
  show i ∈ ((View.whole main_v8).slice (win0_7.rect ⟨8 * ((i 0 : Nat) / 128) + 7, ht⟩)).set
  rw [View.set_slice_whole, Rect.mem_set_unit]
  intro a
  match a with
  | ⟨0, _⟩ =>
    show win0_7.index ⟨8 * ((i 0 : Nat) / 128) + 7, ht⟩ 0 * 128 ≤ (i 0 : Nat) ∧ (i 0 : Nat) < win0_7.index ⟨8 * ((i 0 : Nat) / 128) + 7, ht⟩ 0 * 128 + win0_7.xsize (grid0.coords ⟨8 * ((i 0 : Nat) / 128) + 7, ht⟩) 0
    rw [hi.1, hx.1]; dsimp only; omega
  | ⟨1, _⟩ =>
    show win0_7.index ⟨8 * ((i 0 : Nat) / 128) + 7, ht⟩ 1 * 64 ≤ (i 1 : Nat) ∧ (i 1 : Nat) < win0_7.index ⟨8 * ((i 0 : Nat) / 128) + 7, ht⟩ 1 * 64 + win0_7.xsize (grid0.coords ⟨8 * ((i 0 : Nat) / 128) + 7, ht⟩) 1
    rw [hi.2, hx.2]; omega

end Region

/-- THE REGION'S VALUE. Entered with the argument arrays' entries in its operand arrays, the pairwise stage leaves its
    result array holding the pooled feature: at (point j, channel o) the maximum over all 1024 points i of the second
    activation of the pair (i, j). -/
theorem region0_value (V : (c : Dev nD) → (b : Ref sig .tc) → Buf (Elt Ideal) ((c : Thread nD τ).loc b)) (c : Dev nD)
    (F1 F2 : Cert.Spec.A3 1 64 1024) (W10 : Cert.Spec.A2 64 128) (b10 : Cert.Spec.A1 64) (W11 : Cert.Spec.A2 64 64)
    (b11 : Cert.Spec.A1 64)
    (hV1 : ∀ (n : Fin 1024) (ch : Fin 64), (V c main_v1 : S1024x64.Idx → EReal) (ix2 n ch) = F1 (ix3 0 ch n))
    (hV3 : ∀ (n : Fin 1024) (ch : Fin 64), (V c main_v3 : S1024x64.Idx → EReal) (ix2 n ch) = F2 (ix3 0 ch n))
    (hV4 : ∀ (o ch : Fin 64), (V c main_v4 : S64x64.Idx → EReal) (ix2 o ch) = W10 (ix2 o (Cert.Spec.lo ch)))
    (hV5 : ∀ (o ch : Fin 64), (V c main_v5 : S64x64.Idx → EReal) (ix2 o ch) = W10 (ix2 o (Cert.Spec.hi ch)))
    (hV6 : ∀ (u : Fin 1) (o : Fin 64), (V c main_v6 : S1x64.Idx → EReal) (ix2 u o) = b10 (ix1 o))
    (hV7 : ∀ (u : Fin 1) (o : Fin 64), (V c main_v7 : S1x64.Idx → EReal) (ix2 u o) = b11 (ix1 o))
    (hW11 : ∀ (o ch : Fin 64), (V c main_arg6 : S64x64.Idx → EReal) (ix2 o ch) = W11 (ix2 o ch)) :
    ((dat0 V c).arrAt 7 cfg0.N : S1024x64.Idx → EReal) = fun i => Cert.Spec.hmax F1 F2 W10 b10 W11 b11 (i 0) (i 1) :=
  (dat0 V c).arrAt_eq_of_cover 7 (pooled F1 F2 W10 b10 W11 b11)
    (flushed_eq (⟨hV1, hV3, hV4, hV5, hV6, hV7, hW11⟩ : Entry0 V F1 F2 W10 b10 W11 b11 c)) cover0_7

end Cert.KernelIdeal.Hand
end
-- ==== Proof.KI_Val1.lean ====
/-
  The second kernel's arithmetic (the flow MLP, the displaced point cloud, the per-point MLP and the pool over the
  points), read at an index over the extended reals: each stored value is the specification's function of the blocks the
  body loaded.

  Every layer is a product with a transposed weight matrix into the zero accumulator, plus a bias row broadcast over the
  points, with or without a maximum against zero. At the extended reals the roundings into the product are the identity,
  the product is the sum over the contracted channel, the bias row is read at the output channel, and the
  max-reduction over the points from −∞ is the fold of max over them.
-/
import proofs.«141513_j49228915147505_1_alg».proof.Proof.Gen.KernelIdeal.Skeleton
import proofs.«141513_j49228915147505_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val1

open Idealize.ShloMosaic Idealize.ShloMosaic.ValueIdx
open Cert.KernelIdeal Cert.KernelIdeal.Gen

/-! ## A plain product [M,K]·[K,N] read at an index -/

/-- The dimension numbers of a plain product: the left operand's axis 1 contracted with the right operand's axis 0. -/
abbrev plainD (M K N : Nat) (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := w

section Plain
variable {M K N : Nat} (w : DotDims.WF ⟨2, ![M, K]⟩ ⟨2, ![K, N]⟩ ⟨2, ![M, N]⟩ [1] [0] [0] [1] [] [])

theorem plain_lhs0 (j : (⟨2, ![M, N]⟩ : Shape).Idx) (q : (plainD M K N w).contr.Idx) :
    ((plainD M K N w).lhsIdx j q 0).val = (j 0).val := by
  unfold DotDims.lhsIdx
  rw [dif_neg (show ¬(0 : Fin (⟨2, ![M, K]⟩ : Shape).rank) ∈ (plainD M K N w).lhsBatch from List.not_mem_nil),
    dif_pos (show (0 : Fin (⟨2, ![M, K]⟩ : Shape).rank) ∈ (plainD M K N w).lhsNonContracting from List.mem_singleton.mpr rfl)]
  rfl

theorem plain_lhs1 (j : (⟨2, ![M, N]⟩ : Shape).Idx) (q : (plainD M K N w).contr.Idx) :
    ((plainD M K N w).lhsIdx j q 1).val = (q ⟨0, Nat.one_pos⟩).val :=
  (plainD M K N w).lhsIdx_val_of_single rfl j q

theorem plain_rhs0 (j : (⟨2, ![M, N]⟩ : Shape).Idx) (q : (plainD M K N w).contr.Idx) :
    ((plainD M K N w).rhsIdx j q 0).val = (q ⟨0, Nat.one_pos⟩).val :=
  (plainD M K N w).rhsIdx_val_of_single rfl j q

theorem plain_rhs1 (j : (⟨2, ![M, N]⟩ : Shape).Idx) (q : (plainD M K N w).contr.Idx) :
    ((plainD M K N w).rhsIdx j q 1).val = (j 1).val := by
  unfold DotDims.rhsIdx
  rw [dif_neg (show ¬(1 : Fin (⟨2, ![K, N]⟩ : Shape).rank) ∈ (plainD M K N w).rhsBatch from List.not_mem_nil),
    dif_pos (show (1 : Fin (⟨2, ![K, N]⟩ : Shape).rank) ∈ (plainD M K N w).rhsNonContracting from List.mem_singleton.mpr rfl)]
  rfl

/-- The product into the zero accumulator at (n, o): the sum over the contracted coordinate. -/
theorem plain_matmul_apply {φ₁ φ₂ : FTy} (A : FVec Ideal ⟨2, ![M, K]⟩ φ₁) (B : FVec Ideal ⟨2, ![K, N]⟩ φ₂)
    (n : Fin M) (o : Fin N) :
    matmul (plainD M K N w) none A B (constant (F := Ideal) ⟨2, ![M, N]⟩ .f32 0x00000000#32) (ix2 n o)
      = ∑ k : Fin K, A (ix2 n k) * B (ix2 k o) := by
  simp only [matmul]
  rw [Ideal.matmul_constant_zero_apply, ← Equiv.sum_comp (contrEquiv1 (plainD M K N w) K rfl rfl).symm]
  refine Finset.sum_congr rfl fun k _ => ?_
  have hk := contrEquiv1_symm_val (plainD M K N w) K rfl rfl k
  have el : (plainD M K N w).lhsIdx (ix2 n o) ((contrEquiv1 (plainD M K N w) K rfl rfl).symm k) = ix2 n k :=
    funext fun a => Fin.ext (by
      match a with
      | ⟨0, _⟩ => exact plain_lhs0 w _ _
      | ⟨1, _⟩ => exact (plain_lhs1 w _ _).trans hk)
  have er : (plainD M K N w).rhsIdx (ix2 n o) ((contrEquiv1 (plainD M K N w) K rfl rfl).symm k) = ix2 k o :=
    funext fun a => Fin.ext (by
      match a with
      | ⟨0, _⟩ => exact (plain_rhs0 w _ _).trans hk
      | ⟨1, _⟩ => exact plain_rhs1 w _ _)
  rw [el, er]

end Plain

/-! ## The pieces of a layer -/

/-- A product with the TRANSPOSE of a weight matrix W : [N,K], both operands rounded to bf16 on the way in, into the zero
    accumulator. -/
def mmT {M K N : Nat} (D : DotDims ⟨2, ![M, K]⟩ ⟨2, ![K, N]⟩ ⟨2, ![M, N]⟩) (hb : FTy.bits .bf16 < FTy.bits .f32)
    (ht : (⟨2, ![N, K]⟩ : Shape).Transposes [1, 0] ⟨2, ![K, N]⟩)
    (A : FVec Ideal ⟨2, ![M, K]⟩ .f32) (W : FVec Ideal ⟨2, ![N, K]⟩ .f32) : FVec Ideal ⟨2, ![M, N]⟩ .f32 :=
  matmul D none (truncf .bf16 A hb) (transpose ⟨2, ![K, N]⟩ [1, 0] (truncf .bf16 W hb) ht)
    (constant (F := Ideal) ⟨2, ![M, N]⟩ .f32 0x00000000#32)

/-- It is the sum over the contracted channel of the operand times the weight. -/
theorem mmT_apply {M K N : Nat} (w : DotDims.WF ⟨2, ![M, K]⟩ ⟨2, ![K, N]⟩ ⟨2, ![M, N]⟩ [1] [0] [0] [1] [] [])
    (hb : FTy.bits .bf16 < FTy.bits .f32) (ht : (⟨2, ![N, K]⟩ : Shape).Transposes [1, 0] ⟨2, ![K, N]⟩)
    (A : FVec Ideal ⟨2, ![M, K]⟩ .f32) (W : FVec Ideal ⟨2, ![N, K]⟩ .f32) (n : Fin M) (o : Fin N) :
    mmT (plainD M K N w) hb ht A W (ix2 n o) = ∑ k : Fin K, A (ix2 n k) * W (ix2 o k) :=
  (plain_matmul_apply w _ _ n o).trans
    (Finset.sum_congr rfl fun k _ => congrArg (A (ix2 n k) * ·) (transpose_ix2_apply (truncf .bf16 W hb) ht k o))

/-- A bias row [1,N], flattened and unflattened as the body does, broadcast over M rows. -/
def rowB {M N : Nat} (h1 : (⟨2, ![1, N]⟩ : Shape).ShapeCasts ⟨1, ![N]⟩) (h2 : (⟨1, ![N]⟩ : Shape).ShapeCasts ⟨2, ![1, N]⟩)
    (h3 : (⟨2, ![1, N]⟩ : Shape).Broadcasts ⟨2, ![M, N]⟩) (r : FVec Ideal ⟨2, ![1, N]⟩ .f32) : FVec Ideal ⟨2, ![M, N]⟩ .f32 :=
  broadcastTo ⟨2, ![M, N]⟩ (shapeCast ⟨2, ![1, N]⟩ (shapeCast ⟨1, ![N]⟩ r h1) h2) h3

/-- At (n, o) it is the row's entry o. -/
theorem rowB_apply {M N : Nat} (h1 : (⟨2, ![1, N]⟩ : Shape).ShapeCasts ⟨1, ![N]⟩) (h2 : (⟨1, ![N]⟩ : Shape).ShapeCasts ⟨2, ![1, N]⟩)
    (h3 : (⟨2, ![1, N]⟩ : Shape).Broadcasts ⟨2, ![M, N]⟩) (r : FVec Ideal ⟨2, ![1, N]⟩ .f32) (n : Fin M) (o : Fin N) :
    rowB h1 h2 h3 r (ix2 n o) = r (ix2 (0 : Fin 1) o) :=
  (broadcastTo_1b_ab_apply _ h3 n o).trans (congrFun (shapeCast_shapeCast r h1 h2) _)

/-- The maximum against the zero splat. -/
def relu {s : Shape} (x : FVec Ideal s .f32) : FVec Ideal s .f32 :=
  maximumf x (broadcast s (Scalar.ofBits (F := Ideal) .f32 0x00000000#32))

theorem relu_apply {s : Shape} (x : FVec Ideal s .f32) (i : s.Idx) : relu x i = max (x i) 0 := by
  show max (x i) (Ideal.ofBits .f32 0x00000000#32) = _
  rw [Ideal.ofBits_zero_f32]

/-! ## The body's values as compositions of those pieces -/

section Body
variable (v0 : Vec Ideal S1024x64 .f32) (v3 : Vec Ideal S64x64 .f32) (v5 : Vec Ideal S1x64 .f32)
  (v14 : Vec Ideal S3x64 .f32) (v16 : Vec Ideal S1x3 .f32) (v25 : Vec Ideal S1024x3 .f32) (v28 : Vec Ideal S64x3 .f32)
  (v30 : Vec Ideal S1x64 .f32) (v40 : Vec Ideal S128x64 .f32) (v42 : Vec Ideal S1x128 .f32)
  (v52 : Vec Ideal S1024x128 .f32) (v54 : Vec Ideal S1x1024 .f32)

/-- The flow MLP's hidden layer. -/
def hid : FVec Ideal S1024x64 .f32 :=
  relu (addf (mmT dot_S1024x64_S64x64_S1024x64_1_0_0_1_n_n bitsLt_bf16_f32 transposes_S64x64_p1_0_S64x64 v0 v3)
    (rowB shapeCasts_S1x64_S64 shapeCasts_S64_S1x64 broadcasts_S1x64_S1024x64 v5))

theorem pay3_eq : k1_pay3 v0 v3 v5 v14 v16
    = addf (mmT dot_S1024x64_S64x3_S1024x3_1_0_0_1_n_n bitsLt_bf16_f32 transposes_S3x64_p1_0_S64x3 (hid v0 v3 v5) v14)
        (rowB shapeCasts_S1x3_S3 shapeCasts_S3_S1x3 broadcasts_S1x3_S1024x3 v16) := by
  unfold k1_pay3
  simp only [shapeCast_self]
  rfl

end Body

/-! ## The flow -/

section Flow
variable (v0 : Vec Ideal S1024x64 .f32) (v3 : Vec Ideal S64x64 .f32) (v5 : Vec Ideal S1x64 .f32)
  (v14 : Vec Ideal S3x64 .f32) (v16 : Vec Ideal S1x3 .f32)

/-- The hidden layer at (n, o) is the specification's, over the pooled block and the bias row's entries. -/
theorem hid_apply (n : Fin 1024) (o : Fin 64) :
    hid v0 v3 v5 (ix2 n o) = Cert.Spec.mh (fun n c => v0 (ix2 n c)) v3 (fun i => v5 (ix2 0 (i 0))) n o := by
  unfold hid Cert.Spec.mh
  rw [relu_apply, addf_apply]
  exact congrArg (max · 0) (congrArg₂ (· + ·)
    (mmT_apply dot_S1024x64_S64x64_S1024x64_1_0_0_1_n_n.wf _ _ v0 v3 n o) (rowB_apply _ _ _ v5 n o))

/-- (a) The stored flow at (n, d). -/
theorem flow_apply (n : Fin 1024) (d : Fin 3) :
    k1_pay3 v0 v3 v5 v14 v16 (ix2 n d)
      = Cert.Spec.flow (fun n c => v0 (ix2 n c)) v3 (fun i => v5 (ix2 0 (i 0))) v14 (fun i => v16 (ix2 0 (i 0))) n d := by
  rw [pay3_eq, addf_apply]
  unfold Cert.Spec.flow
  refine congrArg₂ (· + ·) ?_ (rowB_apply _ _ _ v16 n d)
  refine (mmT_apply dot_S1024x64_S64x3_S1024x3_1_0_0_1_n_n.wf _ _ (hid v0 v3 v5) v14 n d).trans
    (Finset.sum_congr rfl fun c _ => ?_)
  exact congrArg (· * v14 (ix2 d c)) (hid_apply v0 v3 v5 n c)

end Flow

/-! ## The per-point feature -/

section Feature
variable (v0 : Vec Ideal S1024x64 .f32) (v3 : Vec Ideal S64x64 .f32) (v5 : Vec Ideal S1x64 .f32)
  (v14 : Vec Ideal S3x64 .f32) (v16 : Vec Ideal S1x3 .f32) (v25 : Vec Ideal S1024x3 .f32) (v28 : Vec Ideal S64x3 .f32)
  (v30 : Vec Ideal S1x64 .f32)

/-- The first per-point layer over the displaced points. -/
def feat : FVec Ideal S1024x64 .f32 :=
  relu (addf (mmT dot_S1024x3_S3x64_S1024x64_1_0_0_1_n_n bitsLt_bf16_f32 transposes_S64x3_p1_0_S3x64
      (addf v25 (k1_pay3 v0 v3 v5 v14 v16)) v28)
    (rowB shapeCasts_S1x64_S64 shapeCasts_S64_S1x64 broadcasts_S1x64_S1024x64 v30))

theorem pay1_eq : k1_pay1 (k1_pay4 v0 v3 v5 v14 v16 v25 v28) (k1_pay5 v30) = feat v0 v3 v5 v14 v16 v25 v28 v30 := by
  unfold k1_pay1 k1_pay4 k1_pay5
  simp only [shapeCast_self]
  rfl

/-- The feature at (n, o) is the specification's. -/
theorem feat_apply (n : Fin 1024) (o : Fin 64) :
    feat v0 v3 v5 v14 v16 v25 v28 v30 (ix2 n o)
      = Cert.Spec.pf (fun n c => v0 (ix2 n c)) v3 (fun i => v5 (ix2 0 (i 0))) v14 (fun i => v16 (ix2 0 (i 0)))
          (fun i => v25 (ix2 (i 1) (i 2))) v28 (fun i => v30 (ix2 0 (i 0))) n o := by
  unfold feat Cert.Spec.pf
  rw [relu_apply, addf_apply]
  refine congrArg (max · 0) (congrArg₂ (· + ·) ?_ (rowB_apply _ _ _ v30 n o))
  refine (mmT_apply dot_S1024x3_S3x64_S1024x64_1_0_0_1_n_n.wf _ _ _ v28 n o).trans
    (Finset.sum_congr rfl fun d _ => ?_)
  unfold Cert.Spec.xpt
  rw [addf_apply]
  exact congrArg (fun t => (v25 (ix2 n d) + t) * v28 (ix2 o d)) (flow_apply v0 v3 v5 v14 v16 n d)

/-- (b) The stored per-point feature at (n, o). -/
theorem pf_apply (n : Fin 1024) (o : Fin 64) :
    k1_pay1 (k1_pay4 v0 v3 v5 v14 v16 v25 v28) (k1_pay5 v30) (ix2 n o)
      = Cert.Spec.pf (fun n c => v0 (ix2 n c)) v3 (fun i => v5 (ix2 0 (i 0))) v14 (fun i => v16 (ix2 0 (i 0)))
          (fun i => v25 (ix2 (i 1) (i 2))) v28 (fun i => v30 (ix2 0 (i 0))) n o := by
  rw [pay1_eq]
  exact feat_apply v0 v3 v5 v14 v16 v25 v28 v30 n o

end Feature

/-! ## The global feature -/

/-- The word the pool starts from is −∞. -/
theorem ofBits_neg_inf : FloatOps.ofBits (F := Ideal) .f32 0xFF800000#32 = (⊥ : EReal) := by
  simp [Ideal.ofBits, Ideal.ieee]

section Global
variable (P : FVec Ideal S1024x64 .f32) (v40 : Vec Ideal S128x64 .f32) (v42 : Vec Ideal S1x128 .f32)
  (v52 : Vec Ideal S1024x128 .f32) (v54 : Vec Ideal S1x1024 .f32)

/-- The second per-point layer over a feature block P. -/
def lay2 : FVec Ideal S1024x128 .f32 :=
  relu (addf (mmT dot_S1024x64_S64x128_S1024x128_1_0_0_1_n_n bitsLt_bf16_f32 transposes_S128x64_p1_0_S64x128 P v40)
    (rowB shapeCasts_S1x128_S128 shapeCasts_S128_S1x128 broadcasts_S1x128_S1024x128 v42))

/-- The third (no maximum). -/
def lay3 : FVec Ideal S1024x1024 .f32 :=
  addf (mmT dot_S1024x128_S128x1024_S1024x1024_1_0_0_1_n_n bitsLt_bf16_f32 transposes_S1024x128_p1_0_S128x1024
      (lay2 P v40 v42) v52)
    (rowB shapeCasts_S1x1024_S1024 shapeCasts_S1024_S1x1024 broadcasts_S1x1024_S1024x1024 v54)

/-- The pool over the points, from −∞. -/
def pool : FVec Ideal S1024 .f32 :=
  multiReduction (F := Ideal) .maximumf [0] S1024 (lay3 P v40 v42 v52 v54) 0xFF800000#32 reduces_S1024x1024_S1024
    (.inl rfl) rfl

theorem pay2_eq (v34 : FVec Ideal S1024x64 .f32) (v35 : FVec Ideal S1x64 .f32) :
    k1_pay2 v34 v35 v40 v42 v52 v54
      = broadcastTo S1024x1024 (shapeCast S1x1024 (pool (k1_pay1 v34 v35) v40 v42 v52 v54) shapeCasts_S1024_S1x1024)
          broadcasts_S1x1024_S1024x1024 := by
  unfold k1_pay2
  simp only [shapeCast_self]
  rfl

variable (pf : Fin 1024 → Fin 64 → EReal) (hP : ∀ n c, P (ix2 n c) = pf n c)
include hP

/-- The second layer at (n, o), over the feature the block holds. -/
theorem lay2_apply (n : Fin 1024) (o : Fin 128) :
    lay2 P v40 v42 (ix2 n o) = max ((∑ c : Fin 64, pf n c * v40 (ix2 o c)) + v42 (ix2 0 o)) 0 := by
  unfold lay2
  rw [relu_apply, addf_apply]
  refine congrArg (max · 0) (congrArg₂ (· + ·) ?_ (rowB_apply _ _ _ v42 n o))
  refine (mmT_apply dot_S1024x64_S64x128_S1024x128_1_0_0_1_n_n.wf _ _ P v40 n o).trans
    (Finset.sum_congr rfl fun c _ => ?_)
  exact congrArg (· * v40 (ix2 o c)) (hP n c)

/-- The third layer at (n, o). -/
theorem lay3_apply (n : Fin 1024) (o : Fin 1024) :
    lay3 P v40 v42 v52 v54 (ix2 n o)
      = (∑ c : Fin 128, max ((∑ e : Fin 64, pf n e * v40 (ix2 c e)) + v42 (ix2 0 c)) 0 * v52 (ix2 o c)) + v54 (ix2 0 o) := by
  unfold lay3
  rw [addf_apply]
  refine congrArg₂ (· + ·) ?_ (rowB_apply _ _ _ v54 n o)
  refine (mmT_apply dot_S1024x128_S128x1024_S1024x1024_1_0_0_1_n_n.wf _ _ _ v52 n o).trans
    (Finset.sum_congr rfl fun c _ => ?_)
  exact congrArg (· * v52 (ix2 o c)) (lay2_apply P v40 v42 pf hP n c)

/-- The pool at k: the fold of max over the points of the third layer's column k. -/
theorem pool_apply (k : Fin 1024) :
    pool P v40 v42 v52 v54 (ix1 k)
      = Cert.Spec.maxOver fun n : Fin 1024 =>
          (∑ c : Fin 128, max ((∑ e : Fin 64, pf n e * v40 (ix2 c e)) + v42 (ix2 0 c)) 0 * v52 (ix2 k c)) + v54 (ix2 0 k) := by
  unfold pool
  refine (Ideal.multiReduction_maximumf_single (lay3 P v40 v42 v52 v54) 0xFF800000#32 reduces_S1024x1024_S1024
    (.inl rfl) rfl (ix1 k)).trans ?_
  rw [ofBits_neg_inf]
  refine congrArg (fun f => (Finset.univ : Finset (Fin 1024)).fold max (⊥ : EReal) f) (funext fun n => ?_)
  have e : reduces_S1024x1024_S1024.lift (ix1 k) n = ix2 n k :=
    funext fun a => Fin.ext (by
      match a with
      | ⟨0, _⟩ => rfl
      | ⟨1, _⟩ => rfl)
  show lay3 P v40 v42 v52 v54 (reduces_S1024x1024_S1024.lift (ix1 k) n) = _
  rw [e]
  exact lay3_apply P v40 v42 v52 v54 pf hP n k

end Global

/-! ## The stored global feature -/

section Stored
variable (v0 : Vec Ideal S1024x64 .f32) (v3 : Vec Ideal S64x64 .f32) (v5 : Vec Ideal S1x64 .f32)
  (v14 : Vec Ideal S3x64 .f32) (v16 : Vec Ideal S1x3 .f32) (v25 : Vec Ideal S1024x3 .f32) (v28 : Vec Ideal S64x3 .f32)
  (v30 : Vec Ideal S1x64 .f32) (v40 : Vec Ideal S128x64 .f32) (v42 : Vec Ideal S1x128 .f32)
  (v52 : Vec Ideal S1024x128 .f32) (v54 : Vec Ideal S1x1024 .f32)

/-- (c) The stored global feature at (n, k): the pool's entry k in every row n. -/
theorem gfeat_apply (n k : Fin 1024) :
    k1_pay2 (k1_pay4 v0 v3 v5 v14 v16 v25 v28) (k1_pay5 v30) v40 v42 v52 v54 (ix2 n k)
      = Cert.Spec.gfeat (fun n c => v0 (ix2 n c)) v3 (fun i => v5 (ix2 0 (i 0))) v14 (fun i => v16 (ix2 0 (i 0)))
          (fun i => v25 (ix2 (i 1) (i 2))) v28 (fun i => v30 (ix2 0 (i 0))) v40 (fun i => v42 (ix2 0 (i 0)))
          v52 (fun i => v54 (ix2 0 (i 0))) k := by
  rw [pay2_eq]
  refine (broadcastTo_1b_ab_apply _ broadcasts_S1x1024_S1024x1024 n k).trans ?_
  refine (shapeCast_a_1a_apply _ shapeCasts_S1024_S1x1024 0 k).trans ?_
  refine (pool_apply _ v40 v42 v52 v54 _ (pf_apply v0 v3 v5 v14 v16 v25 v28 v30) k).trans ?_
  unfold Cert.Spec.gfeat Cert.Spec.h3 Cert.Spec.q2
  rfl

end Stored

end Cert.KernelIdeal.Val1

end
-- ==== Proof.KI_R1Val.lean ====
/- The per-point stage's value: the two output blocks after the body as the stores' payloads of the loaded blocks (the [1024, 1088]
   block as two pieces side by side); every window's block is its whole array, so the two result arrays are those payloads of the
   region's arrays; then, over the extended reals and under the hypothesis that the region's arrays are the argument arrays' entries,
   the first array is the flow and the second holds the pooled feature in columns 0..1023 of every row and the row's own feature
   after it. -/
import proofs.«141513_j49228915147505_1_alg».proof.Proof.KI_R1
import proofs.«141513_j49228915147505_1_alg».proof.Proof.Spec
import proofs.«141513_j49228915147505_1_alg».proof.Proof.KI_Val1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl

/-- Output 12 after the body: its one whole store's payload, a function of input blocks 0, 2, 3, 4, 5 alone. -/
theorem out1_A_12_eq (c : Dev nD) (i : grid1.Coords) (arg1 : Memref sig .tc .vmem S1024x64 .f32) (harg1 : arg1.IsWhole) (arg2 : Memref sig .tc .vmem S1024x3 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S3x64 .f32) (harg5 : arg5.IsWhole) (arg6 : Memref sig .tc .vmem S1x3 .f32) (harg6 : arg6.IsWhole) (arg7 : Memref sig .tc .vmem S64x3 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1x1024 .f32) (harg12 : arg12.IsWhole) (arg13 : Memref sig .tc .vmem S1024x3 .f32) (harg13 : arg13.IsWhole) (arg14 : Memref sig .tc .vmem S1024x1088 .f32) (harg14 : arg14.IsWhole)
    (x0 : Vec F S1024x64 .f32) (x1 : Vec F S1024x3 .f32) (x2 : Vec F S64x64 .f32) (x3 : Vec F S1x64 .f32) (x4 : Vec F S3x64 .f32) (x5 : Vec F S1x3 .f32) (x6 : Vec F S64x3 .f32) (x7 : Vec F S1x64 .f32) (x8 : Vec F S128x64 .f32) (x9 : Vec F S1x128 .f32) (x10 : Vec F S1024x128 .f32) (x11 : Vec F S1x1024 .f32) :
    out1_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 = k1_pay3 x0 x2 x3 x4 x5 := by
  unfold out1_A_12
  rw [View.read_writes_eq_canon _ _ _ (cover1_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11)]
  unfold kernelRun1_A
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S1024x64) hz2, View.ld_unit_zero (S := S1024x3) hz2, View.ld_unit_zero (S := S64x64) hz2, View.ld_unit_zero (S := S1x64) hz2, View.ld_unit_zero (S := S3x64) hz2, View.ld_unit_zero (S := S1x3) hz2, View.ld_unit_zero (S := S64x3) hz2, View.ld_unit_zero (S := S128x64) hz2, View.ld_unit_zero (S := S1x128) hz2, View.ld_unit_zero (S := S1024x128) hz2, View.ld_unit_zero (S := S1x1024) hz2]

/-- Output 13 after the body: the two stores' payloads laid side by side (columns 1024..1087 the later store,
    columns 0..1023 the earlier), each a function of the input blocks. -/
theorem out1_A_13_eq (c : Dev nD) (i : grid1.Coords) (arg1 : Memref sig .tc .vmem S1024x64 .f32) (harg1 : arg1.IsWhole) (arg2 : Memref sig .tc .vmem S1024x3 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S3x64 .f32) (harg5 : arg5.IsWhole) (arg6 : Memref sig .tc .vmem S1x3 .f32) (harg6 : arg6.IsWhole) (arg7 : Memref sig .tc .vmem S64x3 .f32) (harg7 : arg7.IsWhole) (arg8 : Memref sig .tc .vmem S1x64 .f32) (harg8 : arg8.IsWhole) (arg9 : Memref sig .tc .vmem S128x64 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1x1024 .f32) (harg12 : arg12.IsWhole) (arg13 : Memref sig .tc .vmem S1024x3 .f32) (harg13 : arg13.IsWhole) (arg14 : Memref sig .tc .vmem S1024x1088 .f32) (harg14 : arg14.IsWhole)
    (x0 : Vec F S1024x64 .f32) (x1 : Vec F S1024x3 .f32) (x2 : Vec F S64x64 .f32) (x3 : Vec F S1x64 .f32) (x4 : Vec F S3x64 .f32) (x5 : Vec F S1x3 .f32) (x6 : Vec F S64x3 .f32) (x7 : Vec F S1x64 .f32) (x8 : Vec F S128x64 .f32) (x9 : Vec F S1x128 .f32) (x10 : Vec F S1024x128 .f32) (x11 : Vec F S1x1024 .f32) :
    out1_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 = View.canon
      [(⟨Rect.unit (s := S1024x1088) ![0, 1024] S1024x64.size inb_S1024x1088_S1024x64_0_1024, k1_pay1 (k1_pay4 x0 x2 x3 x4 x5 x1 x6) (k1_pay5 x7)⟩ : View.Piece (Elt F) S1024x1088 .f32),
       ⟨Rect.unit (s := S1024x1088) ![0, 0] S1024x1024.size inb_S1024x1088_S1024x1024_0_0, k1_pay2 (k1_pay4 x0 x2 x3 x4 x5 x1 x6) (k1_pay5 x7) x8 x9 x10 x11⟩] := by
  unfold out1_A_13
  rw [View.read_writes_eq_canon _ _ _ (cover1_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11)]
  unfold kernelRun1_A
  dsimp only
  sl_unfold_run_names
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S1024x64) hz2, View.ld_unit_zero (S := S1024x3) hz2, View.ld_unit_zero (S := S64x64) hz2, View.ld_unit_zero (S := S1x64) hz2, View.ld_unit_zero (S := S3x64) hz2, View.ld_unit_zero (S := S1x3) hz2, View.ld_unit_zero (S := S64x3) hz2, View.ld_unit_zero (S := S128x64) hz2, View.ld_unit_zero (S := S1x128) hz2, View.ld_unit_zero (S := S1024x128) hz2, View.ld_unit_zero (S := S1x1024) hz2]

/-! ## From blocks to arrays: one grid point, every window's block its whole array -/

variable (V : (c : Dev nD) → (b : Ref sig .tc) → Buf (Elt F) ((c : Thread nD τ).loc b))

/-- The printed index maps, decided over the grid: every window's block index is 0 on both axes. -/
theorem idx_facts1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0
    ∧ win1_13.index t (0 : Fin 2) = 0 ∧ win1_13.index t (1 : Fin 2) = 0 :=
  (by decide +kernel : ∀ t : Fin grid1.N, _)

/-- Input window 0's block is its whole array. -/
theorem iblk1_0_eq (c : Dev nD) (t : Fin cfg1.N) :
    (iblk1 V c 0 t : S1024x64.Idx → Elt F .f32) = (V c main_v8 : S1024x64.Idx → Elt F .f32) := by
  funext j
  show V c main_v8 (((cfg1.win 0).blk t).view.emb j) = V c main_v8 j
  refine congrArg _ ?_
  have e := idx_facts1 t
  funext a; apply Fin.ext
  match a with
  | ⟨0, _⟩ => show win1_0.index t (0 : Fin 2) * 1024 + 1 * (j 0).val = (j 0).val; omega
  | ⟨1, _⟩ => show win1_0.index t (1 : Fin 2) * 64 + 1 * (j 1).val = (j 1).val; omega

/-- Input window 1's block is its whole array. -/
theorem iblk1_1_eq (c : Dev nD) (t : Fin cfg1.N) :
    (iblk1 V c 1 t : S1024x3.Idx → Elt F .f32) = (V c main_v9 : S1024x3.Idx → Elt F .f32) := by
  funext j
  show V c main_v9 (((cfg1.win 1).blk t).view.emb j) = V c main_v9 j
  refine congrArg _ ?_
  have e := idx_facts1 t
  funext a; apply Fin.ext
  match a with
  | ⟨0, _⟩ => show win1_1.index t (0 : Fin 2) * 1024 + 1 * (j 0).val = (j 0).val; omega
  | ⟨1, _⟩ => show win1_1.index t (1 : Fin 2) * 3 + 1 * (j 1).val = (j 1).val; omega

/-- Input window 2's block is its whole array. -/
theorem iblk1_2_eq (c : Dev nD) (t : Fin cfg1.N) :
    (iblk1 V c 2 t : S64x64.Idx → Elt F .f32) = (V c main_arg8 : S64x64.Idx → Elt F .f32) := by
  funext j
  show V c main_arg8 (((cfg1.win 2).blk t).view.emb j) = V c main_arg8 j
  refine congrArg _ ?_
  have e := idx_facts1 t
  funext a; apply Fin.ext
  match a with
  | ⟨0, _⟩ => show win1_2.index t (0 : Fin 2) * 64 + 1 * (j 0).val = (j 0).val; omega
  | ⟨1, _⟩ => show win1_2.index t (1 : Fin 2) * 64 + 1 * (j 1).val = (j 1).val; omega

/-- Input window 3's block is its whole array. -/
theorem iblk1_3_eq (c : Dev nD) (t : Fin cfg1.N) :
    (iblk1 V c 3 t : S1x64.Idx → Elt F .f32) = (V c main_v10 : S1x64.Idx → Elt F .f32) := by
  funext j
  show V c main_v10 (((cfg1.win 3).blk t).view.emb j) = V c main_v10 j
  refine congrArg _ ?_
  have e := idx_facts1 t
  funext a; apply Fin.ext
  match a with
  | ⟨0, _⟩ => show win1_3.index t (0 : Fin 2) * 1 + 1 * (j 0).val = (j 0).val; omega
  | ⟨1, _⟩ => show win1_3.index t (1 : Fin 2) * 64 + 1 * (j 1).val = (j 1).val; omega

/-- Input window 4's block is its whole array. -/
theorem iblk1_4_eq (c : Dev nD) (t : Fin cfg1.N) :
    (iblk1 V c 4 t : S3x64.Idx → Elt F .f32) = (V c main_arg10 : S3x64.Idx → Elt F .f32) := by
  funext j
  show V c main_arg10 (((cfg1.win 4).blk t).view.emb j) = V c main_arg10 j
  refine congrArg _ ?_
  have e := idx_facts1 t
  funext a; apply Fin.ext
  match a with
  | ⟨0, _⟩ => show win1_4.index t (0 : Fin 2) * 3 + 1 * (j 0).val = (j 0).val; omega
  | ⟨1, _⟩ => show win1_4.index t (1 : Fin 2) * 64 + 1 * (j 1).val = (j 1).val; omega

/-- Input window 5's block is its whole array. -/
theorem iblk1_5_eq (c : Dev nD) (t : Fin cfg1.N) :
    (iblk1 V c 5 t : S1x3.Idx → Elt F .f32) = (V c main_v11 : S1x3.Idx → Elt F .f32) := by
  funext j
  show V c main_v11 (((cfg1.win 5).blk t).view.emb j) = V c main_v11 j
  refine congrArg _ ?_
  have e := idx_facts1 t
  funext a; apply Fin.ext
  match a with
  | ⟨0, _⟩ => show win1_5.index t (0 : Fin 2) * 1 + 1 * (j 0).val = (j 0).val; omega
  | ⟨1, _⟩ => show win1_5.index t (1 : Fin 2) * 3 + 1 * (j 1).val = (j 1).val; omega

/-- Input window 6's block is its whole array. -/
theorem iblk1_6_eq (c : Dev nD) (t : Fin cfg1.N) :
    (iblk1 V c 6 t : S64x3.Idx → Elt F .f32) = (V c main_arg12 : S64x3.Idx → Elt F .f32) := by
  funext j
  show V c main_arg12 (((cfg1.win 6).blk t).view.emb j) = V c main_arg12 j
  refine congrArg _ ?_
  have e := idx_facts1 t
  funext a; apply Fin.ext
  match a with
  | ⟨0, _⟩ => show win1_6.index t (0 : Fin 2) * 64 + 1 * (j 0).val = (j 0).val; omega
  | ⟨1, _⟩ => show win1_6.index t (1 : Fin 2) * 3 + 1 * (j 1).val = (j 1).val; omega

/-- Input window 7's block is its whole array. -/
theorem iblk1_7_eq (c : Dev nD) (t : Fin cfg1.N) :
    (iblk1 V c 7 t : S1x64.Idx → Elt F .f32) = (V c main_v12 : S1x64.Idx → Elt F .f32) := by
  funext j
  show V c main_v12 (((cfg1.win 7).blk t).view.emb j) = V c main_v12 j
  refine congrArg _ ?_
  have e := idx_facts1 t
  funext a; apply Fin.ext
  match a with
  | ⟨0, _⟩ => show win1_7.index t (0 : Fin 2) * 1 + 1 * (j 0).val = (j 0).val; omega
  | ⟨1, _⟩ => show win1_7.index t (1 : Fin 2) * 64 + 1 * (j 1).val = (j 1).val; omega

/-- Input window 8's block is its whole array. -/
theorem iblk1_8_eq (c : Dev nD) (t : Fin cfg1.N) :
    (iblk1 V c 8 t : S128x64.Idx → Elt F .f32) = (V c main_arg14 : S128x64.Idx → Elt F .f32) := by
  funext j
  show V c main_arg14 (((cfg1.win 8).blk t).view.emb j) = V c main_arg14 j
  refine congrArg _ ?_
  have e := idx_facts1 t
  funext a; apply Fin.ext
  match a with
  | ⟨0, _⟩ => show win1_8.index t (0 : Fin 2) * 128 + 1 * (j 0).val = (j 0).val; omega
  | ⟨1, _⟩ => show win1_8.index t (1 : Fin 2) * 64 + 1 * (j 1).val = (j 1).val; omega

/-- Input window 9's block is its whole array. -/
theorem iblk1_9_eq (c : Dev nD) (t : Fin cfg1.N) :
    (iblk1 V c 9 t : S1x128.Idx → Elt F .f32) = (V c main_v13 : S1x128.Idx → Elt F .f32) := by
  funext j
  show V c main_v13 (((cfg1.win 9).blk t).view.emb j) = V c main_v13 j
  refine congrArg _ ?_
  have e := idx_facts1 t
  funext a; apply Fin.ext
  match a with
  | ⟨0, _⟩ => show win1_9.index t (0 : Fin 2) * 1 + 1 * (j 0).val = (j 0).val; omega
  | ⟨1, _⟩ => show win1_9.index t (1 : Fin 2) * 128 + 1 * (j 1).val = (j 1).val; omega

/-- Input window 10's block is its whole array. -/
theorem iblk1_10_eq (c : Dev nD) (t : Fin cfg1.N) :
    (iblk1 V c 10 t : S1024x128.Idx → Elt F .f32) = (V c main_arg16 : S1024x128.Idx → Elt F .f32) := by
  funext j
  show V c main_arg16 (((cfg1.win 10).blk t).view.emb j) = V c main_arg16 j
  refine congrArg _ ?_
  have e := idx_facts1 t
  funext a; apply Fin.ext
  match a with
  | ⟨0, _⟩ => show win1_10.index t (0 : Fin 2) * 1024 + 1 * (j 0).val = (j 0).val; omega
  | ⟨1, _⟩ => show win1_10.index t (1 : Fin 2) * 128 + 1 * (j 1).val = (j 1).val; omega

/-- Input window 11's block is its whole array. -/
theorem iblk1_11_eq (c : Dev nD) (t : Fin cfg1.N) :
    (iblk1 V c 11 t : S1x1024.Idx → Elt F .f32) = (V c main_v14 : S1x1024.Idx → Elt F .f32) := by
  funext j
  show V c main_v14 (((cfg1.win 11).blk t).view.emb j) = V c main_v14 j
  refine congrArg _ ?_
  have e := idx_facts1 t
  funext a; apply Fin.ext
  match a with
  | ⟨0, _⟩ => show win1_11.index t (0 : Fin 2) * 1 + 1 * (j 0).val = (j 0).val; omega
  | ⟨1, _⟩ => show win1_11.index t (1 : Fin 2) * 1024 + 1 * (j 1).val = (j 1).val; omega

/-- Every index of output 12's array lies in the single point's block. -/
theorem mem_blk1_12 (t : Fin cfg1.N) (i : S1024x3.Idx) : i ∈ ((cfg1.win 12).blk t).view.set := by
  show i ∈ ((View.whole main_v15_0).slice (win1_12.rect t)).set
  rw [View.set_slice_whole, Rect.mem_set_unit]
  have e := idx_facts1 t
  have h0 : (i 0).val < 1024 := (i 0).isLt
  have h1 : (i 1).val < 3 := (i 1).isLt
  intro a
  match a with
  | ⟨0, _⟩ => show win1_12.index t (0 : Fin 2) * 1024 ≤ (i 0).val ∧ (i 0).val < win1_12.index t (0 : Fin 2) * 1024 + 1024; omega
  | ⟨1, _⟩ => show win1_12.index t (1 : Fin 2) * 3 ≤ (i 1).val ∧ (i 1).val < win1_12.index t (1 : Fin 2) * 3 + 3; omega

/-- Every index of output 13's array lies in the single point's block. -/
theorem mem_blk1_13 (t : Fin cfg1.N) (i : S1024x1088.Idx) : i ∈ ((cfg1.win 13).blk t).view.set := by
  show i ∈ ((View.whole main_v15_1).slice (win1_13.rect t)).set
  rw [View.set_slice_whole, Rect.mem_set_unit]
  have e := idx_facts1 t
  have h0 : (i 0).val < 1024 := (i 0).isLt
  have h1 : (i 1).val < 1088 := (i 1).isLt
  intro a
  match a with
  | ⟨0, _⟩ => show win1_13.index t (0 : Fin 2) * 1024 ≤ (i 0).val ∧ (i 0).val < win1_13.index t (0 : Fin 2) * 1024 + 1024; omega
  | ⟨1, _⟩ => show win1_13.index t (1 : Fin 2) * 1088 ≤ (i 1).val ∧ (i 1).val < win1_13.index t (1 : Fin 2) * 1088 + 1088; omega

/-- Output 12's window is uncut and its block the whole array: what is written back of contents `G` is `G` read through the block. -/
theorem cut_eq_read1_12 (t : Fin cfg1.N) (G : S1024x3.Idx → Elt F .f32) :
    (cfg1.win 12).cut (grid1.coords t) G = ((cfg1.win 12).blk t).view.read (Elt F) G := by
  have e := idx_facts1 t
  funext j
  show G j = G (((cfg1.win 12).blk t).view.emb j)
  refine congrArg _ ?_
  funext a; apply Fin.ext
  match a with
  | ⟨0, _⟩ => show (j 0).val = win1_12.index t (0 : Fin 2) * 1024 + 1 * (j 0).val; omega
  | ⟨1, _⟩ => show (j 1).val = win1_12.index t (1 : Fin 2) * 3 + 1 * (j 1).val; omega

/-- Output 13's window is uncut and its block the whole array: what is written back of contents `G` is `G` read through the block. -/
theorem cut_eq_read1_13 (t : Fin cfg1.N) (G : S1024x1088.Idx → Elt F .f32) :
    (cfg1.win 13).cut (grid1.coords t) G = ((cfg1.win 13).blk t).view.read (Elt F) G := by
  have e := idx_facts1 t
  funext j
  show G j = G (((cfg1.win 13).blk t).view.emb j)
  refine congrArg _ ?_
  funext a; apply Fin.ext
  match a with
  | ⟨0, _⟩ => show (j 0).val = win1_13.index t (0 : Fin 2) * 1024 + 1 * (j 0).val; omega
  | ⟨1, _⟩ => show (j 1).val = win1_13.index t (1 : Fin 2) * 1088 + 1 * (j 1).val; omega

/-- What the point writes back to output 12's array is the whole store's payload of the arrays as the region finds them. -/
theorem flushed1_12_eq (c : Dev nD) (t : Fin cfg1.N) :
    (dat1 V c).flushed 12 t = ((cfg1.win 12).blk t).view.read (Elt F) (k1_pay3 (V c main_v8) (V c main_arg8) (V c main_v10) (V c main_arg10) (V c main_v11) : S1024x3.Idx → Elt F .f32) := by
  show (cfg1.win 12).cut (grid1.coords t) ((dat1 V c).after 12 t) = _
  rw [after1_12]
  unfold outsAt1_12
  rw [out1_A_12_eq, iblk1_0_eq, iblk1_2_eq, iblk1_3_eq, iblk1_4_eq, iblk1_5_eq]
  exact cut_eq_read1_12 t _

/-- Output 12's array after the region. -/
theorem region1_arr12 (c : Dev nD) :
    ((dat1 V c).arrAt 12 cfg1.N : S1024x3.Idx → Elt F .f32) = (k1_pay3 (V c main_v8) (V c main_arg8) (V c main_v10) (V c main_arg10) (V c main_v11) : S1024x3.Idx → Elt F .f32) :=
  (dat1 V c).arrAt_eq_of_cover 12 (k1_pay3 (V c main_v8) (V c main_arg8) (V c main_v10) (V c main_arg10) (V c main_v11) : S1024x3.Idx → Elt F .f32) (fun t _ => flushed1_12_eq V c t)
    (fun i => ⟨t1_0, flush1_12 t1_0, mem_blk1_12 t1_0 i⟩)

/-- What the point writes back to output 13's array: the two stores' payloads of the arrays as the region finds them. -/
theorem flushed1_13_eq (c : Dev nD) (t : Fin cfg1.N) :
    (dat1 V c).flushed 13 t = ((cfg1.win 13).blk t).view.read (Elt F) (View.canon
      [(⟨Rect.unit (s := S1024x1088) ![0, 1024] S1024x64.size inb_S1024x1088_S1024x64_0_1024, k1_pay1 (k1_pay4 (V c main_v8) (V c main_arg8) (V c main_v10) (V c main_arg10) (V c main_v11) (V c main_v9) (V c main_arg12)) (k1_pay5 (V c main_v12))⟩ : View.Piece (Elt F) S1024x1088 .f32),
       ⟨Rect.unit (s := S1024x1088) ![0, 0] S1024x1024.size inb_S1024x1088_S1024x1024_0_0, k1_pay2 (k1_pay4 (V c main_v8) (V c main_arg8) (V c main_v10) (V c main_arg10) (V c main_v11) (V c main_v9) (V c main_arg12)) (k1_pay5 (V c main_v12)) (V c main_arg14) (V c main_v13) (V c main_arg16) (V c main_v14)⟩] : S1024x1088.Idx → Elt F .f32) := by
  show (cfg1.win 13).cut (grid1.coords t) ((dat1 V c).after 13 t) = _
  rw [after1_13]
  unfold outsAt1_13
  rw [out1_A_13_eq, iblk1_0_eq, iblk1_1_eq, iblk1_2_eq, iblk1_3_eq, iblk1_4_eq, iblk1_5_eq, iblk1_6_eq, iblk1_7_eq, iblk1_8_eq, iblk1_9_eq, iblk1_10_eq, iblk1_11_eq]
  exact cut_eq_read1_13 t _

/-- Output 13's array after the region. -/
theorem region1_arr13 (c : Dev nD) :
    ((dat1 V c).arrAt 13 cfg1.N : S1024x1088.Idx → Elt F .f32) = (View.canon
      [(⟨Rect.unit (s := S1024x1088) ![0, 1024] S1024x64.size inb_S1024x1088_S1024x64_0_1024, k1_pay1 (k1_pay4 (V c main_v8) (V c main_arg8) (V c main_v10) (V c main_arg10) (V c main_v11) (V c main_v9) (V c main_arg12)) (k1_pay5 (V c main_v12))⟩ : View.Piece (Elt F) S1024x1088 .f32),
       ⟨Rect.unit (s := S1024x1088) ![0, 0] S1024x1024.size inb_S1024x1088_S1024x1024_0_0, k1_pay2 (k1_pay4 (V c main_v8) (V c main_arg8) (V c main_v10) (V c main_arg10) (V c main_v11) (V c main_v9) (V c main_arg12)) (k1_pay5 (V c main_v12)) (V c main_arg14) (V c main_v13) (V c main_arg16) (V c main_v14)⟩] : S1024x1088.Idx → Elt F .f32) :=
  (dat1 V c).arrAt_eq_of_cover 13 (View.canon
      [(⟨Rect.unit (s := S1024x1088) ![0, 1024] S1024x64.size inb_S1024x1088_S1024x64_0_1024, k1_pay1 (k1_pay4 (V c main_v8) (V c main_arg8) (V c main_v10) (V c main_arg10) (V c main_v11) (V c main_v9) (V c main_arg12)) (k1_pay5 (V c main_v12))⟩ : View.Piece (Elt F) S1024x1088 .f32),
       ⟨Rect.unit (s := S1024x1088) ![0, 0] S1024x1024.size inb_S1024x1088_S1024x1024_0_0, k1_pay2 (k1_pay4 (V c main_v8) (V c main_arg8) (V c main_v10) (V c main_arg10) (V c main_v11) (V c main_v9) (V c main_arg12)) (k1_pay5 (V c main_v12)) (V c main_arg14) (V c main_v13) (V c main_arg16) (V c main_v14)⟩] : S1024x1088.Idx → Elt F .f32) (fun t _ => flushed1_13_eq V c t)
    (fun i => ⟨t1_0, flush1_13 t1_0, mem_blk1_13 t1_0 i⟩)

/-! ## Reading two side-by-side pieces of a [1024, 1088] block -/

/-- Left of column 1024 the later (right-hand) piece does not reach, and the earlier piece's payload is read. -/
theorem canon2_left (w1 : S1024x64.Idx → Elt F .f32) (w2 : S1024x1024.Idx → Elt F .f32) (i : S1024x1088.Idx)
    (h : (i 1).val < 1024) :
    View.canon [(⟨(Rect.unit (s := S1024x1088) ![0, 1024] S1024x64.size inb_S1024x1088_S1024x64_0_1024), w1⟩ : View.Piece (Elt F) S1024x1088 .f32), ⟨(Rect.unit (s := S1024x1088) ![0, 0] S1024x1024.size inb_S1024x1088_S1024x1024_0_0), w2⟩] i
      = w2 (ValueIdx.ix2 (i 0) (⟨(i 1).val, h⟩ : Fin 1024)) := by
  have hnot : i ∉ (Rect.unit (s := S1024x1088) ![0, 1024] S1024x64.size inb_S1024x1088_S1024x64_0_1024).set := fun hm => by
    have h1 : 1024 ≤ (i 1).val ∧ (i 1).val < 1024 + 64 := (Rect.mem_set_unit.mp hm) 1
    omega
  refine (View.canon_cons_of_not_mem (⟨(Rect.unit (s := S1024x1088) ![0, 1024] S1024x64.size inb_S1024x1088_S1024x64_0_1024), w1⟩ : View.Piece (Elt F) S1024x1088 .f32) [⟨(Rect.unit (s := S1024x1088) ![0, 0] S1024x1024.size inb_S1024x1088_S1024x1024_0_0), w2⟩] hnot).trans ?_
  have hi : i = (Rect.unit (s := S1024x1088) ![0, 0] S1024x1024.size inb_S1024x1088_S1024x1024_0_0).emb (ValueIdx.ix2 (i 0) (⟨(i 1).val, h⟩ : Fin 1024)) := by
    funext a; apply Fin.ext
    match a with
    | ⟨0, _⟩ => show (i 0).val = 0 + 1 * (i 0).val; omega
    | ⟨1, _⟩ => show (i 1).val = 0 + 1 * (i 1).val; omega
  refine (congrArg _ hi).trans ?_
  exact View.canon_cons_emb (Rect.unit (s := S1024x1088) ![0, 0] S1024x1024.size inb_S1024x1088_S1024x1024_0_0) w2 [] _

/-- From column 1024 on, the later piece's payload is read, at the column less 1024. -/
theorem canon2_right (w1 : S1024x64.Idx → Elt F .f32) (w2 : S1024x1024.Idx → Elt F .f32) (i : S1024x1088.Idx)
    (h : ¬(i 1).val < 1024) :
    View.canon [(⟨(Rect.unit (s := S1024x1088) ![0, 1024] S1024x64.size inb_S1024x1088_S1024x64_0_1024), w1⟩ : View.Piece (Elt F) S1024x1088 .f32), ⟨(Rect.unit (s := S1024x1088) ![0, 0] S1024x1024.size inb_S1024x1088_S1024x1024_0_0), w2⟩] i
      = w1 (ValueIdx.ix2 (i 0) (⟨(i 1).val - 1024, by have h2 : (i 1).val < 1088 := (i 1).isLt; omega⟩ : Fin 64)) := by
  have hi1 : (i 1).val < 1088 := (i 1).isLt
  have hi : i = (Rect.unit (s := S1024x1088) ![0, 1024] S1024x64.size inb_S1024x1088_S1024x64_0_1024).emb (ValueIdx.ix2 (i 0) (⟨(i 1).val - 1024, by omega⟩ : Fin 64)) := by
    funext a; apply Fin.ext
    match a with
    | ⟨0, _⟩ => show (i 0).val = 0 + 1 * (i 0).val; omega
    | ⟨1, _⟩ => show (i 1).val = 1024 + 1 * ((i 1).val - 1024); omega
  refine (congrArg _ hi).trans ?_
  exact View.canon_cons_emb (Rect.unit (s := S1024x1088) ![0, 1024] S1024x64.size inb_S1024x1088_S1024x64_0_1024) w1 [⟨(Rect.unit (s := S1024x1088) ![0, 0] S1024x1024.size inb_S1024x1088_S1024x1024_0_0), w2⟩] _

/-! ## The region's value over the extended reals

Under the hypotheses that the arrays the region is entered with hold the pooled features and the weights, output 12's
array ends holding the flow and output 13's the global feature beside each point's own feature. -/

section Value

open Idealize.ShloMosaic.ValueIdx
open Cert.Spec (A1 A2 A3)

variable (V : (c : Dev nD) → (b : Ref sig .tc) → Buf (Elt Ideal) ((c : Thread nD τ).loc b)) (c : Dev nD)
  (H : Fin 1024 → Fin 64 → EReal) (W20 : A2 64 64) (b20 : A1 64) (W21 : A2 3 64) (b21 : A1 3)
  (pc1 : A3 1 1024 3) (Wp1 : A2 64 3) (bp1 : A1 64) (Wp2 : A2 128 64) (bp2 : A1 128) (Wp3 : A2 1024 128) (bp3 : A1 1024)

/-- The index (0, n, d) of a [1, 1024, 3] array is any index with those last two coordinates. -/
theorem ix3_zero_eq (i : (⟨3, ![1, 1024, 3]⟩ : Shape).Idx) : ix3 (0 : Fin 1) (i 1) (i 2) = i :=
  funext fun a => by
    match a with
    | ⟨0, _⟩ => exact Fin.ext (by show (0 : ℕ) = (i 0).val; have h : (i 0).val < 1 := (i 0).isLt; omega)
    | ⟨1, _⟩ => rfl
    | ⟨2, _⟩ => rfl

/-- Output 12's array after the region is the flow. -/
theorem region1_value12
    (h8 : ∀ n ch, (V c main_v8 : S1024x64.Idx → EReal) (ix2 n ch) = H n ch)
    (hW20 : (V c main_arg8 : S64x64.Idx → EReal) = W20)
    (h10 : ∀ (u : Fin 1) o, (V c main_v10 : S1x64.Idx → EReal) (ix2 u o) = b20 (ix1 o))
    (hW21 : (V c main_arg10 : S3x64.Idx → EReal) = W21)
    (h11 : ∀ (u : Fin 1) d, (V c main_v11 : S1x3.Idx → EReal) (ix2 u d) = b21 (ix1 d)) :
    ((dat1 V c).arrAt 12 cfg1.N : S1024x3.Idx → EReal) = fun i => Cert.Spec.flow H W20 b20 W21 b21 (i 0) (i 1) := by
  rw [region1_arr12]
  have e8 : (fun n ch => (V c main_v8 : S1024x64.Idx → EReal) (ix2 n ch)) = H := funext fun n => funext fun ch => h8 n ch
  have e10 : (fun i : (⟨1, ![64]⟩ : Shape).Idx => (V c main_v10 : S1x64.Idx → EReal) (ix2 0 (i 0))) = b20 :=
    funext fun i => (h10 0 (i 0)).trans (congrArg b20 (eq_ix1 i).symm)
  have e11 : (fun i : (⟨1, ![3]⟩ : Shape).Idx => (V c main_v11 : S1x3.Idx → EReal) (ix2 0 (i 0))) = b21 :=
    funext fun i => (h11 0 (i 0)).trans (congrArg b21 (eq_ix1 i).symm)
  funext i
  refine (congrArg _ (eq_ix2 i)).trans ?_
  refine (Cert.KernelIdeal.Val1.flow_apply _ _ _ _ _ (i 0) (i 1)).trans ?_
  rw [e8, hW20, e10, hW21, e11]

/-- Output 13's array after the region: the global feature in columns 0..1023 of every row, the row's own feature in
    columns 1024..1087. -/
theorem region1_value13
    (h8 : ∀ n ch, (V c main_v8 : S1024x64.Idx → EReal) (ix2 n ch) = H n ch)
    (hW20 : (V c main_arg8 : S64x64.Idx → EReal) = W20)
    (h10 : ∀ (u : Fin 1) o, (V c main_v10 : S1x64.Idx → EReal) (ix2 u o) = b20 (ix1 o))
    (hW21 : (V c main_arg10 : S3x64.Idx → EReal) = W21)
    (h11 : ∀ (u : Fin 1) d, (V c main_v11 : S1x3.Idx → EReal) (ix2 u d) = b21 (ix1 d))
    (h9 : ∀ n d, (V c main_v9 : S1024x3.Idx → EReal) (ix2 n d) = pc1 (ix3 0 n d))
    (hWp1 : (V c main_arg12 : S64x3.Idx → EReal) = Wp1)
    (h12 : ∀ (u : Fin 1) o, (V c main_v12 : S1x64.Idx → EReal) (ix2 u o) = bp1 (ix1 o))
    (hWp2 : (V c main_arg14 : S128x64.Idx → EReal) = Wp2)
    (h13 : ∀ (u : Fin 1) o, (V c main_v13 : S1x128.Idx → EReal) (ix2 u o) = bp2 (ix1 o))
    (hWp3 : (V c main_arg16 : S1024x128.Idx → EReal) = Wp3)
    (h14 : ∀ (u : Fin 1) o, (V c main_v14 : S1x1024.Idx → EReal) (ix2 u o) = bp3 (ix1 o)) :
    ((dat1 V c).arrAt 13 cfg1.N : S1024x1088.Idx → EReal) = fun i =>
      if h : (i 1).val < 1024 then Cert.Spec.gfeat H W20 b20 W21 b21 pc1 Wp1 bp1 Wp2 bp2 Wp3 bp3 ⟨(i 1).val, h⟩
      else Cert.Spec.pf H W20 b20 W21 b21 pc1 Wp1 bp1 (i 0) ⟨(i 1).val - 1024, by have h2 : (i 1).val < 1088 := (i 1).isLt; omega⟩ := by
  rw [region1_arr13]
  have e8 : (fun n ch => (V c main_v8 : S1024x64.Idx → EReal) (ix2 n ch)) = H := funext fun n => funext fun ch => h8 n ch
  have e10 : (fun i : (⟨1, ![64]⟩ : Shape).Idx => (V c main_v10 : S1x64.Idx → EReal) (ix2 0 (i 0))) = b20 :=
    funext fun i => (h10 0 (i 0)).trans (congrArg b20 (eq_ix1 i).symm)
  have e11 : (fun i : (⟨1, ![3]⟩ : Shape).Idx => (V c main_v11 : S1x3.Idx → EReal) (ix2 0 (i 0))) = b21 :=
    funext fun i => (h11 0 (i 0)).trans (congrArg b21 (eq_ix1 i).symm)
  have e9 : (fun i : (⟨3, ![1, 1024, 3]⟩ : Shape).Idx => (V c main_v9 : S1024x3.Idx → EReal) (ix2 (i 1) (i 2))) = pc1 :=
    funext fun i => (h9 (i 1) (i 2)).trans (congrArg pc1 (ix3_zero_eq i))
  have e12 : (fun i : (⟨1, ![64]⟩ : Shape).Idx => (V c main_v12 : S1x64.Idx → EReal) (ix2 0 (i 0))) = bp1 :=
    funext fun i => (h12 0 (i 0)).trans (congrArg bp1 (eq_ix1 i).symm)
  have e13 : (fun i : (⟨1, ![128]⟩ : Shape).Idx => (V c main_v13 : S1x128.Idx → EReal) (ix2 0 (i 0))) = bp2 :=
    funext fun i => (h13 0 (i 0)).trans (congrArg bp2 (eq_ix1 i).symm)
  have e14 : (fun i : (⟨1, ![1024]⟩ : Shape).Idx => (V c main_v14 : S1x1024.Idx → EReal) (ix2 0 (i 0))) = bp3 :=
    funext fun i => (h14 0 (i 0)).trans (congrArg bp3 (eq_ix1 i).symm)
  funext i
  have hi1 : (i 1).val < 1088 := (i 1).isLt
  by_cases h : (i 1).val < 1024
  · rw [dif_pos h]
    refine (canon2_left _ _ i h).trans ?_
    refine (Cert.KernelIdeal.Val1.gfeat_apply _ _ _ _ _ _ _ _ _ _ _ _ (i 0) ⟨(i 1).val, h⟩).trans ?_
    rw [e8, hW20, e10, hW21, e11, e9, hWp1, e12, hWp2, e13, hWp3, e14]
  · rw [dif_neg h]
    refine (canon2_right _ _ i h).trans ?_
    refine (Cert.KernelIdeal.Val1.pf_apply _ _ _ _ _ _ _ _ (i 0) ⟨(i 1).val - 1024, by omega⟩).trans ?_
    rw [e8, hW20, e10, hW21, e11, e9, hWp1, e12]

end Value

end Cert.KernelIdeal.Hand

end
-- ==== Proof.KI_Value.lean ====
/-
  The idealized kernel program's two results as functions of the argument arrays. The buffers' contents are followed from the
  launch to the return: the first host stretch lays the features out point-major and cuts the first layer's weights in two; the
  pairwise region leaves the pooled features hmax in its output array; the second host stretch reshapes the point cloud and the
  biases; the per-point region leaves the flow and the feature matrix; the host tail transposes the flow and adds the leading
  unit axis. Read at an index, the two results are the specification's out0 and out1.
-/
import proofs.«141513_j49228915147505_1_alg».proof.Proof.KI_Run
import proofs.«141513_j49228915147505_1_alg».proof.Proof.KI_Host
import proofs.«141513_j49228915147505_1_alg».proof.Proof.KI_R0Val
import proofs.«141513_j49228915147505_1_alg».proof.Proof.KI_R1Val
import proofs.«141513_j49228915147505_1_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

/-- The argument arrays of core `c` at launch, typed as the specification's arrays. -/
abbrev g0 : Cert.Spec.A3 1 1024 3 := m ((c : Thread nD τ).loc main_arg0)
abbrev g2 : Cert.Spec.A3 1 64 1024 := m ((c : Thread nD τ).loc main_arg2)
abbrev g3 : Cert.Spec.A3 1 64 1024 := m ((c : Thread nD τ).loc main_arg3)
abbrev g4 : Cert.Spec.A2 64 128 := m ((c : Thread nD τ).loc main_arg4)
abbrev g5 : Cert.Spec.A1 64 := m ((c : Thread nD τ).loc main_arg5)
abbrev g6 : Cert.Spec.A2 64 64 := m ((c : Thread nD τ).loc main_arg6)
abbrev g7 : Cert.Spec.A1 64 := m ((c : Thread nD τ).loc main_arg7)
abbrev g8 : Cert.Spec.A2 64 64 := m ((c : Thread nD τ).loc main_arg8)
abbrev g9 : Cert.Spec.A1 64 := m ((c : Thread nD τ).loc main_arg9)
abbrev g10 : Cert.Spec.A2 3 64 := m ((c : Thread nD τ).loc main_arg10)
abbrev g11 : Cert.Spec.A1 3 := m ((c : Thread nD τ).loc main_arg11)
abbrev g12 : Cert.Spec.A2 64 3 := m ((c : Thread nD τ).loc main_arg12)
abbrev g13 : Cert.Spec.A1 64 := m ((c : Thread nD τ).loc main_arg13)
abbrev g14 : Cert.Spec.A2 128 64 := m ((c : Thread nD τ).loc main_arg14)
abbrev g15 : Cert.Spec.A1 128 := m ((c : Thread nD τ).loc main_arg15)
abbrev g16 : Cert.Spec.A2 1024 128 := m ((c : Thread nD τ).loc main_arg16)
abbrev g17 : Cert.Spec.A1 1024 := m ((c : Thread nD τ).loc main_arg17)

/-- The pooled pairwise features of the launch arrays. -/
abbrev gH : Fin 1024 → Fin 64 → EReal := Cert.Spec.hmax (g2 m c) (g3 m c) (g4 m c) (g5 m c) (g6 m c) (g7 m c)

/-- After the pairwise region its output array holds the pooled features. -/
theorem B2_v8 : (B2 m c (Proc.devRef .tc main_v8) : S1024x64.Idx → EReal) = fun i => gH m c (i 0) (i 1) :=
  (B2_arr m c 7).trans (region0_value (E1 m) c (g2 m c) (g3 m c) (g4 m c) (g5 m c) (g6 m c) (g7 m c)
    (fun n ch => host0_v1 (B0 m c) n ch) (fun n ch => host0_v3 (B0 m c) n ch)
    (fun o ch => host0_v4 (B0 m c) o ch) (fun o ch => host0_v5 (B0 m c) o ch)
    (fun u o => host0_v6 (B0 m c) u o) (fun u o => host0_v7 (B0 m c) u o)
    (fun o ch => congrFun (B1_of m c main_arg6 (by decide)) (ix2 o ch)))

/-- An argument array is unchanged up to the per-point region's entry. -/
theorem B2_arg (r : Ref sig .tc) (h0 : r ∉ hostOps0_W) (h1 : ∀ w, Pipeline.arrRef spec0 w ≠ r) :
    B2 m c (Proc.devRef .tc r) = m ((c : Thread nD τ).loc r) :=
  (B2_of_ne m c r h1).trans (B1_of m c r h0)
theorem B3_arg (r : Ref sig .tc) (h0 : r ∉ hostOps0_W) (h1 : ∀ w, Pipeline.arrRef spec0 w ≠ r) (h2 : r ∉ hostOps1_W) :
    B3 m c (Proc.devRef .tc r) = m ((c : Thread nD τ).loc r) :=
  (B3_of m c r h2).trans (B2_arg m c r h0 h1)

/-- After the per-point region: the flow. -/
theorem B4_v15_0 : (B4 m c (Proc.devRef .tc main_v15_0) : S1024x3.Idx → EReal)
    = fun i => Cert.Spec.flow (gH m c) (g8 m c) (g9 m c) (g10 m c) (g11 m c) (i 0) (i 1) :=
  (B4_arr m c 12).trans (region1_value12 (E3 m) c (gH m c) (g8 m c) (g9 m c) (g10 m c) (g11 m c)
    (fun n ch => (congrFun (B3_of m c main_v8 (by decide)) (ix2 n ch)).trans (congrFun (B2_v8 m c) (ix2 n ch)))
    (B3_arg m c main_arg8 (by decide) (by decide) (by decide))
    (fun u o => (host1_v10 (B2 m c) u o).trans (congrFun (B2_arg m c main_arg9 (by decide) (by decide)) (ix1 o)))
    (B3_arg m c main_arg10 (by decide) (by decide) (by decide))
    (fun u o => (host1_v11 (B2 m c) u o).trans (congrFun (B2_arg m c main_arg11 (by decide) (by decide)) (ix1 o))))

/-- After the per-point region: the feature matrix. -/
theorem B4_v15_1 : (B4 m c (Proc.devRef .tc main_v15_1) : S1024x1088.Idx → EReal)
    = fun i => if h : (i 1).val < 1024 then Cert.Spec.gfeat (gH m c) (g8 m c) (g9 m c) (g10 m c) (g11 m c) (g0 m c) (g12 m c) (g13 m c) (g14 m c) (g15 m c) (g16 m c) (g17 m c) ⟨(i 1).val, h⟩
        else Cert.Spec.pf (gH m c) (g8 m c) (g9 m c) (g10 m c) (g11 m c) (g0 m c) (g12 m c) (g13 m c) (i 0) ⟨(i 1).val - 1024, by have h2 : (i 1).val < 1088 := (i 1).isLt; omega⟩ :=
  (B4_arr m c 13).trans (region1_value13 (E3 m) c (gH m c) (g8 m c) (g9 m c) (g10 m c) (g11 m c) (g0 m c) (g12 m c) (g13 m c) (g14 m c) (g15 m c) (g16 m c) (g17 m c)
    (fun n ch => (congrFun (B3_of m c main_v8 (by decide)) (ix2 n ch)).trans (congrFun (B2_v8 m c) (ix2 n ch)))
    (B3_arg m c main_arg8 (by decide) (by decide) (by decide))
    (fun u o => (host1_v10 (B2 m c) u o).trans (congrFun (B2_arg m c main_arg9 (by decide) (by decide)) (ix1 o)))
    (B3_arg m c main_arg10 (by decide) (by decide) (by decide))
    (fun u o => (host1_v11 (B2 m c) u o).trans (congrFun (B2_arg m c main_arg11 (by decide) (by decide)) (ix1 o)))
    (fun n d => (host1_v9 (B2 m c) n d).trans (congrFun (B2_arg m c main_arg0 (by decide) (by decide)) (ix3 0 n d)))
    (B3_arg m c main_arg12 (by decide) (by decide) (by decide))
    (fun u o => (host1_v12 (B2 m c) u o).trans (congrFun (B2_arg m c main_arg13 (by decide) (by decide)) (ix1 o)))
    (B3_arg m c main_arg14 (by decide) (by decide) (by decide))
    (fun u o => (host1_v13 (B2 m c) u o).trans (congrFun (B2_arg m c main_arg15 (by decide) (by decide)) (ix1 o)))
    (B3_arg m c main_arg16 (by decide) (by decide) (by decide))
    (fun u o => (host1_v14 (B2 m c) u o).trans (congrFun (B2_arg m c main_arg17 (by decide) (by decide)) (ix1 o))))

/-- The first result at the end: the flow, channel-major. -/
theorem kernel_value0 : (B5 m c (Proc.devRef .tc main_v17) : S1x3x1024.Idx → EReal)
    = Cert.Spec.out0 (gH m c) (g8 m c) (g9 m c) (g10 m c) (g11 m c) := by
  funext i
  obtain ⟨u, d, n, rfl⟩ : ∃ (u : Fin 1) (d : Fin 3) (n : Fin 1024), i = ix3 u d n := ⟨i 0, i 1, i 2, eq_ix3 i⟩
  exact (host2_v17 (B4 m c) u d n).trans (congrFun (B4_v15_0 m c) (ix2 n d))

/-- The second result at the end: the global feature beside each point's own. -/
theorem kernel_value1 : (B5 m c (Proc.devRef .tc main_v18) : S1x1024x1088.Idx → EReal)
    = Cert.Spec.out1 (gH m c) (g8 m c) (g9 m c) (g10 m c) (g11 m c) (g0 m c) (g12 m c) (g13 m c) (g14 m c) (g15 m c) (g16 m c) (g17 m c) := by
  funext i
  obtain ⟨u, n, k, rfl⟩ : ∃ (u : Fin 1) (n : Fin 1024) (k : Fin 1088), i = ix3 u n k := ⟨i 0, i 1, i 2, eq_ix3 i⟩
  exact (host2_v18 (B4 m c) u n k).trans (congrFun (B4_v15_1 m c) (ix2 n k))

end Cert.KernelIdeal.Hand

end
-- ==== Proof.RefStages.lean ====
/-
  The reference's pairwise stages, as pure functions of the argument arrays, and what they are index by index
  over the extended reals.

  The reference forms for every pair (i, j) of points the 128 channels [F1(·, i) | F2(·, j)], applies the two-layer
  MLP with relu after each layer, and takes the maximum over i. Each stage below is the program's own operations on
  whole arrays; at the extended reals a stage read at an index is the corresponding function of the common
  specification: the first activation is h1 (the sum over the 128 joined channels splits into the sum over the first
  64, which meet F1, and the sum over the last 64, which meet F2), the second is h2, and the pool is hmax.
-/
import proofs.«141513_j49228915147505_1_alg».proof.Proof.Gen.ReferenceIdeal
import proofs.«141513_j49228915147505_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.RefStages

open Cert.ReferenceIdeal Cert.ReferenceIdeal.Gen Idealize.ShloMosaic Idealize.ShloMosaic.ValueIdx

section Stages
variable {F : FTy → Type} [FloatOps F]

/-! ## The stages, as pure functions of arrays -/

/-- An f32 array of shape `s`. -/
abbrev T (F : FTy → Type) (s : Shape) : Type := (⟨s, .f32⟩ : BufTy).Contents (Elt F)

/-- The pair (i, j)'s 128 input channels: point i of the first feature array, then point j of the second. -/
def st_cat (a2 a3 : T F S1x64x1024) : T F S1x1024x1024x128 :=
  concatenate S1x1024x1024x128 3
    [⟨S1x1024x1024x64, (broadcastInDim S1x1024x1024x64 ![0, 1, 2, 3] bcast_S1x1024x1x64_S1x1024x1024x64_0_1_2_3 (broadcastInDim S1x1024x1x64 ![0, 1, 3] bcast_S1x1024x64_S1x1024x1x64_0_1_3 (transpose S1x1024x64 [0, 2, 1] a2 transposes_S1x64x1024_S1x1024x64_0_2_1)))⟩,
     ⟨S1x1024x1024x64, (broadcastInDim S1x1024x1024x64 ![0, 1, 2, 3] bcast_S1x1x1024x64_S1x1024x1024x64_0_1_2_3 (broadcastInDim S1x1x1024x64 ![0, 2, 3] bcast_S1x1024x64_S1x1x1024x64_0_2_3 (transpose S1x1024x64 [0, 2, 1] a3 transposes_S1x64x1024_S1x1024x64_0_2_1)))⟩]
    concatenates_S1x1024x1024x64_S1x1024x1024x64_S1x1024x1024x128_d3

/-- The same under the name the pair features go by elsewhere. -/
abbrev st_fp (a2 a3 : T F S1x64x1024) : T F S1x1024x1024x128 := st_cat a2 a3

/-- The pairwise layer's first activation. -/
def st_h1 (a2 a3 : T F S1x64x1024) (a4 : T F S64x128) (a5 : T F S64) : T F S1x1024x1024x64 :=
  maximumf (addf (Host.dotGeneral dot_S1x1024x1024x128_S64x128_S1x1024x1024x64_3_1_012_0_n_n none (st_cat a2 a3) a4)
      (broadcastInDim S1x1024x1024x64 ![0, 1, 2, 3] bcast_S1x1x1x64_S1x1024x1024x64_0_1_2_3 (broadcastInDim S1x1x1x64 ![3] bcast_S64_S1x1x1x64_3 a5)))
    (broadcastInDim S1x1024x1024x64 ![] bcast_S_S1x1024x1024x64 (constant S_ .f32 0x00000000#32))

/-- Its second activation, over the first activation's value. -/
def st_h2 (h : T F S1x1024x1024x64) (a6 : T F S64x64) (a7 : T F S64) : T F S1x1024x1024x64 :=
  maximumf (addf (Host.dotGeneral dot_S1x1024x1024x64_S64x64_S1x1024x1024x64_3_1_012_0_n_n none h a6)
      (broadcastInDim S1x1024x1024x64 ![0, 1, 2, 3] bcast_S1x1x1x64_S1x1024x1024x64_0_1_2_3 (broadcastInDim S1x1x1x64 ![3] bcast_S64_S1x1x1x64_3 a7)))
    (broadcastInDim S1x1024x1024x64 ![] bcast_S_S1x1024x1024x64 (constant S_ .f32 0x00000000#32))

/-- The pool over the first point of the pair, from −∞. -/
def st_hmax (h : T F S1x1024x1024x64) : T F S1x1024x64 :=
  Host.reduce FloatOps.maximumf h (constant S_ .f32 0xFF800000#32) reducesTo_S1x1024x1024x64_S1x1024x64_d1 h_S_

/-- The pooled pairwise feature, of the argument arrays. -/
def hmaxOf (a2 a3 : T F S1x64x1024) (a4 : T F S64x128) (a5 : T F S64) (a6 : T F S64x64) (a7 : T F S64) : T F S1x1024x64 :=
  st_hmax (st_h2 (st_h1 a2 a3 a4 a5) a6 a7)

end Stages

/-! ## The stages read at an index, over the extended reals -/

section Read

/-- The word 0xFF800000 denotes −∞. -/
theorem ofBits_negInf : Ideal.ofBits .f32 0xFF800000#32 = ⊥ := by simp [Ideal.ofBits, Ideal.ieee]

/-- The relu's zero: the scalar constant 0 broadcast to any shape reads 0 everywhere. -/
theorem bcast_zero_apply {t : Shape} (h : S_.BroadcastsInDim t (![] : Fin 0 → Fin t.rank)) (j : t.Idx) :
    broadcastInDim t ![] h (constant (F := Ideal) S_ .f32 0x00000000#32) j = 0 :=
  (broadcastInDim_apply _ h _ j ix0 (fun a => a.elim0)).trans Ideal.ofBits_zero_f32

/-- A bias vector broadcast over the pairs reads, at (·, ·, ·, o), its entry o. -/
theorem bias4_apply (b : T Ideal S64) (u : Fin 1) (i j : Fin 1024) (o : Fin 64) :
    broadcastInDim S1x1024x1024x64 ![0, 1, 2, 3] bcast_S1x1x1x64_S1x1024x1024x64_0_1_2_3
        (broadcastInDim S1x1x1x64 ![3] bcast_S64_S1x1x1x64_3 b) (ix4 u i j o) = b (ix1 o) := by
  refine (broadcastInDim_apply _ bcast_S1x1x1x64_S1x1024x1024x64_0_1_2_3 _ (ix4 u i j o)
    (ix4 (0 : Fin 1) (0 : Fin 1) (0 : Fin 1) o) (fun a => match a with
    | ⟨0, _⟩ => by show 0 = if (1 : Nat) = 1 then 0 else u.val; rw [if_pos rfl]
    | ⟨1, _⟩ => by show 0 = if (1 : Nat) = 1 then 0 else i.val; rw [if_pos rfl]
    | ⟨2, _⟩ => by show 0 = if (1 : Nat) = 1 then 0 else j.val; rw [if_pos rfl]
    | ⟨3, _⟩ => by show o.val = if (64 : Nat) = 1 then 0 else o.val; rw [if_neg (by decide)])).trans ?_
  exact broadcastInDim_apply _ bcast_S64_S1x1x1x64_3 b (ix4 (0 : Fin 1) (0 : Fin 1) (0 : Fin 1) o) (ix1 o) (fun a => match a with
    | ⟨0, _⟩ => by show o.val = if (64 : Nat) = 1 then 0 else o.val; rw [if_neg (by decide)])

/-- The first feature array's side of the pair: transposed and broadcast over j, at (0, i, j, c) it is F1(c, i). -/
theorem left_apply (a2 : T Ideal S1x64x1024) (i j : Fin 1024) (c : Fin 64) :
    broadcastInDim S1x1024x1024x64 ![0, 1, 2, 3] bcast_S1x1024x1x64_S1x1024x1024x64_0_1_2_3
        (broadcastInDim S1x1024x1x64 ![0, 1, 3] bcast_S1x1024x64_S1x1024x1x64_0_1_3
          (transpose S1x1024x64 [0, 2, 1] a2 transposes_S1x64x1024_S1x1024x64_0_2_1)) (ix4 (0 : Fin 1) i j c)
      = a2 (ix3 (0 : Fin 1) c i) := by
  refine (broadcastInDim_apply _ bcast_S1x1024x1x64_S1x1024x1024x64_0_1_2_3 _ (ix4 (0 : Fin 1) i j c)
    (ix4 (0 : Fin 1) i (0 : Fin 1) c) (fun a => match a with
    | ⟨0, _⟩ => by show 0 = if (1 : Nat) = 1 then 0 else 0; rw [if_pos rfl]
    | ⟨1, _⟩ => by show i.val = if (1024 : Nat) = 1 then 0 else i.val; rw [if_neg (by decide)]
    | ⟨2, _⟩ => by show 0 = if (1 : Nat) = 1 then 0 else j.val; rw [if_pos rfl]
    | ⟨3, _⟩ => by show c.val = if (64 : Nat) = 1 then 0 else c.val; rw [if_neg (by decide)])).trans ?_
  refine (broadcastInDim_apply _ bcast_S1x1024x64_S1x1024x1x64_0_1_3 _ (ix4 (0 : Fin 1) i (0 : Fin 1) c)
    (ix3 (0 : Fin 1) i c) (fun a => match a with
    | ⟨0, _⟩ => by show 0 = if (1 : Nat) = 1 then 0 else 0; rw [if_pos rfl]
    | ⟨1, _⟩ => by show i.val = if (1024 : Nat) = 1 then 0 else i.val; rw [if_neg (by decide)]
    | ⟨2, _⟩ => by show c.val = if (64 : Nat) = 1 then 0 else c.val; rw [if_neg (by decide)])).trans ?_
  exact transpose_ix3_021_apply a2 _ (0 : Fin 1) i c

/-- The second feature array's side: transposed and broadcast over i, at (0, i, j, c) it is F2(c, j). -/
theorem right_apply (a3 : T Ideal S1x64x1024) (i j : Fin 1024) (c : Fin 64) :
    broadcastInDim S1x1024x1024x64 ![0, 1, 2, 3] bcast_S1x1x1024x64_S1x1024x1024x64_0_1_2_3
        (broadcastInDim S1x1x1024x64 ![0, 2, 3] bcast_S1x1024x64_S1x1x1024x64_0_2_3
          (transpose S1x1024x64 [0, 2, 1] a3 transposes_S1x64x1024_S1x1024x64_0_2_1)) (ix4 (0 : Fin 1) i j c)
      = a3 (ix3 (0 : Fin 1) c j) := by
  refine (broadcastInDim_apply _ bcast_S1x1x1024x64_S1x1024x1024x64_0_1_2_3 _ (ix4 (0 : Fin 1) i j c)
    (ix4 (0 : Fin 1) (0 : Fin 1) j c) (fun a => match a with
    | ⟨0, _⟩ => by show 0 = if (1 : Nat) = 1 then 0 else 0; rw [if_pos rfl]
    | ⟨1, _⟩ => by show 0 = if (1 : Nat) = 1 then 0 else i.val; rw [if_pos rfl]
    | ⟨2, _⟩ => by show j.val = if (1024 : Nat) = 1 then 0 else j.val; rw [if_neg (by decide)]
    | ⟨3, _⟩ => by show c.val = if (64 : Nat) = 1 then 0 else c.val; rw [if_neg (by decide)])).trans ?_
  refine (broadcastInDim_apply _ bcast_S1x1024x64_S1x1x1024x64_0_2_3 _ (ix4 (0 : Fin 1) (0 : Fin 1) j c)
    (ix3 (0 : Fin 1) j c) (fun a => match a with
    | ⟨0, _⟩ => by show 0 = if (1 : Nat) = 1 then 0 else 0; rw [if_pos rfl]
    | ⟨1, _⟩ => by show j.val = if (1024 : Nat) = 1 then 0 else j.val; rw [if_neg (by decide)]
    | ⟨2, _⟩ => by show c.val = if (64 : Nat) = 1 then 0 else c.val; rw [if_neg (by decide)])).trans ?_
  exact transpose_ix3_021_apply a3 _ (0 : Fin 1) j c

/-- The joined channels of the pair (i, j): channel c of the first 64 is F1(c, i). -/
theorem st_cat_lo (a2 a3 : T Ideal S1x64x1024) (i j : Fin 1024) (c : Fin 64) :
    st_cat a2 a3 (ix4 (0 : Fin 1) i j (Cert.Spec.lo c)) = a2 (ix3 (0 : Fin 1) c i) := by
  unfold st_cat
  refine (concatenate_pair_apply_left (t := S1x1024x1024x128) (s₁ := S1x1024x1024x64) (s₂ := S1x1024x1024x64) (3 : Fin S1x1024x1024x128.rank) _ _ _ (ix4 (0 : Fin 1) i j (Cert.Spec.lo c)) rfl
    (ix4 (0 : Fin 1) i j c) (fun b => match b with
    | ⟨0, _⟩ => rfl
    | ⟨1, _⟩ => rfl
    | ⟨2, _⟩ => rfl
    | ⟨3, _⟩ => rfl)).trans ?_
  exact left_apply a2 i j c

/-- Channel 64 + c of the joined channels is F2(c, j). -/
theorem st_cat_hi (a2 a3 : T Ideal S1x64x1024) (i j : Fin 1024) (c : Fin 64) :
    st_cat a2 a3 (ix4 (0 : Fin 1) i j (Cert.Spec.hi c)) = a3 (ix3 (0 : Fin 1) c j) := by
  unfold st_cat
  refine (concatenate_pair_apply_right (t := S1x1024x1024x128) (s₁ := S1x1024x1024x64) (s₂ := S1x1024x1024x64) (3 : Fin S1x1024x1024x128.rank) _ _ _ (ix4 (0 : Fin 1) i j (Cert.Spec.hi c)) rfl rfl
    (ix4 (0 : Fin 1) i j c) (fun b => match b with
    | ⟨0, _⟩ => fun _ => rfl
    | ⟨1, _⟩ => fun _ => rfl
    | ⟨2, _⟩ => fun _ => rfl
    | ⟨3, _⟩ => fun hne => absurd rfl hne) (by show c.val + 64 = 64 + c.val; omega)).trans ?_
  exact right_apply a3 i j c

/-- A sum over the 128 joined channels is the sum over the first 64 plus the sum over the last 64. -/
theorem sum_lo_hi (f : Fin 128 → EReal) :
    ∑ k : Fin 128, f k = (∑ c : Fin 64, f (Cert.Spec.lo c)) + ∑ c : Fin 64, f (Cert.Spec.hi c) :=
  Fin.sum_univ_add (M := EReal) (a := 64) (b := 64) f

/-! ### The two layers' products -/

theorem lhs7_0 (i : S1x1024x1024x64.Idx) (q : dot_S1x1024x1024x128_S64x128_S1x1024x1024x64_3_1_012_0_n_n.contr.Idx) : (dot_S1x1024x1024x128_S64x128_S1x1024x1024x64_3_1_012_0_n_n.lhsIdx i q 0).val = (i 0).val := by
  unfold DotDims.lhsIdx
  rw [dif_neg (show ¬(0 : Fin S1x1024x1024x128.rank) ∈ dot_S1x1024x1024x128_S64x128_S1x1024x1024x64_3_1_012_0_n_n.lhsBatch by decide), dif_pos (show (0 : Fin S1x1024x1024x128.rank) ∈ dot_S1x1024x1024x128_S64x128_S1x1024x1024x64_3_1_012_0_n_n.lhsNonContracting by decide)]
  rfl
theorem lhs7_1 (i : S1x1024x1024x64.Idx) (q : dot_S1x1024x1024x128_S64x128_S1x1024x1024x64_3_1_012_0_n_n.contr.Idx) : (dot_S1x1024x1024x128_S64x128_S1x1024x1024x64_3_1_012_0_n_n.lhsIdx i q 1).val = (i 1).val := by
  unfold DotDims.lhsIdx
  rw [dif_neg (show ¬(1 : Fin S1x1024x1024x128.rank) ∈ dot_S1x1024x1024x128_S64x128_S1x1024x1024x64_3_1_012_0_n_n.lhsBatch by decide), dif_pos (show (1 : Fin S1x1024x1024x128.rank) ∈ dot_S1x1024x1024x128_S64x128_S1x1024x1024x64_3_1_012_0_n_n.lhsNonContracting by decide)]
  rfl
theorem lhs7_2 (i : S1x1024x1024x64.Idx) (q : dot_S1x1024x1024x128_S64x128_S1x1024x1024x64_3_1_012_0_n_n.contr.Idx) : (dot_S1x1024x1024x128_S64x128_S1x1024x1024x64_3_1_012_0_n_n.lhsIdx i q 2).val = (i 2).val := by
  unfold DotDims.lhsIdx
  rw [dif_neg (show ¬(2 : Fin S1x1024x1024x128.rank) ∈ dot_S1x1024x1024x128_S64x128_S1x1024x1024x64_3_1_012_0_n_n.lhsBatch by decide), dif_pos (show (2 : Fin S1x1024x1024x128.rank) ∈ dot_S1x1024x1024x128_S64x128_S1x1024x1024x64_3_1_012_0_n_n.lhsNonContracting by decide)]
  rfl
theorem lhs7_3 (i : S1x1024x1024x64.Idx) (q : dot_S1x1024x1024x128_S64x128_S1x1024x1024x64_3_1_012_0_n_n.contr.Idx) : (dot_S1x1024x1024x128_S64x128_S1x1024x1024x64_3_1_012_0_n_n.lhsIdx i q 3).val = (q ⟨0, by decide⟩).val :=
  dot_S1x1024x1024x128_S64x128_S1x1024x1024x64_3_1_012_0_n_n.lhsIdx_val_of_single rfl i q
theorem rhs7_0 (i : S1x1024x1024x64.Idx) (q : dot_S1x1024x1024x128_S64x128_S1x1024x1024x64_3_1_012_0_n_n.contr.Idx) : (dot_S1x1024x1024x128_S64x128_S1x1024x1024x64_3_1_012_0_n_n.rhsIdx i q 0).val = (i 3).val := by
  unfold DotDims.rhsIdx
  rw [dif_neg (show ¬(0 : Fin S64x128.rank) ∈ dot_S1x1024x1024x128_S64x128_S1x1024x1024x64_3_1_012_0_n_n.rhsBatch by decide), dif_pos (show (0 : Fin S64x128.rank) ∈ dot_S1x1024x1024x128_S64x128_S1x1024x1024x64_3_1_012_0_n_n.rhsNonContracting by decide)]
  rfl
theorem rhs7_1 (i : S1x1024x1024x64.Idx) (q : dot_S1x1024x1024x128_S64x128_S1x1024x1024x64_3_1_012_0_n_n.contr.Idx) : (dot_S1x1024x1024x128_S64x128_S1x1024x1024x64_3_1_012_0_n_n.rhsIdx i q 1).val = (q ⟨0, by decide⟩).val :=
  dot_S1x1024x1024x128_S64x128_S1x1024x1024x64_3_1_012_0_n_n.rhsIdx_val_of_single rfl i q

/-- The layer's `dot_general` at the pair (i, j), output channel o: the sum over the 128 input channels. -/
theorem dot7_apply (l : FVec Ideal S1x1024x1024x128 .f32) (r : FVec Ideal S64x128 .f32) (u : Fin 1) (i j : Fin 1024) (o : Fin 64) :
    Host.dotGeneral (F := Ideal) dot_S1x1024x1024x128_S64x128_S1x1024x1024x64_3_1_012_0_n_n none l r (ix4 u i j o) = ∑ k : Fin 128, l (ix4 u i j k) * r (ix2 o k) := by
  simp only [Host.dotGeneral]
  rw [Ideal.dotGeneral_apply, ← Equiv.sum_comp (contrEquiv1 dot_S1x1024x1024x128_S64x128_S1x1024x1024x64_3_1_012_0_n_n 128 rfl rfl).symm]
  refine Finset.sum_congr rfl fun k _ => ?_
  have hk := contrEquiv1_symm_val dot_S1x1024x1024x128_S64x128_S1x1024x1024x64_3_1_012_0_n_n 128 rfl rfl k
  have el : dot_S1x1024x1024x128_S64x128_S1x1024x1024x64_3_1_012_0_n_n.lhsIdx (ix4 u i j o) ((contrEquiv1 dot_S1x1024x1024x128_S64x128_S1x1024x1024x64_3_1_012_0_n_n 128 rfl rfl).symm k) = ix4 u i j k := funext fun a => Fin.ext (by
    match a with
    | ⟨0, _⟩ => exact lhs7_0 _ _
    | ⟨1, _⟩ => exact lhs7_1 _ _
    | ⟨2, _⟩ => exact lhs7_2 _ _
    | ⟨3, _⟩ => exact (lhs7_3 _ _).trans hk)
  have er : dot_S1x1024x1024x128_S64x128_S1x1024x1024x64_3_1_012_0_n_n.rhsIdx (ix4 u i j o) ((contrEquiv1 dot_S1x1024x1024x128_S64x128_S1x1024x1024x64_3_1_012_0_n_n 128 rfl rfl).symm k) = ix2 o k := funext fun a => Fin.ext (by
    match a with
    | ⟨0, _⟩ => exact rhs7_0 _ _
    | ⟨1, _⟩ => exact (rhs7_1 _ _).trans hk)
  rw [el, er]

theorem lhs12_0 (i : S1x1024x1024x64.Idx) (q : dot_S1x1024x1024x64_S64x64_S1x1024x1024x64_3_1_012_0_n_n.contr.Idx) : (dot_S1x1024x1024x64_S64x64_S1x1024x1024x64_3_1_012_0_n_n.lhsIdx i q 0).val = (i 0).val := by
  unfold DotDims.lhsIdx
  rw [dif_neg (show ¬(0 : Fin S1x1024x1024x64.rank) ∈ dot_S1x1024x1024x64_S64x64_S1x1024x1024x64_3_1_012_0_n_n.lhsBatch by decide), dif_pos (show (0 : Fin S1x1024x1024x64.rank) ∈ dot_S1x1024x1024x64_S64x64_S1x1024x1024x64_3_1_012_0_n_n.lhsNonContracting by decide)]
  rfl
theorem lhs12_1 (i : S1x1024x1024x64.Idx) (q : dot_S1x1024x1024x64_S64x64_S1x1024x1024x64_3_1_012_0_n_n.contr.Idx) : (dot_S1x1024x1024x64_S64x64_S1x1024x1024x64_3_1_012_0_n_n.lhsIdx i q 1).val = (i 1).val := by
  unfold DotDims.lhsIdx
  rw [dif_neg (show ¬(1 : Fin S1x1024x1024x64.rank) ∈ dot_S1x1024x1024x64_S64x64_S1x1024x1024x64_3_1_012_0_n_n.lhsBatch by decide), dif_pos (show (1 : Fin S1x1024x1024x64.rank) ∈ dot_S1x1024x1024x64_S64x64_S1x1024x1024x64_3_1_012_0_n_n.lhsNonContracting by decide)]
  rfl
theorem lhs12_2 (i : S1x1024x1024x64.Idx) (q : dot_S1x1024x1024x64_S64x64_S1x1024x1024x64_3_1_012_0_n_n.contr.Idx) : (dot_S1x1024x1024x64_S64x64_S1x1024x1024x64_3_1_012_0_n_n.lhsIdx i q 2).val = (i 2).val := by
  unfold DotDims.lhsIdx
  rw [dif_neg (show ¬(2 : Fin S1x1024x1024x64.rank) ∈ dot_S1x1024x1024x64_S64x64_S1x1024x1024x64_3_1_012_0_n_n.lhsBatch by decide), dif_pos (show (2 : Fin S1x1024x1024x64.rank) ∈ dot_S1x1024x1024x64_S64x64_S1x1024x1024x64_3_1_012_0_n_n.lhsNonContracting by decide)]
  rfl
theorem lhs12_3 (i : S1x1024x1024x64.Idx) (q : dot_S1x1024x1024x64_S64x64_S1x1024x1024x64_3_1_012_0_n_n.contr.Idx) : (dot_S1x1024x1024x64_S64x64_S1x1024x1024x64_3_1_012_0_n_n.lhsIdx i q 3).val = (q ⟨0, by decide⟩).val :=
  dot_S1x1024x1024x64_S64x64_S1x1024x1024x64_3_1_012_0_n_n.lhsIdx_val_of_single rfl i q
theorem rhs12_0 (i : S1x1024x1024x64.Idx) (q : dot_S1x1024x1024x64_S64x64_S1x1024x1024x64_3_1_012_0_n_n.contr.Idx) : (dot_S1x1024x1024x64_S64x64_S1x1024x1024x64_3_1_012_0_n_n.rhsIdx i q 0).val = (i 3).val := by
  unfold DotDims.rhsIdx
  rw [dif_neg (show ¬(0 : Fin S64x64.rank) ∈ dot_S1x1024x1024x64_S64x64_S1x1024x1024x64_3_1_012_0_n_n.rhsBatch by decide), dif_pos (show (0 : Fin S64x64.rank) ∈ dot_S1x1024x1024x64_S64x64_S1x1024x1024x64_3_1_012_0_n_n.rhsNonContracting by decide)]
  rfl
theorem rhs12_1 (i : S1x1024x1024x64.Idx) (q : dot_S1x1024x1024x64_S64x64_S1x1024x1024x64_3_1_012_0_n_n.contr.Idx) : (dot_S1x1024x1024x64_S64x64_S1x1024x1024x64_3_1_012_0_n_n.rhsIdx i q 1).val = (q ⟨0, by decide⟩).val :=
  dot_S1x1024x1024x64_S64x64_S1x1024x1024x64_3_1_012_0_n_n.rhsIdx_val_of_single rfl i q

/-- The layer's `dot_general` at the pair (i, j), output channel o: the sum over the 64 input channels. -/
theorem dot12_apply (l : FVec Ideal S1x1024x1024x64 .f32) (r : FVec Ideal S64x64 .f32) (u : Fin 1) (i j : Fin 1024) (o : Fin 64) :
    Host.dotGeneral (F := Ideal) dot_S1x1024x1024x64_S64x64_S1x1024x1024x64_3_1_012_0_n_n none l r (ix4 u i j o) = ∑ k : Fin 64, l (ix4 u i j k) * r (ix2 o k) := by
  simp only [Host.dotGeneral]
  rw [Ideal.dotGeneral_apply, ← Equiv.sum_comp (contrEquiv1 dot_S1x1024x1024x64_S64x64_S1x1024x1024x64_3_1_012_0_n_n 64 rfl rfl).symm]
  refine Finset.sum_congr rfl fun k _ => ?_
  have hk := contrEquiv1_symm_val dot_S1x1024x1024x64_S64x64_S1x1024x1024x64_3_1_012_0_n_n 64 rfl rfl k
  have el : dot_S1x1024x1024x64_S64x64_S1x1024x1024x64_3_1_012_0_n_n.lhsIdx (ix4 u i j o) ((contrEquiv1 dot_S1x1024x1024x64_S64x64_S1x1024x1024x64_3_1_012_0_n_n 64 rfl rfl).symm k) = ix4 u i j k := funext fun a => Fin.ext (by
    match a with
    | ⟨0, _⟩ => exact lhs12_0 _ _
    | ⟨1, _⟩ => exact lhs12_1 _ _
    | ⟨2, _⟩ => exact lhs12_2 _ _
    | ⟨3, _⟩ => exact (lhs12_3 _ _).trans hk)
  have er : dot_S1x1024x1024x64_S64x64_S1x1024x1024x64_3_1_012_0_n_n.rhsIdx (ix4 u i j o) ((contrEquiv1 dot_S1x1024x1024x64_S64x64_S1x1024x1024x64_3_1_012_0_n_n 64 rfl rfl).symm k) = ix2 o k := funext fun a => Fin.ext (by
    match a with
    | ⟨0, _⟩ => exact rhs12_0 _ _
    | ⟨1, _⟩ => exact (rhs12_1 _ _).trans hk)
  rw [el, er]

/-! ### The stages -/

/-- The first activation at the pair (i, j), channel o, is the specification's h1. -/
theorem st_h1_apply (a2 a3 : T Ideal S1x64x1024) (a4 : T Ideal S64x128) (a5 : T Ideal S64) (i j : Fin 1024) (o : Fin 64) :
    st_h1 a2 a3 a4 a5 (ix4 (0 : Fin 1) i j o) = Cert.Spec.h1 a2 a3 a4 a5 i j o := by
  unfold st_h1 Cert.Spec.h1
  refine congrArg₂ max ?_ (bcast_zero_apply _ _)
  refine congrArg₂ (· + ·) ?_ (bias4_apply a5 0 i j o)
  refine (dot7_apply _ _ 0 i j o).trans ?_
  refine (sum_lo_hi _).trans ?_
  refine congrArg₂ (· + ·) (Finset.sum_congr rfl fun c _ => ?_) (Finset.sum_congr rfl fun c _ => ?_)
  · exact congrArg (· * a4 (ix2 o (Cert.Spec.lo c))) (st_cat_lo a2 a3 i j c)
  · exact congrArg (· * a4 (ix2 o (Cert.Spec.hi c))) (st_cat_hi a2 a3 i j c)

/-- The second activation over any first activation h: at (i, j, o), relu of the 64-channel product plus the bias. -/
theorem st_h2_apply (h : T Ideal S1x1024x1024x64) (a6 : T Ideal S64x64) (a7 : T Ideal S64) (i j : Fin 1024) (o : Fin 64) :
    st_h2 h a6 a7 (ix4 (0 : Fin 1) i j o)
      = max ((∑ c : Fin 64, h (ix4 (0 : Fin 1) i j c) * a6 (ix2 o c)) + a7 (ix1 o)) 0 := by
  unfold st_h2
  refine congrArg₂ max ?_ (bcast_zero_apply _ _)
  exact congrArg₂ (· + ·) (dot12_apply _ _ 0 i j o) (bias4_apply a7 0 i j o)

/-- The shape fact the pool's inserted index is read through. -/
theorem reduces_pool : S1x1024x1024x64.Reduces [1] S1x1024x64 := by decide

/-- The pool over the first point of the pair: at (j, o) the maximum from −∞ over all 1024 points i. -/
theorem st_hmax_apply (h : T Ideal S1x1024x1024x64) (j : Fin 1024) (o : Fin 64) :
    st_hmax h (ix3 (0 : Fin 1) j o) = Cert.Spec.maxOver fun i : Fin 1024 => h (ix4 (0 : Fin 1) i j o) := by
  unfold st_hmax
  refine (Host.reduce_eq_fold_single (α := Ideal .f32) (s := S1x1024x1024x64) (t := S1x1024x64) (u := S_) (a := (1 : Fin 4))
    (FloatOps.maximumf (F := Ideal) (φ := .f32)) h (constant (F := Ideal) S_ .f32 0xFF800000#32)
    reducesTo_S1x1024x1024x64_S1x1024x64_d1 reduces_pool h_S_ (ix3 (0 : Fin 1) j o)).trans ?_
  have hlift : ∀ i : Fin 1024, reduces_pool.lift (ix3 (0 : Fin 1) j o) i = ix4 (0 : Fin 1) i j o := fun i =>
    funext fun a => Fin.ext (by
      match a with
      | ⟨0, _⟩ => rfl
      | ⟨1, _⟩ => rfl
      | ⟨2, _⟩ => rfl
      | ⟨3, _⟩ => rfl)
  show (Finset.univ : Finset (Fin 1024)).fold max (Ideal.ofBits .f32 0xFF800000#32) _
    = (Finset.univ : Finset (Fin 1024)).fold max ⊥ _
  rw [ofBits_negInf]
  exact congrArg (fun g => (Finset.univ : Finset (Fin 1024)).fold max ⊥ g) (funext fun i => congrArg h (hlift i))

/-- The second activation of the argument arrays is the specification's h2. -/
theorem st_h2_eq (a2 a3 : T Ideal S1x64x1024) (a4 : T Ideal S64x128) (a5 : T Ideal S64) (a6 : T Ideal S64x64) (a7 : T Ideal S64)
    (i j : Fin 1024) (o : Fin 64) :
    st_h2 (st_h1 a2 a3 a4 a5) a6 a7 (ix4 (0 : Fin 1) i j o) = Cert.Spec.h2 a2 a3 a4 a5 a6 a7 i j o := by
  refine (st_h2_apply _ a6 a7 i j o).trans ?_
  unfold Cert.Spec.h2
  refine congrArg₂ max (congrArg₂ (· + ·) (Finset.sum_congr rfl fun c _ => ?_) rfl) rfl
  exact congrArg (· * a6 (ix2 o c)) (st_h1_apply a2 a3 a4 a5 i j c)

/-- The pooled pairwise feature of the argument arrays is the specification's hmax. -/
theorem hmaxOf_apply (a2 a3 : T Ideal S1x64x1024) (a4 : T Ideal S64x128) (a5 : T Ideal S64) (a6 : T Ideal S64x64) (a7 : T Ideal S64)
    (j : Fin 1024) (o : Fin 64) :
    hmaxOf a2 a3 a4 a5 a6 a7 (ix3 (0 : Fin 1) j o) = Cert.Spec.hmax a2 a3 a4 a5 a6 a7 j o := by
  unfold hmaxOf Cert.Spec.hmax
  refine (st_hmax_apply _ j o).trans ?_
  exact congrArg (fun g => (Finset.univ : Finset (Fin 1024)).fold max ⊥ g)
    (funext fun i => st_h2_eq a2 a3 a4 a5 a6 a7 i j o)

/-- The same with the pooled array as the function of (point, channel) the per-point stages take. -/
theorem hmaxOf_eq (a2 a3 : T Ideal S1x64x1024) (a4 : T Ideal S64x128) (a5 : T Ideal S64) (a6 : T Ideal S64x64) (a7 : T Ideal S64) :
    (fun (n : Fin 1024) (c : Fin 64) => hmaxOf a2 a3 a4 a5 a6 a7 (ix3 (0 : Fin 1) n c)) = Cert.Spec.hmax a2 a3 a4 a5 a6 a7 :=
  funext fun n => funext fun c => hmaxOf_apply a2 a3 a4 a5 a6 a7 n c

end Read

end Cert.RefStages

end
-- ==== Proof.RefStagesB.lean ====
/-
  The reference's per-point stages — the flow MLP, the displaced point cloud, the three per-point layers, the pool over
  the points and the two results — as pure functions of arrays in the program's own operations, each stage a function of
  the stage before it; and, over the extended reals, each stage read at an index as the specification's function.

  A layer is a dot_general contracting the operand's last axis with the weight matrix's last axis, plus the bias
  broadcast along the last axis, with or without a maximum against the zero scalar broadcast everywhere. Over the extended
  reals the dot_general is the sum over the contracted channel, and the reduce with a maximum body over the points from −∞
  is the fold of max over them.
-/
import proofs.«141513_j49228915147505_1_alg».proof.Proof.Gen.ReferenceIdeal
import proofs.«141513_j49228915147505_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.RefStages

open Cert.ReferenceIdeal Cert.ReferenceIdeal.Gen Idealize.ShloMosaic Idealize.ShloMosaic.ValueIdx

/-! ## The stages -/

section Stages
variable {F : FTy → Type} [FloatOps F]

/-- The flow MLP's hidden layer over the pooled feature hm. -/
def st_m (hm : FVec F S1x1024x64 .f32) (a8 : FVec F S64x64 .f32) (a9 : FVec F S64 .f32) : FVec F S1x1024x64 .f32 :=
  maximumf (addf (Host.dotGeneral dot_S1x1024x64_S64x64_S1x1024x64_2_1_01_0_n_n none hm a8)
      (broadcastInDim S1x1024x64 ![0, 1, 2] bcast_S1x1x64_S1x1024x64_0_1_2 (broadcastInDim S1x1x64 ![2] bcast_S64_S1x1x64_2 a9)))
    (broadcastInDim S1x1024x64 ![] bcast_S_S1x1024x64 (constant S_ .f32 0x00000000#32))

/-- The flow, [1, 1024, 3]. -/
def st_flow (hm : FVec F S1x1024x64 .f32) (a8 : FVec F S64x64 .f32) (a9 : FVec F S64 .f32) (a10 : FVec F S3x64 .f32)
    (a11 : FVec F S3 .f32) : FVec F S1x1024x3 .f32 :=
  addf (Host.dotGeneral dot_S1x1024x64_S3x64_S1x1024x3_2_1_01_0_n_n none (st_m hm a8 a9) a10)
    (broadcastInDim S1x1024x3 ![0, 1, 2] bcast_S1x1x3_S1x1024x3_0_1_2 (broadcastInDim S1x1x3 ![2] bcast_S3_S1x1x3_2 a11))

/-- The displaced points. -/
def st_x (a0 fl : FVec F S1x1024x3 .f32) : FVec F S1x1024x3 .f32 := addf a0 fl

/-- The first per-point layer, over the displaced points. -/
def st_pf (a0 fl : FVec F S1x1024x3 .f32) (a12 : FVec F S64x3 .f32) (a13 : FVec F S64 .f32) : FVec F S1x1024x64 .f32 :=
  maximumf (addf (Host.dotGeneral dot_S1x1024x3_S64x3_S1x1024x64_2_1_01_0_n_n none (st_x a0 fl) a12)
      (broadcastInDim S1x1024x64 ![0, 1, 2] bcast_S1x1x64_S1x1024x64_0_1_2 (broadcastInDim S1x1x64 ![2] bcast_S64_S1x1x64_2 a13)))
    (broadcastInDim S1x1024x64 ![] bcast_S_S1x1024x64 (constant S_ .f32 0x00000000#32))

/-- The second per-point layer. -/
def st_q (pf : FVec F S1x1024x64 .f32) (a14 : FVec F S128x64 .f32) (a15 : FVec F S128 .f32) : FVec F S1x1024x128 .f32 :=
  maximumf (addf (Host.dotGeneral dot_S1x1024x64_S128x64_S1x1024x128_2_1_01_0_n_n none pf a14)
      (broadcastInDim S1x1024x128 ![0, 1, 2] bcast_S1x1x128_S1x1024x128_0_1_2 (broadcastInDim S1x1x128 ![2] bcast_S128_S1x1x128_2 a15)))
    (broadcastInDim S1x1024x128 ![] bcast_S_S1x1024x128 (constant S_ .f32 0x00000000#32))

/-- The third per-point layer (no maximum). -/
def st_h3 (q : FVec F S1x1024x128 .f32) (a16 : FVec F S1024x128 .f32) (a17 : FVec F S1024 .f32) : FVec F S1x1024x1024 .f32 :=
  addf (Host.dotGeneral dot_S1x1024x128_S1024x128_S1x1024x1024_2_1_01_0_n_n none q a16)
    (broadcastInDim S1x1024x1024 ![0, 1, 2] bcast_S1x1x1024_S1x1024x1024_0_1_2 (broadcastInDim S1x1x1024 ![2] bcast_S1024_S1x1x1024_2 a17))

/-- The pool over the points, from −∞: [1, 1024]. -/
def st_g (h3 : FVec F S1x1024x1024 .f32) : FVec F S1x1024 .f32 :=
  Host.reduce FloatOps.maximumf h3 (constant S_ .f32 0xFF800000#32) reducesTo_S1x1024x1024_S1x1024_d1 h_S_

/-- The first result: the flow, channel-major. -/
def res46 (fl : FVec F S1x1024x3 .f32) : FVec F S1x3x1024 .f32 :=
  transpose S1x3x1024 [0, 2, 1] fl transposes_S1x1024x3_S1x3x1024_0_2_1

/-- The second result: the pooled feature broadcast over the points, then each point's own feature. -/
def res45 (g : FVec F S1x1024 .f32) (pf : FVec F S1x1024x64 .f32) : FVec F S1x1024x1088 .f32 :=
  concatenate S1x1024x1088 2
    [⟨S1x1024x1024, broadcastInDim S1x1024x1024 ![0, 1, 2] bcast_S1x1x1024_S1x1024x1024_0_1_2
        (broadcastInDim S1x1x1024 ![0, 2] bcast_S1x1024_S1x1x1024_0_2 g)⟩,
     ⟨S1x1024x64, pf⟩]
    concatenates_S1x1024x1024_S1x1024x64_S1x1024x1088_d2

end Stages

/-! ## A dot_general [B,M,K] · [N,K] → [B,M,N] read at an index -/

/-- Its dimension numbers: the operand's last axis contracted with the weight matrix's last axis. -/
abbrev hostD (B M K N : Nat)
    (w : DotDims.WF ⟨3, ![B, M, K]⟩ ⟨2, ![N, K]⟩ ⟨3, ![B, M, N]⟩ [2] [1] [0, 1] [0] [] []) :
    DotDims ⟨3, ![B, M, K]⟩ ⟨2, ![N, K]⟩ ⟨3, ![B, M, N]⟩ where
  lhsContracting := [2]
  rhsContracting := [1]
  lhsNonContracting := [0, 1]
  rhsNonContracting := [0]
  lhsBatch := []
  rhsBatch := []
  wf := w

section HostDot
variable {B M K N : Nat} (w : DotDims.WF ⟨3, ![B, M, K]⟩ ⟨2, ![N, K]⟩ ⟨3, ![B, M, N]⟩ [2] [1] [0, 1] [0] [] [])

theorem hostD_lhs0 (j : (⟨3, ![B, M, N]⟩ : Shape).Idx) (q : (hostD B M K N w).contr.Idx) :
    ((hostD B M K N w).lhsIdx j q 0).val = (j 0).val := by
  unfold DotDims.lhsIdx
  rw [dif_neg (show ¬(0 : Fin (⟨3, ![B, M, K]⟩ : Shape).rank) ∈ (hostD B M K N w).lhsBatch from List.not_mem_nil),
    dif_pos (show (0 : Fin (⟨3, ![B, M, K]⟩ : Shape).rank) ∈ (hostD B M K N w).lhsNonContracting by simp)]
  rfl

theorem hostD_lhs1 (j : (⟨3, ![B, M, N]⟩ : Shape).Idx) (q : (hostD B M K N w).contr.Idx) :
    ((hostD B M K N w).lhsIdx j q 1).val = (j 1).val := by
  unfold DotDims.lhsIdx
  rw [dif_neg (show ¬(1 : Fin (⟨3, ![B, M, K]⟩ : Shape).rank) ∈ (hostD B M K N w).lhsBatch from List.not_mem_nil),
    dif_pos (show (1 : Fin (⟨3, ![B, M, K]⟩ : Shape).rank) ∈ (hostD B M K N w).lhsNonContracting by simp)]
  rfl

theorem hostD_lhs2 (j : (⟨3, ![B, M, N]⟩ : Shape).Idx) (q : (hostD B M K N w).contr.Idx) :
    ((hostD B M K N w).lhsIdx j q 2).val = (q ⟨0, Nat.one_pos⟩).val :=
  (hostD B M K N w).lhsIdx_val_of_single rfl j q

theorem hostD_rhs0 (j : (⟨3, ![B, M, N]⟩ : Shape).Idx) (q : (hostD B M K N w).contr.Idx) :
    ((hostD B M K N w).rhsIdx j q 0).val = (j 2).val := by
  unfold DotDims.rhsIdx
  rw [dif_neg (show ¬(0 : Fin (⟨2, ![N, K]⟩ : Shape).rank) ∈ (hostD B M K N w).rhsBatch from List.not_mem_nil),
    dif_pos (show (0 : Fin (⟨2, ![N, K]⟩ : Shape).rank) ∈ (hostD B M K N w).rhsNonContracting by simp)]
  rfl

theorem hostD_rhs1 (j : (⟨3, ![B, M, N]⟩ : Shape).Idx) (q : (hostD B M K N w).contr.Idx) :
    ((hostD B M K N w).rhsIdx j q 1).val = (q ⟨0, Nat.one_pos⟩).val :=
  (hostD B M K N w).rhsIdx_val_of_single rfl j q

/-- Over the extended reals the dot_general at (b, n, o) is the sum over the contracted channel. -/
theorem hostDot_apply {φ₁ φ₂ : FTy} (A : FVec Ideal ⟨3, ![B, M, K]⟩ φ₁) (W : FVec Ideal ⟨2, ![N, K]⟩ φ₂)
    (b : Fin B) (n : Fin M) (o : Fin N) :
    Host.dotGeneral (hostD B M K N w) none A W (ix3 b n o) = ∑ k : Fin K, A (ix3 b n k) * W (ix2 o k) := by
  simp only [Host.dotGeneral]
  rw [Ideal.dotGeneral_apply, ← Equiv.sum_comp (contrEquiv1 (hostD B M K N w) K rfl rfl).symm]
  refine Finset.sum_congr rfl fun k _ => ?_
  have hk := contrEquiv1_symm_val (hostD B M K N w) K rfl rfl k
  have el : (hostD B M K N w).lhsIdx (ix3 b n o) ((contrEquiv1 (hostD B M K N w) K rfl rfl).symm k) = ix3 b n k :=
    funext fun a => Fin.ext (by
      match a with
      | ⟨0, _⟩ => exact hostD_lhs0 w _ _
      | ⟨1, _⟩ => exact hostD_lhs1 w _ _
      | ⟨2, _⟩ => exact (hostD_lhs2 w _ _).trans hk)
  have er : (hostD B M K N w).rhsIdx (ix3 b n o) ((contrEquiv1 (hostD B M K N w) K rfl rfl).symm k) = ix2 o k :=
    funext fun a => Fin.ext (by
      match a with
      | ⟨0, _⟩ => exact hostD_rhs0 w _ _
      | ⟨1, _⟩ => exact (hostD_rhs1 w _ _).trans hk)
  rw [el, er]

end HostDot

/-! ## The bias and the zero splat read at an index -/

/-- A bias [N] broadcast along the last axis of [B,M,N], through [1,1,N] as the program does: at (b, n, o) its entry o. -/
theorem bias_apply {α : Type} {B M N : Nat}
    (h1 : (⟨1, ![N]⟩ : Shape).BroadcastsInDim ⟨3, ![1, 1, N]⟩ ![2])
    (h2 : (⟨3, ![1, 1, N]⟩ : Shape).BroadcastsInDim ⟨3, ![B, M, N]⟩ ![0, 1, 2])
    (r : (⟨1, ![N]⟩ : Shape).Idx → α) (b : Fin B) (n : Fin M) (o : Fin N) :
    broadcastInDim ⟨3, ![B, M, N]⟩ ![0, 1, 2] h2 (broadcastInDim ⟨3, ![1, 1, N]⟩ ![2] h1 r) (ix3 b n o) = r (ix1 o) := by
  have ho : (if N = 1 then 0 else o.val) = o.val := by
    split
    · have := o.isLt; omega
    · rfl
  refine (broadcastInDim_apply _ h2 _ (ix3 b n o) (ix3 (0 : Fin 1) (0 : Fin 1) o) fun a => ?_).trans
    (broadcastInDim_apply _ h1 r (ix3 (0 : Fin 1) (0 : Fin 1) o) (ix1 o) fun a => ?_)
  · match a with
    | ⟨0, _⟩ => rfl
    | ⟨1, _⟩ => rfl
    | ⟨2, _⟩ => exact ho.symm
  · match a with
    | ⟨0, _⟩ => exact ho.symm

/-- The zero scalar broadcast everywhere reads 0. -/
theorem zeroSplat_apply {t : Shape} (h : (⟨0, ![]⟩ : Shape).BroadcastsInDim t ![]) (i : t.Idx) :
    broadcastInDim t ![] h (constant (F := Ideal) ⟨0, ![]⟩ .f32 0x00000000#32) i = 0 :=
  (broadcastInDim_apply _ h _ i ix0 fun a => a.elim0).trans Ideal.ofBits_zero_f32

/-- The word the pool starts from is −∞. -/
theorem ofBits_neg_inf : Ideal.ofBits .f32 0xFF800000#32 = (⊥ : EReal) := by
  simp [Ideal.ofBits, Ideal.ieee]

/-! ## The stages over the extended reals -/

section Readings
variable (hm : FVec Ideal S1x1024x64 .f32) (a0 : FVec Ideal S1x1024x3 .f32) (a8 : FVec Ideal S64x64 .f32)
  (a9 : FVec Ideal S64 .f32) (a10 : FVec Ideal S3x64 .f32) (a11 : FVec Ideal S3 .f32) (a12 : FVec Ideal S64x3 .f32)
  (a13 : FVec Ideal S64 .f32) (a14 : FVec Ideal S128x64 .f32) (a15 : FVec Ideal S128 .f32)
  (a16 : FVec Ideal S1024x128 .f32) (a17 : FVec Ideal S1024 .f32)

/-- The hidden layer at (0, n, o). -/
theorem m_apply (n : Fin 1024) (o : Fin 64) :
    st_m hm a8 a9 (ix3 0 n o) = Cert.Spec.mh (fun n c => hm (ix3 0 n c)) a8 a9 n o := by
  unfold st_m Cert.Spec.mh
  rw [maximumf_apply, addf_apply]
  exact congrArg₂ max (congrArg₂ (· + ·)
    (hostDot_apply dot_S1x1024x64_S64x64_S1x1024x64_2_1_01_0_n_n.wf hm a8 0 n o) (bias_apply _ _ a9 0 n o))
    (zeroSplat_apply _ _)

/-- The flow at (0, n, d). -/
theorem flow_apply (n : Fin 1024) (d : Fin 3) :
    st_flow hm a8 a9 a10 a11 (ix3 0 n d) = Cert.Spec.flow (fun n c => hm (ix3 0 n c)) a8 a9 a10 a11 n d := by
  unfold st_flow Cert.Spec.flow
  rw [addf_apply]
  refine congrArg₂ (· + ·) ?_ (bias_apply _ _ a11 0 n d)
  refine (hostDot_apply dot_S1x1024x64_S3x64_S1x1024x3_2_1_01_0_n_n.wf (st_m hm a8 a9) a10 0 n d).trans
    (Finset.sum_congr rfl fun c _ => ?_)
  exact congrArg (· * a10 (ix2 d c)) (m_apply hm a8 a9 n c)

/-- The first per-point layer at (0, n, o). -/
theorem pf_apply (n : Fin 1024) (o : Fin 64) :
    st_pf a0 (st_flow hm a8 a9 a10 a11) a12 a13 (ix3 0 n o)
      = Cert.Spec.pf (fun n c => hm (ix3 0 n c)) a8 a9 a10 a11 a0 a12 a13 n o := by
  unfold st_pf Cert.Spec.pf
  rw [maximumf_apply, addf_apply]
  refine congrArg₂ max (congrArg₂ (· + ·) ?_ (bias_apply _ _ a13 0 n o)) (zeroSplat_apply _ _)
  refine (hostDot_apply dot_S1x1024x3_S64x3_S1x1024x64_2_1_01_0_n_n.wf _ a12 0 n o).trans
    (Finset.sum_congr rfl fun d _ => ?_)
  unfold st_x Cert.Spec.xpt
  rw [addf_apply]
  exact congrArg (fun t => (a0 (ix3 0 n d) + t) * a12 (ix2 o d)) (flow_apply hm a8 a9 a10 a11 n d)

/-- The second per-point layer at (0, n, o), over the feature an array P holds. -/
theorem q_apply (P : FVec Ideal S1x1024x64 .f32) (pf : Fin 1024 → Fin 64 → EReal) (hP : ∀ n c, P (ix3 0 n c) = pf n c)
    (n : Fin 1024) (o : Fin 128) :
    st_q P a14 a15 (ix3 0 n o) = max ((∑ c : Fin 64, pf n c * a14 (ix2 o c)) + a15 (ix1 o)) 0 := by
  unfold st_q
  rw [maximumf_apply, addf_apply]
  refine congrArg₂ max (congrArg₂ (· + ·) ?_ (bias_apply _ _ a15 0 n o)) (zeroSplat_apply _ _)
  refine (hostDot_apply dot_S1x1024x64_S128x64_S1x1024x128_2_1_01_0_n_n.wf P a14 0 n o).trans
    (Finset.sum_congr rfl fun c _ => ?_)
  exact congrArg (· * a14 (ix2 o c)) (hP n c)

/-- The third per-point layer at (0, n, o). -/
theorem h3_apply (P : FVec Ideal S1x1024x64 .f32) (pf : Fin 1024 → Fin 64 → EReal) (hP : ∀ n c, P (ix3 0 n c) = pf n c)
    (n : Fin 1024) (o : Fin 1024) :
    st_h3 (st_q P a14 a15) a16 a17 (ix3 0 n o)
      = (∑ c : Fin 128, max ((∑ e : Fin 64, pf n e * a14 (ix2 c e)) + a15 (ix1 c)) 0 * a16 (ix2 o c)) + a17 (ix1 o) := by
  unfold st_h3
  rw [addf_apply]
  refine congrArg₂ (· + ·) ?_ (bias_apply _ _ a17 0 n o)
  refine (hostDot_apply dot_S1x1024x128_S1024x128_S1x1024x1024_2_1_01_0_n_n.wf _ a16 0 n o).trans
    (Finset.sum_congr rfl fun c _ => ?_)
  exact congrArg (· * a16 (ix2 o c)) (q_apply a14 a15 P pf hP n c)

/-- The reduced index (0, k) with the point n put back is (0, n, k). -/
theorem lift_g (h : S1x1024x1024.Reduces [1] S1x1024) (k : Fin 1024) (n : Fin 1024) :
    h.lift (ix2 0 k) n = ix3 0 n k :=
  funext fun a => Fin.ext (by
    match a with
    | ⟨0, _⟩ => rfl
    | ⟨1, _⟩ => rfl
    | ⟨2, _⟩ => rfl)

/-- The pool at (0, k): the fold of max over the points of column k. -/
theorem g_apply (X : FVec Ideal S1x1024x1024 .f32) (k : Fin 1024) :
    st_g X (ix2 0 k) = Cert.Spec.maxOver fun n : Fin 1024 => X (ix3 0 n k) := by
  have h : S1x1024x1024.Reduces [1] S1x1024 := by decide
  unfold st_g
  refine (Host.reduce_eq_fold_single FloatOps.maximumf X _ reducesTo_S1x1024x1024_S1x1024_d1 h h_S_ (ix2 0 k)).trans ?_
  show (Finset.univ : Finset (Fin 1024)).fold max (Ideal.ofBits .f32 0xFF800000#32) (X ∘ h.lift (ix2 0 k)) = _
  rw [ofBits_neg_inf]
  exact congrArg (fun f => (Finset.univ : Finset (Fin 1024)).fold max (⊥ : EReal) f)
    (funext fun n => congrArg X (lift_g h k n))

/-- The global feature at (0, k). -/
theorem gfeat_apply (k : Fin 1024) :
    st_g (st_h3 (st_q (st_pf a0 (st_flow hm a8 a9 a10 a11) a12 a13) a14 a15) a16 a17) (ix2 0 k)
      = Cert.Spec.gfeat (fun n c => hm (ix3 0 n c)) a8 a9 a10 a11 a0 a12 a13 a14 a15 a16 a17 k := by
  rw [g_apply]
  unfold Cert.Spec.gfeat Cert.Spec.h3 Cert.Spec.q2
  exact congrArg (fun f => Cert.Spec.maxOver f) (funext fun n =>
    h3_apply a14 a15 a16 a17 _ _ (pf_apply hm a0 a8 a9 a10 a11 a12 a13) n k)

end Readings

/-! ## The two results -/

section Results
variable (hm : FVec Ideal S1x1024x64 .f32) (a0 : FVec Ideal S1x1024x3 .f32) (a8 : FVec Ideal S64x64 .f32)
  (a9 : FVec Ideal S64 .f32) (a10 : FVec Ideal S3x64 .f32) (a11 : FVec Ideal S3 .f32) (a12 : FVec Ideal S64x3 .f32)
  (a13 : FVec Ideal S64 .f32) (a14 : FVec Ideal S128x64 .f32) (a15 : FVec Ideal S128 .f32)
  (a16 : FVec Ideal S1024x128 .f32) (a17 : FVec Ideal S1024 .f32)
  (Hs : Fin 1024 → Fin 64 → EReal) (hH : ∀ n c, hm (ix3 0 n c) = Hs n c)
include hH

/-- The first result is the specification's, over the function the pooled array holds. -/
theorem res46_eq : res46 (st_flow hm a8 a9 a10 a11) = Cert.Spec.out0 Hs a8 a9 a10 a11 := by
  obtain rfl : Hs = fun n c => hm (ix3 0 n c) := funext fun n => funext fun c => (hH n c).symm
  funext i
  obtain ⟨u, d, n, rfl⟩ : ∃ (u : Fin 1) (d : Fin 3) (n : Fin 1024), i = ix3 u d n := ⟨i 0, i 1, i 2, eq_ix3 i⟩
  obtain rfl : u = 0 := Subsingleton.elim _ _
  unfold res46
  refine (transpose_ix3_021_apply _ transposes_S1x1024x3_S1x3x1024_0_2_1 0 d n).trans ?_
  exact flow_apply hm a8 a9 a10 a11 n d

/-- The second result is the specification's: the global feature in the first 1024 columns of every row, the row's own
    feature in the last 64. -/
theorem res45_eq :
    res45 (st_g (st_h3 (st_q (st_pf a0 (st_flow hm a8 a9 a10 a11) a12 a13) a14 a15) a16 a17))
        (st_pf a0 (st_flow hm a8 a9 a10 a11) a12 a13)
      = Cert.Spec.out1 Hs a8 a9 a10 a11 a0 a12 a13 a14 a15 a16 a17 := by
  obtain rfl : Hs = fun n c => hm (ix3 0 n c) := funext fun n => funext fun c => (hH n c).symm
  funext i
  obtain ⟨u, n, k, rfl⟩ : ∃ (u : Fin 1) (n : Fin 1024) (k : Fin 1088), i = ix3 u n k := ⟨i 0, i 1, i 2, eq_ix3 i⟩
  obtain rfl : u = 0 := Subsingleton.elim _ _
  by_cases hk : k.val < 1024
  · have hR : Cert.Spec.out1 (fun n c => hm (ix3 0 n c)) a8 a9 a10 a11 a0 a12 a13 a14 a15 a16 a17 (ix3 0 n k)
        = Cert.Spec.gfeat (fun n c => hm (ix3 0 n c)) a8 a9 a10 a11 a0 a12 a13 a14 a15 a16 a17 ⟨k.val, hk⟩ := dif_pos hk
    rw [hR]
    unfold res45
    refine (concatenate_pair_apply_left (2 : Fin S1x1024x1088.rank) _ _
      concatenates_S1x1024x1024_S1x1024x64_S1x1024x1088_d2 (ix3 0 n k) rfl
      (ix3 (0 : Fin 1) n (⟨k.val, hk⟩ : Fin 1024)) fun b => ?_).trans ?_
    · match b with
      | ⟨0, _⟩ => rfl
      | ⟨1, _⟩ => rfl
      | ⟨2, _⟩ => rfl
    refine (broadcastInDim_apply _ bcast_S1x1x1024_S1x1024x1024_0_1_2 _ _
      (ix3 (0 : Fin 1) (0 : Fin 1) (⟨k.val, hk⟩ : Fin 1024)) fun a => ?_).trans ?_
    · match a with
      | ⟨0, _⟩ => rfl
      | ⟨1, _⟩ => rfl
      | ⟨2, _⟩ => rfl
    refine (broadcastInDim_apply _ bcast_S1x1024_S1x1x1024_0_2 _ _
      (ix2 (0 : Fin 1) (⟨k.val, hk⟩ : Fin 1024)) fun a => ?_).trans ?_
    · match a with
      | ⟨0, _⟩ => rfl
      | ⟨1, _⟩ => rfl
    exact gfeat_apply hm a0 a8 a9 a10 a11 a12 a13 a14 a15 a16 a17 ⟨k.val, hk⟩
  · have hlt : k.val - 1024 < 64 := by have := k.isLt; omega
    have hR : Cert.Spec.out1 (fun n c => hm (ix3 0 n c)) a8 a9 a10 a11 a0 a12 a13 a14 a15 a16 a17 (ix3 0 n k)
        = Cert.Spec.pf (fun n c => hm (ix3 0 n c)) a8 a9 a10 a11 a0 a12 a13 n ⟨k.val - 1024, hlt⟩ := dif_neg hk
    rw [hR]
    unfold res45
    refine (concatenate_pair_apply_right (2 : Fin S1x1024x1088.rank) _ _
      concatenates_S1x1024x1024_S1x1024x64_S1x1024x1088_d2 (ix3 0 n k) rfl rfl
      (ix3 (0 : Fin 1) n (⟨k.val - 1024, hlt⟩ : Fin 64)) (fun b hb => ?_) ?_).trans ?_
    · match b with
      | ⟨0, _⟩ => rfl
      | ⟨1, _⟩ => rfl
      | ⟨2, _⟩ => exact absurd rfl hb
    · show k.val - 1024 + 1024 = k.val
      omega
    exact pf_apply hm a0 a8 a9 a10 a11 a12 a13 n ⟨k.val - 1024, hlt⟩

end Results

end Cert.RefStages

end
-- ==== Proof.RefRun.lean ====
/-
  The reference program's run.  Its @main is a straight line of 59 host operations; every weakly fair execution
  terminates with each buffer at the fold of the operations' results over the launch contents.  Read stage by stage
  (each stage a pure function of the buffer before it and of argument arrays: the two pairwise activations, their pool
  over the first point of the pair, the flow, the three per-point layers, the pool over the points), the two result
  buffers are the stages' compositions applied to the argument arrays at launch:

    res46 = the transpose of the flow;   res45 = [the pooled per-point feature, broadcast over the points | the per-point feature].

  The two concatenations are spelt in the operation list by named two-argument functions, so that a buffer's contents
  standing as an operand of a concatenation is an ordinary function argument.
-/
import proofs.«141513_j49228915147505_1_alg».proof.Proof.Gen.ReferenceIdeal
import proofs.«141513_j49228915147505_1_alg».proof.Proof.RefStages
import proofs.«141513_j49228915147505_1_alg».proof.Proof.RefStagesB
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- Two [1, 1024, 1024, 64] arrays joined along the last axis. -/
def cat3 (x y : (⟨S1x1024x1024x64, .f32⟩ : BufTy).Contents (Elt F)) : (⟨S1x1024x1024x128, .f32⟩ : BufTy).Contents (Elt F) :=
  concatenate S1x1024x1024x128 3 [⟨S1x1024x1024x64, x⟩, ⟨S1x1024x1024x64, y⟩] concatenates_S1x1024x1024x64_S1x1024x1024x64_S1x1024x1024x128_d3

/-- A [1, 1024, 1024] and a [1, 1024, 64] array joined along the last axis. -/
def cat2 (g : (⟨S1x1024x1024, .f32⟩ : BufTy).Contents (Elt F)) (p : (⟨S1x1024x64, .f32⟩ : BufTy).Contents (Elt F)) : (⟨S1x1024x1088, .f32⟩ : BufTy).Contents (Elt F) :=
  concatenate S1x1024x1088 2 [⟨S1x1024x1024, g⟩, ⟨S1x1024x64, p⟩] concatenates_S1x1024x1024_S1x1024x64_S1x1024x1088_d2

/-- @main's 59 operations, in order (a called function's operations stand in its call's place). -/
abbrev ops : List (HloOp τ sig (Elt F)) :=
  [ unary main_arg2 main_v0 ((transpose S1x1024x64 [0, 2, 1] · transposes_S1x64x1024_S1x1024x64_0_2_1) : (⟨S1x64x1024, .f32⟩ : BufTy).Contents (Elt F) → (⟨S1x1024x64, .f32⟩ : BufTy).Contents (Elt F)),
    unary main_arg3 main_v1 ((transpose S1x1024x64 [0, 2, 1] · transposes_S1x64x1024_S1x1024x64_0_2_1) : (⟨S1x64x1024, .f32⟩ : BufTy).Contents (Elt F) → (⟨S1x1024x64, .f32⟩ : BufTy).Contents (Elt F)),
    unary main_v0 main_v2 (broadcastInDim S1x1024x1x64 ![0, 1, 3] bcast_S1x1024x64_S1x1024x1x64_0_1_3 : (⟨S1x1024x64, .f32⟩ : BufTy).Contents (Elt F) → (⟨S1x1024x1x64, .f32⟩ : BufTy).Contents (Elt F)),
    unary main_v2 main_v3 (broadcastInDim S1x1024x1024x64 ![0, 1, 2, 3] bcast_S1x1024x1x64_S1x1024x1024x64_0_1_2_3 : (⟨S1x1024x1x64, .f32⟩ : BufTy).Contents (Elt F) → (⟨S1x1024x1024x64, .f32⟩ : BufTy).Contents (Elt F)),
    unary main_v1 main_v4 (broadcastInDim S1x1x1024x64 ![0, 2, 3] bcast_S1x1024x64_S1x1x1024x64_0_2_3 : (⟨S1x1024x64, .f32⟩ : BufTy).Contents (Elt F) → (⟨S1x1x1024x64, .f32⟩ : BufTy).Contents (Elt F)),
    unary main_v4 main_v5 (broadcastInDim S1x1024x1024x64 ![0, 1, 2, 3] bcast_S1x1x1024x64_S1x1024x1024x64_0_1_2_3 : (⟨S1x1x1024x64, .f32⟩ : BufTy).Contents (Elt F) → (⟨S1x1024x1024x64, .f32⟩ : BufTy).Contents (Elt F)),
    binary main_v3 main_v5 main_v6 (cat3 : (⟨S1x1024x1024x64, .f32⟩ : BufTy).Contents (Elt F) → (⟨S1x1024x1024x64, .f32⟩ : BufTy).Contents (Elt F) → (⟨S1x1024x1024x128, .f32⟩ : BufTy).Contents (Elt F)),
    binary main_v6 main_arg4 main_v7 ((fun l r => Host.dotGeneral dot_S1x1024x1024x128_S64x128_S1x1024x1024x64_3_1_012_0_n_n none l r) : (⟨S1x1024x1024x128, .f32⟩ : BufTy).Contents (Elt F) → (⟨S64x128, .f32⟩ : BufTy).Contents (Elt F) → (⟨S1x1024x1024x64, .f32⟩ : BufTy).Contents (Elt F)),
    unary main_arg5 main_v8 (broadcastInDim S1x1x1x64 ![3] bcast_S64_S1x1x1x64_3 : (⟨S64, .f32⟩ : BufTy).Contents (Elt F) → (⟨S1x1x1x64, .f32⟩ : BufTy).Contents (Elt F)),
    unary main_v8 main_v9 (broadcastInDim S1x1024x1024x64 ![0, 1, 2, 3] bcast_S1x1x1x64_S1x1024x1024x64_0_1_2_3 : (⟨S1x1x1x64, .f32⟩ : BufTy).Contents (Elt F) → (⟨S1x1024x1024x64, .f32⟩ : BufTy).Contents (Elt F)),
    binary main_v7 main_v9 main_v10 (addf : (⟨S1x1024x1024x64, .f32⟩ : BufTy).Contents (Elt F) → (⟨S1x1024x1024x64, .f32⟩ : BufTy).Contents (Elt F) → (⟨S1x1024x1024x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024x1024x64, .f32⟩) main_call0_v0) (broadcastInDim S1x1024x1024x64 ![] bcast_S_S1x1024x1024x64),
    TRef.binary (TRef.of (T := ⟨S1x1024x1024x64, .f32⟩) main_v10) (TRef.of (T := ⟨S1x1024x1024x64, .f32⟩) main_call0_v0) (TRef.of (T := ⟨S1x1024x1024x64, .f32⟩) main_v11) maximumf,
    binary main_v11 main_arg6 main_v12 ((fun l r => Host.dotGeneral dot_S1x1024x1024x64_S64x64_S1x1024x1024x64_3_1_012_0_n_n none l r) : (⟨S1x1024x1024x64, .f32⟩ : BufTy).Contents (Elt F) → (⟨S64x64, .f32⟩ : BufTy).Contents (Elt F) → (⟨S1x1024x1024x64, .f32⟩ : BufTy).Contents (Elt F)),
    unary main_arg7 main_v13 (broadcastInDim S1x1x1x64 ![3] bcast_S64_S1x1x1x64_3 : (⟨S64, .f32⟩ : BufTy).Contents (Elt F) → (⟨S1x1x1x64, .f32⟩ : BufTy).Contents (Elt F)),
    unary main_v13 main_v14 (broadcastInDim S1x1024x1024x64 ![0, 1, 2, 3] bcast_S1x1x1x64_S1x1024x1024x64_0_1_2_3 : (⟨S1x1x1x64, .f32⟩ : BufTy).Contents (Elt F) → (⟨S1x1024x1024x64, .f32⟩ : BufTy).Contents (Elt F)),
    binary main_v12 main_v14 main_v15 (addf : (⟨S1x1024x1024x64, .f32⟩ : BufTy).Contents (Elt F) → (⟨S1x1024x1024x64, .f32⟩ : BufTy).Contents (Elt F) → (⟨S1x1024x1024x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1x1024x1024x64, .f32⟩) main_call1_v0) (broadcastInDim S1x1024x1024x64 ![] bcast_S_S1x1024x1024x64),
    TRef.binary (TRef.of (T := ⟨S1x1024x1024x64, .f32⟩) main_v15) (TRef.of (T := ⟨S1x1024x1024x64, .f32⟩) main_call1_v0) (TRef.of (T := ⟨S1x1024x1024x64, .f32⟩) main_v16) maximumf,
    nullary main_cst (constant S_ .f32 0xFF800000#32),
    binary main_v16 main_cst main_v17 ((fun x v => Host.reduce FloatOps.maximumf x v reducesTo_S1x1024x1024x64_S1x1024x64_d1 h_S_) : (⟨S1x1024x1024x64, .f32⟩ : BufTy).Contents (Elt F) → (⟨S_, .f32⟩ : BufTy).Contents (Elt F) → (⟨S1x1024x64, .f32⟩ : BufTy).Contents (Elt F)),
    binary main_v17 main_arg8 main_v18 ((fun l r => Host.dotGeneral dot_S1x1024x64_S64x64_S1x1024x64_2_1_01_0_n_n none l r) : (⟨S1x1024x64, .f32⟩ : BufTy).Contents (Elt F) → (⟨S64x64, .f32⟩ : BufTy).Contents (Elt F) → (⟨S1x1024x64, .f32⟩ : BufTy).Contents (Elt F)),
    unary main_arg9 main_v19 (broadcastInDim S1x1x64 ![2] bcast_S64_S1x1x64_2 : (⟨S64, .f32⟩ : BufTy).Contents (Elt F) → (⟨S1x1x64, .f32⟩ : BufTy).Contents (Elt F)),
    unary main_v19 main_v20 (broadcastInDim S1x1024x64 ![0, 1, 2] bcast_S1x1x64_S1x1024x64_0_1_2 : (⟨S1x1x64, .f32⟩ : BufTy).Contents (Elt F) → (⟨S1x1024x64, .f32⟩ : BufTy).Contents (Elt F)),
    binary main_v18 main_v20 main_v21 (addf : (⟨S1x1024x64, .f32⟩ : BufTy).Contents (Elt F) → (⟨S1x1024x64, .f32⟩ : BufTy).Contents (Elt F) → (⟨S1x1024x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1x1024x64, .f32⟩) main_call2_v0) (broadcastInDim S1x1024x64 ![] bcast_S_S1x1024x64),
    TRef.binary (TRef.of (T := ⟨S1x1024x64, .f32⟩) main_v21) (TRef.of (T := ⟨S1x1024x64, .f32⟩) main_call2_v0) (TRef.of (T := ⟨S1x1024x64, .f32⟩) main_v22) maximumf,
    binary main_v22 main_arg10 main_v23 ((fun l r => Host.dotGeneral dot_S1x1024x64_S3x64_S1x1024x3_2_1_01_0_n_n none l r) : (⟨S1x1024x64, .f32⟩ : BufTy).Contents (Elt F) → (⟨S3x64, .f32⟩ : BufTy).Contents (Elt F) → (⟨S1x1024x3, .f32⟩ : BufTy).Contents (Elt F)),
    unary main_arg11 main_v24 (broadcastInDim S1x1x3 ![2] bcast_S3_S1x1x3_2 : (⟨S3, .f32⟩ : BufTy).Contents (Elt F) → (⟨S1x1x3, .f32⟩ : BufTy).Contents (Elt F)),
    unary main_v24 main_v25 (broadcastInDim S1x1024x3 ![0, 1, 2] bcast_S1x1x3_S1x1024x3_0_1_2 : (⟨S1x1x3, .f32⟩ : BufTy).Contents (Elt F) → (⟨S1x1024x3, .f32⟩ : BufTy).Contents (Elt F)),
    binary main_v23 main_v25 main_v26 (addf : (⟨S1x1024x3, .f32⟩ : BufTy).Contents (Elt F) → (⟨S1x1024x3, .f32⟩ : BufTy).Contents (Elt F) → (⟨S1x1024x3, .f32⟩ : BufTy).Contents (Elt F)),
    binary main_arg0 main_v26 main_v27 (addf : (⟨S1x1024x3, .f32⟩ : BufTy).Contents (Elt F) → (⟨S1x1024x3, .f32⟩ : BufTy).Contents (Elt F) → (⟨S1x1024x3, .f32⟩ : BufTy).Contents (Elt F)),
    binary main_v27 main_arg12 main_v28 ((fun l r => Host.dotGeneral dot_S1x1024x3_S64x3_S1x1024x64_2_1_01_0_n_n none l r) : (⟨S1x1024x3, .f32⟩ : BufTy).Contents (Elt F) → (⟨S64x3, .f32⟩ : BufTy).Contents (Elt F) → (⟨S1x1024x64, .f32⟩ : BufTy).Contents (Elt F)),
    unary main_arg13 main_v29 (broadcastInDim S1x1x64 ![2] bcast_S64_S1x1x64_2 : (⟨S64, .f32⟩ : BufTy).Contents (Elt F) → (⟨S1x1x64, .f32⟩ : BufTy).Contents (Elt F)),
    unary main_v29 main_v30 (broadcastInDim S1x1024x64 ![0, 1, 2] bcast_S1x1x64_S1x1024x64_0_1_2 : (⟨S1x1x64, .f32⟩ : BufTy).Contents (Elt F) → (⟨S1x1024x64, .f32⟩ : BufTy).Contents (Elt F)),
    binary main_v28 main_v30 main_v31 (addf : (⟨S1x1024x64, .f32⟩ : BufTy).Contents (Elt F) → (⟨S1x1024x64, .f32⟩ : BufTy).Contents (Elt F) → (⟨S1x1024x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1x1024x64, .f32⟩) main_call3_v0) (broadcastInDim S1x1024x64 ![] bcast_S_S1x1024x64),
    TRef.binary (TRef.of (T := ⟨S1x1024x64, .f32⟩) main_v31) (TRef.of (T := ⟨S1x1024x64, .f32⟩) main_call3_v0) (TRef.of (T := ⟨S1x1024x64, .f32⟩) main_v32) maximumf,
    binary main_v32 main_arg14 main_v33 ((fun l r => Host.dotGeneral dot_S1x1024x64_S128x64_S1x1024x128_2_1_01_0_n_n none l r) : (⟨S1x1024x64, .f32⟩ : BufTy).Contents (Elt F) → (⟨S128x64, .f32⟩ : BufTy).Contents (Elt F) → (⟨S1x1024x128, .f32⟩ : BufTy).Contents (Elt F)),
    unary main_arg15 main_v34 (broadcastInDim S1x1x128 ![2] bcast_S128_S1x1x128_2 : (⟨S128, .f32⟩ : BufTy).Contents (Elt F) → (⟨S1x1x128, .f32⟩ : BufTy).Contents (Elt F)),
    unary main_v34 main_v35 (broadcastInDim S1x1024x128 ![0, 1, 2] bcast_S1x1x128_S1x1024x128_0_1_2 : (⟨S1x1x128, .f32⟩ : BufTy).Contents (Elt F) → (⟨S1x1024x128, .f32⟩ : BufTy).Contents (Elt F)),
    binary main_v33 main_v35 main_v36 (addf : (⟨S1x1024x128, .f32⟩ : BufTy).Contents (Elt F) → (⟨S1x1024x128, .f32⟩ : BufTy).Contents (Elt F) → (⟨S1x1024x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1x1024x128, .f32⟩) main_call4_v0) (broadcastInDim S1x1024x128 ![] bcast_S_S1x1024x128),
    TRef.binary (TRef.of (T := ⟨S1x1024x128, .f32⟩) main_v36) (TRef.of (T := ⟨S1x1024x128, .f32⟩) main_call4_v0) (TRef.of (T := ⟨S1x1024x128, .f32⟩) main_v37) maximumf,
    binary main_v37 main_arg16 main_v38 ((fun l r => Host.dotGeneral dot_S1x1024x128_S1024x128_S1x1024x1024_2_1_01_0_n_n none l r) : (⟨S1x1024x128, .f32⟩ : BufTy).Contents (Elt F) → (⟨S1024x128, .f32⟩ : BufTy).Contents (Elt F) → (⟨S1x1024x1024, .f32⟩ : BufTy).Contents (Elt F)),
    unary main_arg17 main_v39 (broadcastInDim S1x1x1024 ![2] bcast_S1024_S1x1x1024_2 : (⟨S1024, .f32⟩ : BufTy).Contents (Elt F) → (⟨S1x1x1024, .f32⟩ : BufTy).Contents (Elt F)),
    unary main_v39 main_v40 (broadcastInDim S1x1024x1024 ![0, 1, 2] bcast_S1x1x1024_S1x1024x1024_0_1_2 : (⟨S1x1x1024, .f32⟩ : BufTy).Contents (Elt F) → (⟨S1x1024x1024, .f32⟩ : BufTy).Contents (Elt F)),
    binary main_v38 main_v40 main_v41 (addf : (⟨S1x1024x1024, .f32⟩ : BufTy).Contents (Elt F) → (⟨S1x1024x1024, .f32⟩ : BufTy).Contents (Elt F) → (⟨S1x1024x1024, .f32⟩ : BufTy).Contents (Elt F)),
    nullary main_cst_0 (constant S_ .f32 0xFF800000#32),
    binary main_v41 main_cst_0 main_v42 ((fun x v => Host.reduce FloatOps.maximumf x v reducesTo_S1x1024x1024_S1x1024_d1 h_S_) : (⟨S1x1024x1024, .f32⟩ : BufTy).Contents (Elt F) → (⟨S_, .f32⟩ : BufTy).Contents (Elt F) → (⟨S1x1024, .f32⟩ : BufTy).Contents (Elt F)),
    unary main_v42 main_v43 (broadcastInDim S1x1x1024 ![0, 2] bcast_S1x1024_S1x1x1024_0_2 : (⟨S1x1024, .f32⟩ : BufTy).Contents (Elt F) → (⟨S1x1x1024, .f32⟩ : BufTy).Contents (Elt F)),
    unary main_v43 main_v44 (broadcastInDim S1x1024x1024 ![0, 1, 2] bcast_S1x1x1024_S1x1024x1024_0_1_2 : (⟨S1x1x1024, .f32⟩ : BufTy).Contents (Elt F) → (⟨S1x1024x1024, .f32⟩ : BufTy).Contents (Elt F)),
    binary main_v44 main_v32 main_v45 (cat2 : (⟨S1x1024x1024, .f32⟩ : BufTy).Contents (Elt F) → (⟨S1x1024x64, .f32⟩ : BufTy).Contents (Elt F) → (⟨S1x1024x1088, .f32⟩ : BufTy).Contents (Elt F)),
    unary main_v26 main_v46 ((transpose S1x3x1024 [0, 2, 1] · transposes_S1x1024x3_S1x3x1024_0_2_1) : (⟨S1x1024x3, .f32⟩ : BufTy).Contents (Elt F) → (⟨S1x3x1024, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., unary_bufs_sub .., binary_bufs_sub .., unary_bufs_sub ..⟩

/-! ## The buffers after the operations, stage by stage -/

section Reads

variable (V : Valuation τ sig (Elt F))

set_option maxRecDepth 8192 in
set_option maxHeartbeats 2000000 in
/-- The first pairwise activation, of the launch contents of the four arrays it reads. -/
theorem rd_v11 : after ops V (Proc.devRef .tc main_v11) = RefStages.st_h1 (V (Proc.devRef .tc main_arg2)) (V (Proc.devRef .tc main_arg3)) (V (Proc.devRef .tc main_arg4)) (V (Proc.devRef .tc main_arg5)) := by
  after_results_simp <;> rfl

set_option maxRecDepth 8192 in
set_option maxHeartbeats 2000000 in
/-- The second pairwise activation, of the first. -/
theorem rd_v16 : after ops V (Proc.devRef .tc main_v16) = RefStages.st_h2 (after ops V (Proc.devRef .tc main_v11)) (V (Proc.devRef .tc main_arg6)) (V (Proc.devRef .tc main_arg7)) := by
  after_results_simp <;> rfl

set_option maxRecDepth 8192 in
set_option maxHeartbeats 2000000 in
/-- The pooled pairwise feature. -/
theorem rd_v17 : after ops V (Proc.devRef .tc main_v17) = RefStages.st_hmax (after ops V (Proc.devRef .tc main_v16)) := by
  after_results_simp <;> rfl

set_option maxRecDepth 8192 in
set_option maxHeartbeats 2000000 in
/-- The flow, of the pooled feature. -/
theorem rd_v26 : after ops V (Proc.devRef .tc main_v26) = RefStages.st_flow (after ops V (Proc.devRef .tc main_v17)) (V (Proc.devRef .tc main_arg8)) (V (Proc.devRef .tc main_arg9)) (V (Proc.devRef .tc main_arg10)) (V (Proc.devRef .tc main_arg11)) := by
  after_results_simp <;> rfl

set_option maxRecDepth 8192 in
set_option maxHeartbeats 2000000 in
/-- The per-point feature, of the flow. -/
theorem rd_v32 : after ops V (Proc.devRef .tc main_v32) = RefStages.st_pf (V (Proc.devRef .tc main_arg0)) (after ops V (Proc.devRef .tc main_v26)) (V (Proc.devRef .tc main_arg12)) (V (Proc.devRef .tc main_arg13)) := by
  after_results_simp <;> rfl

set_option maxRecDepth 8192 in
set_option maxHeartbeats 2000000 in
/-- The second per-point layer. -/
theorem rd_v37 : after ops V (Proc.devRef .tc main_v37) = RefStages.st_q (after ops V (Proc.devRef .tc main_v32)) (V (Proc.devRef .tc main_arg14)) (V (Proc.devRef .tc main_arg15)) := by
  after_results_simp <;> rfl

set_option maxRecDepth 8192 in
set_option maxHeartbeats 2000000 in
/-- The third per-point layer. -/
theorem rd_v41 : after ops V (Proc.devRef .tc main_v41) = RefStages.st_h3 (after ops V (Proc.devRef .tc main_v37)) (V (Proc.devRef .tc main_arg16)) (V (Proc.devRef .tc main_arg17)) := by
  after_results_simp <;> rfl

set_option maxRecDepth 8192 in
set_option maxHeartbeats 2000000 in
/-- The pool over the points. -/
theorem rd_v42 : after ops V (Proc.devRef .tc main_v42) = RefStages.st_g (after ops V (Proc.devRef .tc main_v41)) := by
  after_results_simp <;> rfl

set_option maxRecDepth 8192 in
set_option maxHeartbeats 2000000 in
/-- The second result, of the pool and the per-point feature. -/
theorem rd_v45 : after ops V (Proc.devRef .tc main_v45) = RefStages.res45 (after ops V (Proc.devRef .tc main_v42)) (after ops V (Proc.devRef .tc main_v32)) := by
  after_results_simp <;> rfl

set_option maxRecDepth 8192 in
set_option maxHeartbeats 2000000 in
/-- The first result, of the flow. -/
theorem rd_v46 : after ops V (Proc.devRef .tc main_v46) = RefStages.res46 (after ops V (Proc.devRef .tc main_v26)) := by
  after_results_simp <;> rfl

set_option maxRecDepth 8192 in
/-- No operation writes argument 0. -/
theorem rd_arg0 : after ops V (Proc.devRef .tc main_arg0) = V (Proc.devRef .tc main_arg0) := by
  after_results_simp <;> rfl

set_option maxRecDepth 8192 in
/-- No operation writes argument 1. -/
theorem rd_arg1 : after ops V (Proc.devRef .tc main_arg1) = V (Proc.devRef .tc main_arg1) := by
  after_results_simp <;> rfl

set_option maxRecDepth 8192 in
/-- No operation writes argument 2. -/
theorem rd_arg2 : after ops V (Proc.devRef .tc main_arg2) = V (Proc.devRef .tc main_arg2) := by
  after_results_simp <;> rfl

set_option maxRecDepth 8192 in
/-- No operation writes argument 3. -/
theorem rd_arg3 : after ops V (Proc.devRef .tc main_arg3) = V (Proc.devRef .tc main_arg3) := by
  after_results_simp <;> rfl

set_option maxRecDepth 8192 in
/-- No operation writes argument 4. -/
theorem rd_arg4 : after ops V (Proc.devRef .tc main_arg4) = V (Proc.devRef .tc main_arg4) := by
  after_results_simp <;> rfl

set_option maxRecDepth 8192 in
/-- No operation writes argument 5. -/
theorem rd_arg5 : after ops V (Proc.devRef .tc main_arg5) = V (Proc.devRef .tc main_arg5) := by
  after_results_simp <;> rfl

set_option maxRecDepth 8192 in
/-- No operation writes argument 6. -/
theorem rd_arg6 : after ops V (Proc.devRef .tc main_arg6) = V (Proc.devRef .tc main_arg6) := by
  after_results_simp <;> rfl

set_option maxRecDepth 8192 in
/-- No operation writes argument 7. -/
theorem rd_arg7 : after ops V (Proc.devRef .tc main_arg7) = V (Proc.devRef .tc main_arg7) := by
  after_results_simp <;> rfl

set_option maxRecDepth 8192 in
/-- No operation writes argument 8. -/
theorem rd_arg8 : after ops V (Proc.devRef .tc main_arg8) = V (Proc.devRef .tc main_arg8) := by
  after_results_simp <;> rfl

set_option maxRecDepth 8192 in
/-- No operation writes argument 9. -/
theorem rd_arg9 : after ops V (Proc.devRef .tc main_arg9) = V (Proc.devRef .tc main_arg9) := by
  after_results_simp <;> rfl

set_option maxRecDepth 8192 in
/-- No operation writes argument 10. -/
theorem rd_arg10 : after ops V (Proc.devRef .tc main_arg10) = V (Proc.devRef .tc main_arg10) := by
  after_results_simp <;> rfl

set_option maxRecDepth 8192 in
/-- No operation writes argument 11. -/
theorem rd_arg11 : after ops V (Proc.devRef .tc main_arg11) = V (Proc.devRef .tc main_arg11) := by
  after_results_simp <;> rfl

set_option maxRecDepth 8192 in
/-- No operation writes argument 12. -/
theorem rd_arg12 : after ops V (Proc.devRef .tc main_arg12) = V (Proc.devRef .tc main_arg12) := by
  after_results_simp <;> rfl

set_option maxRecDepth 8192 in
/-- No operation writes argument 13. -/
theorem rd_arg13 : after ops V (Proc.devRef .tc main_arg13) = V (Proc.devRef .tc main_arg13) := by
  after_results_simp <;> rfl

set_option maxRecDepth 8192 in
/-- No operation writes argument 14. -/
theorem rd_arg14 : after ops V (Proc.devRef .tc main_arg14) = V (Proc.devRef .tc main_arg14) := by
  after_results_simp <;> rfl

set_option maxRecDepth 8192 in
/-- No operation writes argument 15. -/
theorem rd_arg15 : after ops V (Proc.devRef .tc main_arg15) = V (Proc.devRef .tc main_arg15) := by
  after_results_simp <;> rfl

set_option maxRecDepth 8192 in
/-- No operation writes argument 16. -/
theorem rd_arg16 : after ops V (Proc.devRef .tc main_arg16) = V (Proc.devRef .tc main_arg16) := by
  after_results_simp <;> rfl

set_option maxRecDepth 8192 in
/-- No operation writes argument 17. -/
theorem rd_arg17 : after ops V (Proc.devRef .tc main_arg17) = V (Proc.devRef .tc main_arg17) := by
  after_results_simp <;> rfl

end Reads

/-! ## The two results, of the argument arrays -/

section Results

variable (V : Valuation τ sig (Elt F))

/-- The flow, of the launch contents. -/
theorem rd_flow : after ops V (Proc.devRef .tc main_v26) = RefStages.st_flow (RefStages.hmaxOf (V (Proc.devRef .tc main_arg2)) (V (Proc.devRef .tc main_arg3)) (V (Proc.devRef .tc main_arg4)) (V (Proc.devRef .tc main_arg5)) (V (Proc.devRef .tc main_arg6)) (V (Proc.devRef .tc main_arg7))) (V (Proc.devRef .tc main_arg8)) (V (Proc.devRef .tc main_arg9)) (V (Proc.devRef .tc main_arg10)) (V (Proc.devRef .tc main_arg11)) := by
  rw [rd_v26, rd_v17, rd_v16, rd_v11]; rfl

/-- The per-point feature, of the launch contents. -/
theorem rd_pf : after ops V (Proc.devRef .tc main_v32) = RefStages.st_pf (V (Proc.devRef .tc main_arg0)) (RefStages.st_flow (RefStages.hmaxOf (V (Proc.devRef .tc main_arg2)) (V (Proc.devRef .tc main_arg3)) (V (Proc.devRef .tc main_arg4)) (V (Proc.devRef .tc main_arg5)) (V (Proc.devRef .tc main_arg6)) (V (Proc.devRef .tc main_arg7))) (V (Proc.devRef .tc main_arg8)) (V (Proc.devRef .tc main_arg9)) (V (Proc.devRef .tc main_arg10)) (V (Proc.devRef .tc main_arg11))) (V (Proc.devRef .tc main_arg12)) (V (Proc.devRef .tc main_arg13)) := by
  rw [rd_v32, rd_flow]

/-- The first result, of the launch contents. -/
theorem rd_out0 : after ops V (Proc.devRef .tc main_v46) = RefStages.res46 (RefStages.st_flow (RefStages.hmaxOf (V (Proc.devRef .tc main_arg2)) (V (Proc.devRef .tc main_arg3)) (V (Proc.devRef .tc main_arg4)) (V (Proc.devRef .tc main_arg5)) (V (Proc.devRef .tc main_arg6)) (V (Proc.devRef .tc main_arg7))) (V (Proc.devRef .tc main_arg8)) (V (Proc.devRef .tc main_arg9)) (V (Proc.devRef .tc main_arg10)) (V (Proc.devRef .tc main_arg11))) := by
  rw [rd_v46, rd_flow]

/-- The second result, of the launch contents. -/
theorem rd_out1 : after ops V (Proc.devRef .tc main_v45) = RefStages.res45 (RefStages.st_g (RefStages.st_h3 (RefStages.st_q (RefStages.st_pf (V (Proc.devRef .tc main_arg0)) (RefStages.st_flow (RefStages.hmaxOf (V (Proc.devRef .tc main_arg2)) (V (Proc.devRef .tc main_arg3)) (V (Proc.devRef .tc main_arg4)) (V (Proc.devRef .tc main_arg5)) (V (Proc.devRef .tc main_arg6)) (V (Proc.devRef .tc main_arg7))) (V (Proc.devRef .tc main_arg8)) (V (Proc.devRef .tc main_arg9)) (V (Proc.devRef .tc main_arg10)) (V (Proc.devRef .tc main_arg11))) (V (Proc.devRef .tc main_arg12)) (V (Proc.devRef .tc main_arg13))) (V (Proc.devRef .tc main_arg14)) (V (Proc.devRef .tc main_arg15))) (V (Proc.devRef .tc main_arg16)) (V (Proc.devRef .tc main_arg17)))) (RefStages.st_pf (V (Proc.devRef .tc main_arg0)) (RefStages.st_flow (RefStages.hmaxOf (V (Proc.devRef .tc main_arg2)) (V (Proc.devRef .tc main_arg3)) (V (Proc.devRef .tc main_arg4)) (V (Proc.devRef .tc main_arg5)) (V (Proc.devRef .tc main_arg6)) (V (Proc.devRef .tc main_arg7))) (V (Proc.devRef .tc main_arg8)) (V (Proc.devRef .tc main_arg9)) (V (Proc.devRef .tc main_arg10)) (V (Proc.devRef .tc main_arg11))) (V (Proc.devRef .tc main_arg12)) (V (Proc.devRef .tc main_arg13))) := by
  rw [rd_v45, rd_v42, rd_v41, rd_v37, rd_pf]

end Results

/-- The first result, [1, 3, 1024]: the flow, channel-major, of the argument arrays at launch. -/
def res46 (m : (ℓ : Loc nD τ sig) → Buf (Elt F) ℓ) (c : Dev nD) : Buf (Elt F) ((c.tc : Thread nD τ).loc main_v46) :=
  RefStages.res46 (RefStages.st_flow (RefStages.hmaxOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11)))

/-- The second result, [1, 1024, 1088]: the pooled feature beside each point's own feature, of the argument arrays at launch. -/
def res45 (m : (ℓ : Loc nD τ sig) → Buf (Elt F) ℓ) (c : Dev nD) : Buf (Elt F) ((c.tc : Thread nD τ).loc main_v45) :=
  RefStages.res45 (RefStages.st_g (RefStages.st_h3 (RefStages.st_q (RefStages.st_pf (m ((c.tc : Thread nD τ).loc main_arg0)) (RefStages.st_flow (RefStages.hmaxOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg12)) (m ((c.tc : Thread nD τ).loc main_arg13))) (m ((c.tc : Thread nD τ).loc main_arg14)) (m ((c.tc : Thread nD τ).loc main_arg15))) (m ((c.tc : Thread nD τ).loc main_arg16)) (m ((c.tc : Thread nD τ).loc main_arg17)))) (RefStages.st_pf (m ((c.tc : Thread nD τ).loc main_arg0)) (RefStages.st_flow (RefStages.hmaxOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg12)) (m ((c.tc : Thread nD τ).loc main_arg13)))

/-- On every device, for any float values, from any memory with zero counters: every weakly fair execution of @main
    terminates with the two results at their stated terms of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = res46 m c
      ∧ r.2.mem ((c.tc : Thread nD τ).loc main_v45) = res45 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v46).trans (rd_out0 _), (h c main_v45).trans (rd_out1 _),
      (h c main_arg0).trans (rd_arg0 _),
      (h c main_arg1).trans (rd_arg1 _),
      (h c main_arg2).trans (rd_arg2 _),
      (h c main_arg3).trans (rd_arg3 _),
      (h c main_arg4).trans (rd_arg4 _),
      (h c main_arg5).trans (rd_arg5 _),
      (h c main_arg6).trans (rd_arg6 _),
      (h c main_arg7).trans (rd_arg7 _),
      (h c main_arg8).trans (rd_arg8 _),
      (h c main_arg9).trans (rd_arg9 _),
      (h c main_arg10).trans (rd_arg10 _),
      (h c main_arg11).trans (rd_arg11 _),
      (h c main_arg12).trans (rd_arg12 _),
      (h c main_arg13).trans (rd_arg13 _),
      (h c main_arg14).trans (rd_arg14 _),
      (h c main_arg15).trans (rd_arg15 _),
      (h c main_arg16).trans (rd_arg16 _),
      (h c main_arg17).trans (rd_arg17 _)⟩)
    (run_seq scopedRefs_eq scopedSems_eq defs main (fun _ => ops) main_eq (fun _ => ops_sub) m ρ)

end Cert.RefRun

end
-- ==== Proof.RefValue.lean ====
/-
  The reference's two results, as its run states them over the argument arrays at launch, are the specification's
  out0 and out1 of those arrays: the pooled pairwise feature is the specification's hmax, and the per-point stages read
  over it are the flow, the per-point feature and the global feature.
-/
import proofs.«141513_j49228915147505_1_alg».proof.Proof.RefRun

noncomputable section

namespace Cert.RefValue

open Cert.ReferenceIdeal Cert.ReferenceIdeal.Gen Idealize.ShloMosaic Idealize.ShloMosaic.TcCoe Idealize.SL.Sem
open Idealize.ShloMosaic.ValueIdx
open Cert.Spec (A1 A2 A3)

variable (m : (ℓ : Loc nD τ sig) → Buf (Elt Ideal) ℓ) (c : Dev nD)

/-! ## The argument arrays at launch, typed as the specification's arrays -/

/-- The point cloud, [1, 1024, 3]. -/
abbrev r0 : A3 1 1024 3 := m ((c.tc : Thread nD τ).loc main_arg0)
/-- The two per-point feature arrays, [1, 64, 1024]. -/
abbrev r2 : A3 1 64 1024 := m ((c.tc : Thread nD τ).loc main_arg2)
abbrev r3 : A3 1 64 1024 := m ((c.tc : Thread nD τ).loc main_arg3)
/-- The pairwise MLP's weights and biases. -/
abbrev r4 : A2 64 128 := m ((c.tc : Thread nD τ).loc main_arg4)
abbrev r5 : A1 64 := m ((c.tc : Thread nD τ).loc main_arg5)
abbrev r6 : A2 64 64 := m ((c.tc : Thread nD τ).loc main_arg6)
abbrev r7 : A1 64 := m ((c.tc : Thread nD τ).loc main_arg7)
/-- The flow MLP's. -/
abbrev r8 : A2 64 64 := m ((c.tc : Thread nD τ).loc main_arg8)
abbrev r9 : A1 64 := m ((c.tc : Thread nD τ).loc main_arg9)
abbrev r10 : A2 3 64 := m ((c.tc : Thread nD τ).loc main_arg10)
abbrev r11 : A1 3 := m ((c.tc : Thread nD τ).loc main_arg11)
/-- The per-point MLP's. -/
abbrev r12 : A2 64 3 := m ((c.tc : Thread nD τ).loc main_arg12)
abbrev r13 : A1 64 := m ((c.tc : Thread nD τ).loc main_arg13)
abbrev r14 : A2 128 64 := m ((c.tc : Thread nD τ).loc main_arg14)
abbrev r15 : A1 128 := m ((c.tc : Thread nD τ).loc main_arg15)
abbrev r16 : A2 1024 128 := m ((c.tc : Thread nD τ).loc main_arg16)
abbrev r17 : A1 1024 := m ((c.tc : Thread nD τ).loc main_arg17)

/-! ## The two results -/

/-- The first result is the specification's out0 over the pooled pairwise feature. -/
theorem res46_value :
    Cert.RefRun.res46 m c
      = Cert.Spec.out0 (Cert.Spec.hmax (r2 m c) (r3 m c) (r4 m c) (r5 m c) (r6 m c) (r7 m c)) (r8 m c) (r9 m c) (r10 m c)
          (r11 m c) := by
  unfold Cert.RefRun.res46
  exact Cert.RefStages.res46_eq _ _ _ _ _ _ (Cert.RefStages.hmaxOf_apply _ _ _ _ _ _)

/-- The second result is the specification's out1. -/
theorem res45_value :
    Cert.RefRun.res45 m c
      = Cert.Spec.out1 (Cert.Spec.hmax (r2 m c) (r3 m c) (r4 m c) (r5 m c) (r6 m c) (r7 m c)) (r8 m c) (r9 m c) (r10 m c)
          (r11 m c) (r0 m c) (r12 m c) (r13 m c) (r14 m c) (r15 m c) (r16 m c) (r17 m c) := by
  unfold Cert.RefRun.res45
  exact Cert.RefStages.res45_eq _ _ _ _ _ _ _ _ _ _ _ _ _ (Cert.RefStages.hmaxOf_apply _ _ _ _ _ _)

end Cert.RefValue

end
-- ==== Proof.lean ====
/-
  The certificate's claim. Both kernel programs — the word-level one and its idealization, the same text read at two
  instances — run to the end from any memory and leave their arguments unchanged: the two kernel regions and the host
  operations around them are composed item by item, each region's body proved at every grid point (the pairwise region
  carries a running maximum in a scratch buffer across the inner grid axis and writes it out at the axis's last point). The
  reference's run is read off its list of host operations. The idealization ledger is empty. At the extended reals, from
  memories that agree on the arguments, both programs end with the same two results: the flow
  ∑_c m(n, c)·W21(d, c) + b21(d), channel-major, and the matrix holding the global feature max_n h3(n, ·) in each row's first
  1024 columns and the row's own feature after it — the kernel's tiled pairwise layer (two half-width products added, a maximum
  accumulated tile by tile) and the reference's concatenated one (one full-width product, one maximum over all points) being
  the same sums and the same maxima.
-/
import proofs.«141513_j49228915147505_1_alg».proof.Defs
import proofs.«141513_j49228915147505_1_alg».proof.Proof.Gen.Kernel
import proofs.«141513_j49228915147505_1_alg».proof.Proof.Gen.KernelIdeal
import proofs.«141513_j49228915147505_1_alg».proof.Proof.Gen.ReferenceIdeal
import proofs.«141513_j49228915147505_1_alg».proof.Proof.Gen.Pre_finite_inputs
import proofs.«141513_j49228915147505_1_alg».proof.Proof.K_Run
import proofs.«141513_j49228915147505_1_alg».proof.Proof.KI_Run
import proofs.«141513_j49228915147505_1_alg».proof.Proof.KI_Value
import proofs.«141513_j49228915147505_1_alg».proof.Proof.RefRun
import proofs.«141513_j49228915147505_1_alg».proof.Proof.RefValue
import Idealize.ShloMosaic.Adequacy
import Idealize.ShloMosaic.Init

set_option maxRecDepth 16384

noncomputable section

namespace Cert.Proof

open Idealize.ShloMosaic Idealize.SL.Sem

/-- The word-level kernel program runs and keeps its arguments. -/
theorem frame_k : @Cert.frame_Kernel Cert.Kernel.Gen.facts Cert.Pre_finite_inputs.Gen.facts :=
  fun m ρ _ => Cert.Kernel.Hand.frame (F := Bits) m ρ

/-- So does its idealization. -/
theorem frame_ki : @Cert.frame_KernelIdeal Cert.KernelIdeal.Gen.facts Cert.Pre_finite_inputs.Gen.facts :=
  fun m ρ _ => Cert.KernelIdeal.Hand.frame (F := Ideal) m ρ

/-- And the reference: its run with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.RefRun.run (F := Ideal) m ρ)

/-- The two idealized programs end with equal results: each side's results are the specification's functions of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.out0 (Cert.KernelIdeal.Hand.gH m c) (Cert.KernelIdeal.Hand.g8 m c) (Cert.KernelIdeal.Hand.g9 m c) (Cert.KernelIdeal.Hand.g10 m c) (Cert.KernelIdeal.Hand.g11 m c),
    fun c => Cert.Spec.out1 (Cert.KernelIdeal.Hand.gH m c) (Cert.KernelIdeal.Hand.g8 m c) (Cert.KernelIdeal.Hand.g9 m c) (Cert.KernelIdeal.Hand.g10 m c) (Cert.KernelIdeal.Hand.g11 m c) (Cert.KernelIdeal.Hand.g0 m c) (Cert.KernelIdeal.Hand.g12 m c) (Cert.KernelIdeal.Hand.g13 m c) (Cert.KernelIdeal.Hand.g14 m c) (Cert.KernelIdeal.Hand.g15 m c) (Cert.KernelIdeal.Hand.g16 m c) (Cert.KernelIdeal.Hand.g17 m c),
    ?_, ?_⟩
  · exact (θ_run Cert.KernelIdeal.defs _ _).mono (fun r h c =>
      ⟨(h c _ (Cert.KernelIdeal.Hand.mem_uc Cert.KernelIdeal.main_v17 (by decide))).trans (Cert.KernelIdeal.Hand.kernel_value0 m c),
        (h c _ (Cert.KernelIdeal.Hand.mem_uc Cert.KernelIdeal.main_v18 (by decide))).trans (Cert.KernelIdeal.Hand.kernel_value1 m c),
        (h c _ (Cert.KernelIdeal.Hand.mem_uc Cert.KernelIdeal.main_arg0 (by decide))).trans (Cert.KernelIdeal.Hand.B5_main_arg0 m c),
        (h c _ (Cert.KernelIdeal.Hand.mem_uc Cert.KernelIdeal.main_arg1 (by decide))).trans (Cert.KernelIdeal.Hand.B5_main_arg1 m c),
        (h c _ (Cert.KernelIdeal.Hand.mem_uc Cert.KernelIdeal.main_arg2 (by decide))).trans (Cert.KernelIdeal.Hand.B5_main_arg2 m c),
        (h c _ (Cert.KernelIdeal.Hand.mem_uc Cert.KernelIdeal.main_arg3 (by decide))).trans (Cert.KernelIdeal.Hand.B5_main_arg3 m c),
        (h c _ (Cert.KernelIdeal.Hand.mem_uc Cert.KernelIdeal.main_arg4 (by decide))).trans (Cert.KernelIdeal.Hand.B5_main_arg4 m c),
        (h c _ (Cert.KernelIdeal.Hand.mem_uc Cert.KernelIdeal.main_arg5 (by decide))).trans (Cert.KernelIdeal.Hand.B5_main_arg5 m c),
        (h c _ (Cert.KernelIdeal.Hand.mem_uc Cert.KernelIdeal.main_arg6 (by decide))).trans (Cert.KernelIdeal.Hand.B5_main_arg6 m c),
        (h c _ (Cert.KernelIdeal.Hand.mem_uc Cert.KernelIdeal.main_arg7 (by decide))).trans (Cert.KernelIdeal.Hand.B5_main_arg7 m c),
        (h c _ (Cert.KernelIdeal.Hand.mem_uc Cert.KernelIdeal.main_arg8 (by decide))).trans (Cert.KernelIdeal.Hand.B5_main_arg8 m c),
        (h c _ (Cert.KernelIdeal.Hand.mem_uc Cert.KernelIdeal.main_arg9 (by decide))).trans (Cert.KernelIdeal.Hand.B5_main_arg9 m c),
        (h c _ (Cert.KernelIdeal.Hand.mem_uc Cert.KernelIdeal.main_arg10 (by decide))).trans (Cert.KernelIdeal.Hand.B5_main_arg10 m c),
        (h c _ (Cert.KernelIdeal.Hand.mem_uc Cert.KernelIdeal.main_arg11 (by decide))).trans (Cert.KernelIdeal.Hand.B5_main_arg11 m c),
        (h c _ (Cert.KernelIdeal.Hand.mem_uc Cert.KernelIdeal.main_arg12 (by decide))).trans (Cert.KernelIdeal.Hand.B5_main_arg12 m c),
        (h c _ (Cert.KernelIdeal.Hand.mem_uc Cert.KernelIdeal.main_arg13 (by decide))).trans (Cert.KernelIdeal.Hand.B5_main_arg13 m c),
        (h c _ (Cert.KernelIdeal.Hand.mem_uc Cert.KernelIdeal.main_arg14 (by decide))).trans (Cert.KernelIdeal.Hand.B5_main_arg14 m c),
        (h c _ (Cert.KernelIdeal.Hand.mem_uc Cert.KernelIdeal.main_arg15 (by decide))).trans (Cert.KernelIdeal.Hand.B5_main_arg15 m c),
        (h c _ (Cert.KernelIdeal.Hand.mem_uc Cert.KernelIdeal.main_arg16 (by decide))).trans (Cert.KernelIdeal.Hand.B5_main_arg16 m c),
        (h c _ (Cert.KernelIdeal.Hand.mem_uc Cert.KernelIdeal.main_arg17 (by decide))).trans (Cert.KernelIdeal.Hand.B5_main_arg17 m c)⟩)
      (Cert.KernelIdeal.Hand.run_all (F := Ideal) m ρ)
  · refine (θ_run Cert.ReferenceIdeal.defs _ _).mono (fun r h c => ?_) (Cert.RefRun.run (F := Ideal) m' ρ')
    obtain ⟨e0, e1, e2, e3, e4, e5, e6, e7, e8, e9, e10, e11, e12, e13, e14, e15, e16, e17⟩ := hagree c
    refine ⟨(h c).1.trans ((Cert.RefValue.res46_value m' c).trans ?_), (h c).2.1.trans ((Cert.RefValue.res45_value m' c).trans ?_), (h c).2.2⟩
    · rw [show Cert.RefValue.r2 m' c = Cert.KernelIdeal.Hand.g2 m c from e2,
        show Cert.RefValue.r3 m' c = Cert.KernelIdeal.Hand.g3 m c from e3,
        show Cert.RefValue.r4 m' c = Cert.KernelIdeal.Hand.g4 m c from e4,
        show Cert.RefValue.r5 m' c = Cert.KernelIdeal.Hand.g5 m c from e5,
        show Cert.RefValue.r6 m' c = Cert.KernelIdeal.Hand.g6 m c from e6,
        show Cert.RefValue.r7 m' c = Cert.KernelIdeal.Hand.g7 m c from e7,
        show Cert.RefValue.r8 m' c = Cert.KernelIdeal.Hand.g8 m c from e8,
        show Cert.RefValue.r9 m' c = Cert.KernelIdeal.Hand.g9 m c from e9,
        show Cert.RefValue.r10 m' c = Cert.KernelIdeal.Hand.g10 m c from e10,
        show Cert.RefValue.r11 m' c = Cert.KernelIdeal.Hand.g11 m c from e11]
    · rw [show Cert.RefValue.r2 m' c = Cert.KernelIdeal.Hand.g2 m c from e2,
        show Cert.RefValue.r3 m' c = Cert.KernelIdeal.Hand.g3 m c from e3,
        show Cert.RefValue.r4 m' c = Cert.KernelIdeal.Hand.g4 m c from e4,
        show Cert.RefValue.r5 m' c = Cert.KernelIdeal.Hand.g5 m c from e5,
        show Cert.RefValue.r6 m' c = Cert.KernelIdeal.Hand.g6 m c from e6,
        show Cert.RefValue.r7 m' c = Cert.KernelIdeal.Hand.g7 m c from e7,
        show Cert.RefValue.r8 m' c = Cert.KernelIdeal.Hand.g8 m c from e8,
        show Cert.RefValue.r9 m' c = Cert.KernelIdeal.Hand.g9 m c from e9,
        show Cert.RefValue.r10 m' c = Cert.KernelIdeal.Hand.g10 m c from e10,
        show Cert.RefValue.r11 m' c = Cert.KernelIdeal.Hand.g11 m c from e11,
        show Cert.RefValue.r0 m' c = Cert.KernelIdeal.Hand.g0 m c from e0,
        show Cert.RefValue.r12 m' c = Cert.KernelIdeal.Hand.g12 m c from e12,
        show Cert.RefValue.r13 m' c = Cert.KernelIdeal.Hand.g13 m c from e13,
        show Cert.RefValue.r14 m' c = Cert.KernelIdeal.Hand.g14 m c from e14,
        show Cert.RefValue.r15 m' c = Cert.KernelIdeal.Hand.g15 m c from e15,
        show Cert.RefValue.r16 m' c = Cert.KernelIdeal.Hand.g16 m c from e16,
        show Cert.RefValue.r17 m' c = Cert.KernelIdeal.Hand.g17 m c from e17]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
